-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S6144x2048 : Shape := ⟨2, ![6144, 2048]⟩
abbrev S6144 : Shape := ⟨1, ![6144]⟩
abbrev S2048x64 : Shape := ⟨2, ![2048, 64]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  main_v18

def fn {F : FTy → Type} [FloatOps F] (main_arg0 : FVec F S2x2048x2048 .f32) (main_arg1 : FVec F S6144x2048 .f32) (main_arg2 : FVec F S6144 .f32) (main_arg3 : FVec F S2048x64 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S6144x2048 .f32 := Host.absf main_arg1
  let main_cst_0 : FVec F S_ .f32 := constant S_ .f32 0x7F800000#32
  let main_v5 : FVec F S6144x2048 .f32 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_v13 main_v16
-- ==== Kernel.lean ====
abbrev S2x2048x2048 : Shape := ⟨3, ![2, 2048, 2048]⟩
abbrev S6144x2048 : Shape := ⟨2, ![6144, 2048]⟩
abbrev S6144 : Shape := ⟨1, ![6144]⟩
abbrev S2048x64 : Shape := ⟨2, ![2048, 64]⟩
abbrev S4096x2048 : Shape := ⟨2, ![4096, 2048]⟩
abbrev S1x6144 : Shape := ⟨2, ![1, 6144]⟩
abbrev S4096x6144 : Shape := ⟨2, ![4096, 6144]⟩
abbrev S2048x2048 : Shape := ⟨2, ![2048, 2048]⟩
abbrev S512x2048 : Shape := ⟨2, ![512, 2048]⟩
abbrev S1x512 : Shape := ⟨2, ![1, 512]⟩
abbrev S2048x512 : Shape := ⟨2, ![2048, 512]⟩
abbrev S2x16x2048x128 : Shape := ⟨4, ![2, 16, 2048, 128]⟩
abbrev S512x128 : Shape := ⟨2, ![512, 128]⟩
abbrev S2048x128 : Shape := ⟨2, ![2048, 128]⟩
abbrev S512x64 : Shape := ⟨2, ![512, 64]⟩
abbrev S1x1x2048x128 : Shape := ⟨4, ![1, 1, 2048, 128]⟩
abbrev S512 : Shape := ⟨1, ![512]⟩
abbrev S512x1 : Shape := ⟨2, ![512, 1]⟩

abbrev nBuf : Space → Nat
  | .hbm => 12
  | .vmem => 23
  | .smem => 0
  | _ => 0

abbrev bufTy : (tb : Table) → Fin (tcTables nBuf tb) → BufTy
  | .hbm, ⟨0, _⟩ => ⟨S2x2048x2048, .f32⟩
  | .hbm, ⟨1, _⟩ => ⟨S6144x2048, .f32⟩
  | .hbm, ⟨2, _⟩ => ⟨S6144, .f32⟩
  | .hbm, ⟨3, _⟩ => ⟨S2048x64, .f32⟩
  | .hbm, ⟨4, _⟩ => ⟨S4096x2048, .f32⟩
  | .hbm, ⟨5, _⟩ => ⟨S4096x2048, .bf16⟩
  | .hbm, ⟨6, _⟩ => ⟨S6144x2048, .bf16⟩
  | .hbm, ⟨7, _⟩ => ⟨S1x6144, .f32⟩
  | .hbm, ⟨8, _⟩ => ⟨S4096x6144, .f32⟩
  | .hbm, ⟨9, _⟩ => ⟨S4096x2048, .f32⟩
  | .hbm, ⟨10, _⟩ => ⟨S2x16x2048x128, .f32⟩
  | .hbm, ⟨11, _⟩ => ⟨S2x16x2048x128, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S512x128, .f32⟩
  | .local _ .vmem, ⟨9, _⟩ => ⟨S512x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S512x64, .f32⟩
  | .local _ .vmem, ⟨15, _⟩ => ⟨S512x64, .f32⟩
  | .local _ .vmem, ⟨16, _⟩ => ⟨S2048x64, .f32⟩
  | .local _ .vmem, ⟨17, _⟩ => ⟨S512x128, .f32⟩
  | .local _ .vmem, ⟨18, _⟩ => ⟨S512x128, .f32⟩
  | .local _ .vmem, ⟨19, _⟩ => ⟨S1x1x2048x128, .f32⟩
  | .local _ .vmem, ⟨20, _⟩ => ⟨S1x1x2048x128, .f32⟩
  | .local _ .vmem, ⟨21, _⟩ => ⟨S1x1x2048x128, .f32⟩
  | .local _ .vmem, ⟨22, _⟩ => ⟨S1x1x2048x128, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli v16 c4_i32
  let v28 : BitVec 32 := Scalar.addi v27 arg1
  let c0_i32_10 : BitVec 32 := 0#32
  ![v28.toNat, v26.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c16_i32_10 : BitVec 32 := 16#32
  let v27 : BitVec 32 := Scalar.addi c16_i32_10 v26
  let c0_i32_11 : BitVec 32 := 0#32
  ![v16.toNat, v27.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c32_i32 : BitVec 32 := 32#32
  let v27 : BitVec 32 := Scalar.addi c32_i32 v26
  let c0_i32_10 : BitVec 32 := 0#32
  ![v16.toNat, v27.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli v16 c4_i32
  let v28 : BitVec 32 := Scalar.addi v27 arg1
  let c0_i32_10 : BitVec 32 := 0#32
  ![v28.toNat, v26.toNat]

def cc1_transform_6 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_7 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S2048x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1x2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S2x2048x2048_S4096x2048 : S2x2048x2048.ShapeCasts S4096x2048
  bitsLt_bf16_f32 : FTy.bits .bf16 < FTy.bits .f32
  shapeCasts_S6144_S1x6144 : S6144.ShapeCasts S1x6144
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S512x64_S512x64_0_0 : ∀ a, (![0, 0] : Fin 2 → Nat) a + S512x64.size a ≤ S512x64.size a
  h_S512x64 : 0 < S512x64.numel
  inb_S2048x64_S2048x64_0_0 : ∀ a, (![0, 0] : Fin 2 → Nat) a + S2048x64.size a ≤ S2048x64.size a
  h_S2048x64 : 0 < S2048x64.numel
  slices_S512x128_o0_0_S512x64 : S512x128.Slices ![0, 0] S512x64
  slices_S2048x128_o0_0_S2048x64 : S2048x128.Slices ![0, 0] S2048x64
  concatenates_S512x64_S512x64_S512x128_d1 : Shape.Concatenates [S512x64, S512x64] S512x128 1
  concatenates_S2048x64_S2048x64_S2048x128_d1 : Shape.Concatenates [S2048x64, S2048x64] S2048x128 1
  reduces_S512x2048_S512 : S512x2048.Reduces [1] S512
  shapeCasts_S512_S512x1 : S512.ShapeCasts S512x1
  broadcasts_S512x1_S512x2048 : S512x1.Broadcasts S512x2048
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  shapeCasts_S2048x128_S1x1x2048x128 : S2048x128.ShapeCasts S1x1x2048x128
  dot_S2048x2048_S512x2048_S2048x512_1_1_0_0_n_n_wf : DotDims.WF S2048x2048 S512x2048 S2048x512 [1] [1] [0] [0] [] []
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S4096x2048.size a
  hwx0_0 : ∀ i : grid0.Coords, EltTy.bits .bf16 = 32 ∨ (Rect.block (s := S4096x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S6144x2048.size a
  hwx0_1 : ∀ i : grid0.Coords, EltTy.bits .bf16 = 32 ∨ (Rect.block (s := S6144x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x6144.size a
  hwx0_2 : ∀ i : grid0.Coords, EltTy.bits .f32 = 32 ∨ (Rect.block (s := S1x6144) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S4096x6144.size a
  hwx0_3 : ∀ i : grid0.Coords, EltTy.bits .f32 = 32 ∨ (Rect.block (s := S4096x6144) S2048x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x6144.size a
  hwx1_0 : ∀ i : grid1.Coords, EltTy.bits .f32 = 32 ∨ (Rect.block (s := S4096x6144) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S4096x6144.size a
  hwx1_1 : ∀ i : grid1.Coords, EltTy.bits .f32 = 32 ∨ (Rect.block (s := S4096x6144) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S4096x6144.size a
  hwx1_2 : ∀ i : grid1.Coords, EltTy.bits .f32 = 32 ∨ (Rect.block (s := S4096x6144) S2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S2048x64.size a
  hwx1_3 : ∀ i : grid1.Coords, EltTy.bits .f32 = 32 ∨ (Rect.block (s := S2048x64) S512x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x64.size a ≤ S2048x64.size a
  hwx1_4 : ∀ i : grid1.Coords, EltTy.bits .f32 = 32 ∨ (Rect.block (s := S2048x64) S2048x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S4096x2048.size a
  hwx1_5 : ∀ i : grid1.Coords, EltTy.bits .f32 = 32 ∨ (Rect.block (s := S4096x2048) S512x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x2048x128.size a ≤ S2x16x2048x128.size a
  hwx1_6 : ∀ i : grid1.Coords, EltTy.bits .f32 = 32 ∨ (Rect.block (s := S2x16x2048x128) S1x1x2048x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x2048x128.size a ≤ S2x16x2048x128.size a
  hwx1_7 : ∀ i : grid1.Coords, EltTy.bits .f32 = 32 ∨ (Rect.block (s := S2x16x2048x128) S1x1x2048x128.size (cc1_transform_7 i) (hinb1_7 i)).WholeWords (EltTy.packing .f32)

variable [Facts₀]

def dot_S2048x2048_S512x2048_S2048x512_1_1_0_0_n_n : DotDims S2048x2048 S512x2048 S2048x512 where
  lhsContracting := [1]
  rhsContracting := [1]
  lhsNonContracting := [0]
  rhsNonContracting := [0]
  lhsBatch := []
  rhsBatch := []
  wf := dot_S2048x2048_S512x2048_S2048x512_1_1_0_0_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v1) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S2048x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5_0) S512x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5_1) S1x1x2048x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v5_2) S1x1x2048x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2x2048x2048 : Shape := ⟨3, ![2, 2048, 2048]⟩
abbrev S6144x2048 : Shape := ⟨2, ![6144, 2048]⟩
abbrev S6144 : Shape := ⟨1, ![6144]⟩
abbrev S2048x64 : Shape := ⟨2, ![2048, 64]⟩
abbrev S2x2048x6144 : Shape := ⟨3, ![2, 2048, 6144]⟩
abbrev S1x1x6144 : Shape := ⟨3, ![1, 1, 6144]⟩
abbrev S2x2048x16x128 : Shape := ⟨4, ![2, 2048, 16, 128]⟩
abbrev S1x2048x1x64 : Shape := ⟨4, ![1, 2048, 1, 64]⟩
abbrev S2x2048x16x64 : Shape := ⟨4, ![2, 2048, 16, 64]⟩
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S4096x2048 : Shape := ⟨2, ![4096, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S6144x2048, .f32⟩
  | .hbm, ⟨2, _⟩ => ⟨S6144, .f32⟩
  | .hbm, ⟨3, _⟩ => ⟨S2048x64, .f32⟩
  | .hbm, ⟨4, _⟩ => ⟨S2x2048x6144, .f32⟩
  | .hbm, ⟨5, _⟩ => ⟨S1x1x6144, .f32⟩
  | .hbm, ⟨6, _⟩ => ⟨S2x2048x6144, .f32⟩
  | .hbm, ⟨7, _⟩ => ⟨S2x2048x6144, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S2x2048x16x128, .f32⟩
  | .hbm, ⟨12, _⟩ => ⟨S2x2048x16x128, .f32⟩
  | .hbm, ⟨13, _⟩ => ⟨S2x2048x16x128, .f32⟩
  | .hbm, ⟨14, _⟩ => ⟨S1x2048x1x64, .f32⟩
  | .hbm, ⟨15, _⟩ => ⟨S2x2048x16x64, .f32⟩
  | .hbm, ⟨16, _⟩ => ⟨S2x2048x16x64, .f32⟩
  | .hbm, ⟨17, _⟩ => ⟨S2x2048x16x64, .f32⟩
  | .hbm, ⟨18, _⟩ => ⟨S2x2048x16x64, .f32⟩
  | .hbm, ⟨19, _⟩ => ⟨S2x2048x16x64, .f32⟩
  | .hbm, ⟨20, _⟩ => ⟨S2x2048x16x64, .f32⟩
  | .hbm, ⟨21, _⟩ => ⟨S2x2048x16x128, .f32⟩
  | .hbm, ⟨22, _⟩ => ⟨S2x2048x16x128, .f32⟩
  | .hbm, ⟨23, _⟩ => ⟨S2x16x2048x128, .f32⟩
  | .hbm, ⟨24, _⟩ => ⟨S2x16x2048x128, .f32⟩
  | .hbm, ⟨25, _⟩ => ⟨S2x16x2048x128, .f32⟩
  | .hbm, ⟨26, _⟩ => ⟨S2x16x2048x2048, .f32⟩
  | .hbm, ⟨27, _⟩ => ⟨S_, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S_, .f32⟩
  | .hbm, ⟨33, _⟩ => ⟨S2x16x2048, .f32⟩
  | .hbm, ⟨34, _⟩ => ⟨S2x16x2048, .f32⟩
  | .hbm, ⟨35, _⟩ => ⟨S2x16x2048x1, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048, .f32⟩
  | .hbm, ⟨41, _⟩ => ⟨S2x16x2048x1, .f32⟩
  | .hbm, ⟨42, _⟩ => ⟨S2x16x2048x2048, .f32⟩
  | .hbm, ⟨43, _⟩ => ⟨S2x16x2048x2048, .f32⟩
  | .hbm, ⟨44, _⟩ => ⟨S2x16x2048x128, .f32⟩
  | .hbm, ⟨45, _⟩ => ⟨S2x2048x16x128, .f32⟩
  | .hbm, ⟨46, _⟩ => ⟨S4096x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]

class Facts₀ : Prop where
  bcast_S6144_S1x1x6144_2 : S6144.BroadcastsInDim S1x1x6144 (![2] : Fin 1 → Fin S1x1x6144.rank)
  bcast_S1x1x6144_S2x2048x6144_0_1_2 : S1x1x6144.BroadcastsInDim S2x2048x6144 (![0, 1, 2] : Fin 3 → Fin S2x2048x6144.rank)
  slices_S2x2048x6144_S2x2048x2048_0_0_0 : S2x2048x6144.Slices ![0, 0, 0] S2x2048x2048
  slices_S2x2048x6144_S2x2048x2048_0_0_2048 : S2x2048x6144.Slices ![0, 0, 2048] S2x2048x2048
  slices_S2x2048x6144_S2x2048x2048_0_0_4096 : S2x2048x6144.Slices ![0, 0, 4096] S2x2048x2048
  shapeCasts_S2x2048x2048_S2x2048x16x128 : S2x2048x2048.ShapeCasts S2x2048x16x128
  bcast_S2048x64_S1x2048x1x64_1_3 : S2048x64.BroadcastsInDim S1x2048x1x64 (![1, 3] : Fin 2 → Fin S1x2048x1x64.rank)
  slices_S2x2048x16x128_S2x2048x16x64_0_0_0_0 : S2x2048x16x128.Slices ![0, 0, 0, 0] S2x2048x16x64
  bcast_S1x2048x1x64_S2x2048x16x64_0_1_2_3 : S1x2048x1x64.BroadcastsInDim S2x2048x16x64 (![0, 1, 2, 3] : Fin 4 → Fin S2x2048x16x64.rank)
  concatenates_S2x2048x16x64_S2x2048x16x64_S2x2048x16x128_d3 : Shape.Concatenates [S2x2048x16x64, S2x2048x16x64] S2x2048x16x128 3
  transposes_S2x2048x16x128_S2x16x2048x128_0_2_1_3 : S2x2048x16x128.Transposes [0, 2, 1, 3] S2x16x2048x128
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S4096x2048 : S2x2048x16x128.ShapeCasts S4096x2048
  dot_S2x2048x2048_S6144x2048_S2x2048x6144_2_1_01_0_n_n_wf : DotDims.WF S2x2048x2048 S6144x2048 S2x2048x6144 [2] [1] [0, 1] [0] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x2048x2048_S6144x2048_S2x2048x6144_2_1_01_0_n_n : DotDims S2x2048x2048 S6144x2048 S2x2048x6144 where
  lhsContracting := [2]
  rhsContracting := [1]
  lhsNonContracting := [0, 1]
  rhsNonContracting := [0]
  lhsBatch := []
  rhsBatch := []
  wf := dot_S2x2048x2048_S6144x2048_S2x2048x6144_2_1_01_0_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.KernelFrame.Defs0.lean ====
/-
  The projection kernel's pipeline, at a parameter `V` — the contents of the core's buffers when the pipeline is entered.
  A grid point (i, j) of the 2 × 12 grid reads rows 2048·i … of the activations, rows 512·j … of the weights and columns
  512·j … of the bias row, and writes the 2048 × 512 block (i, j) of the projection.  Stated here: each window's block
  at a point, what the body leaves in the output's staging buffer as a function of the three input blocks, and the
  pipeline's proof data (every array held whole; inputs leave their blocks in place; nothing owed).
-/
import proofs.«177219_j15144054686376_2_alg».proof.Proof.Gen.Kernel.Launch
import proofs.«177219_j15144054686376_2_alg».proof.Proof.Gen.Kernel.Skeleton
import proofs.«177219_j15144054686376_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body reads and writes. -/
abbrev r0_x : Rect S2048x2048 := Rect.unit (s := S2048x2048) ![0, 0] S2048x2048.size inb_S2048x2048_S2048x2048_0_0
abbrev r0_w : Rect S512x2048 := Rect.unit (s := S512x2048) ![0, 0] S512x2048.size inb_S512x2048_S512x2048_0_0
abbrev r0_b : Rect S1x512 := Rect.unit (s := S1x512) ![0, 0] S1x512.size inb_S1x512_S1x512_0_0
abbrev r0_o : Rect S2048x512 := Rect.unit (s := S2048x512) ![0, 0] S2048x512.size inb_S2048x512_S2048x512_0_0

/-- The output's staging buffer after the body, from the three input blocks: one store of the whole block. -/
def out0_3 (x0 : Vec F S2048x2048 .bf16) (x1 : Vec F S512x2048 .bf16) (x2 : Vec F S1x512 .f32) : Vec F S2048x512 .f32 :=
  View.canon [⟨r0_o, k0_pay1 (View.ld x0 r0_x) (View.ld x1 r0_w) (View.ld x2 r0_b)⟩]

/-- The proof data of the projection's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.Kernel.Hand

end
-- ==== Proof.KernelFrame.Defs1.lean ====
/-
  The attention kernel's pipeline, at a parameter `V` — the contents of the core's buffers when the pipeline is entered.
  A grid point (b·16 + h, i) of the 32 × 4 grid reads, out of the ONE projection array, the 512 query rows of tile `i`
  and all 2048 key rows and value rows of batch `b` at head `h`'s columns, and out of the ONE table its rows of tile `i`
  and all of it; it writes tile `i` of head `h`'s attention output and (the same at each of the head's four points) the
  head's rotated keys and values.  Three windows read the projection array and two the table: each window holds its array
  at a part of the full share, the parts of one array composing to the whole.
-/
import proofs.«177219_j15144054686376_2_alg».proof.Proof.Gen.Kernel.Launch
import proofs.«177219_j15144054686376_2_alg».proof.Proof.Gen.Kernel.Skeleton
import proofs.«177219_j15144054686376_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body reads and writes. -/
abbrev r1_q : Rect S512x128 := Rect.unit (s := S512x128) ![0, 0] S512x128.size inb_S512x128_S512x128_0_0
abbrev r1_k : Rect S2048x128 := Rect.unit (s := S2048x128) ![0, 0] S2048x128.size inb_S2048x128_S2048x128_0_0
abbrev r1_fq : Rect S512x64 := Rect.unit (s := S512x64) ![0, 0] S512x64.size inb_S512x64_S512x64_0_0
abbrev r1_fk : Rect S2048x64 := Rect.unit (s := S2048x64) ![0, 0] S2048x64.size inb_S2048x64_S2048x64_0_0
abbrev r1_o : Rect S1x1x2048x128 := Rect.unit (s := S1x1x2048x128) ![0, 0, 0, 0] S1x1x2048x128.size inb_S1x1x2048x128_S1x1x2048x128_0_0_0_0

/-- The attention output's staging buffer after the body, from the five input blocks: one store of the whole block. -/
def out1_5 (x0 : Vec F S512x128 .f32) (x1 : Vec F S2048x128 .f32) (x2 : Vec F S2048x128 .f32) (x3 : Vec F S512x64 .f32)
    (x4 : Vec F S2048x64 .f32) : Vec F S512x128 .f32 :=
  View.canon [⟨r1_q, k1_pay4 (View.ld x0 r1_q) (View.ld x1 r1_k) (View.ld x2 r1_k) (View.ld x3 r1_fq) (View.ld x4 r1_fk)⟩]

/-- The rotated keys' staging buffer after the body, from the key block and the whole table. -/
def out1_6 (x1 : Vec F S2048x128 .f32) (x4 : Vec F S2048x64 .f32) : Vec F S1x1x2048x128 .f32 :=
  View.canon [⟨r1_o, k1_pay5 (View.ld x1 r1_k) (View.ld x4 r1_fk)⟩]

/-- The values' staging buffer after the body, from the value block. -/
def out1_7 (x2 : Vec F S2048x128 .f32) : Vec F S1x1x2048x128 .f32 :=
  View.canon [⟨r1_o, k1_pay1 (k1_pay2 (View.ld x2 r1_k))⟩]

/-- The share of its array each input window holds: the projection array dealt among windows 0, 1, 2, the table between
    windows 3, 4. -/
def q1 : Fin cfg1.W → PosShare TreeShare
  | ⟨0, _⟩ => fullShare.left
  | ⟨1, _⟩ => fullShare.right.left
  | ⟨2, _⟩ => fullShare.right.right
  | ⟨3, _⟩ => fullShare.left
  | ⟨4, _⟩ => fullShare.right
  | ⟨5, _⟩ => fullShare
  | ⟨6, _⟩ => fullShare
  | ⟨7, _⟩ => fullShare

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 1 t) (iblk1 V c 4 t)
    | ⟨7, _⟩ => out1_7 (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 1 t) (iblk1 V c 4 t) := by dsimp only [dat1]
theorem after1_7 (c : Dev nD) (t : Fin cfg1.N) : (dat1 V c).after 7 t = out1_7 (iblk1 V c 2 t) := by dsimp only [dat1]

end Cert.Kernel.Hand

end
-- ==== Proof.KernelFrame.Fold.lean ====
/-
  The contents of the core's buffers at each boundary of the program's three items — a stretch of host operations
  (flatten the activations, two changes of float format, the bias as a row), the projection pipeline, the attention
  pipeline —, a fold from the launch memory: a host stretch leaves what its operations compute; a pipeline leaves its
  output arrays at what its write-backs fold to and every other buffer as entered.  No item writes an argument, and the
  three results end at what the attention pipeline's write-backs fold to.
-/
import proofs.«177219_j15144054686376_2_alg».proof.Proof.KernelFrame.Defs0
import proofs.«177219_j15144054686376_2_alg».proof.Proof.KernelFrame.Defs1
import proofs.«177219_j15144054686376_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- After the host stretch (the projection pipeline's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At the projection pipeline's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the attention pipeline's entry). -/
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- At the attention pipeline's exit: its three output arrays at what the pipeline leaves, every other buffer as
    entered. -/
def W3 (c : Dev nD) : Valuation τ sig (Elt F) :=
  Function.update (Function.update (Function.update (W2 m c) main_v5_0 ((dat1 (U2 m) c).arrAt 5 cfg1.N))
    main_v5_1 ((dat1 (U2 m) c).arrAt 6 cfg1.N)) main_v5_2 ((dat1 (U2 m) c).arrAt 7 cfg1.N)
abbrev U3 : (c : Dev nD) → (b : Ref sig .tc) → Buf (Elt F) ((c : Thread nD τ).loc b) := fun c b => W3 m c b

/-! ### The arguments end as launched -/

theorem W1_of (c : Dev nD) (r : Ref sig .tc) (h : r ∉ hostOps0_W) : W1 m c r = W0 m c r :=
  StableHlo.after_of_writes_sub hostOps0 _ hostOps0_writes h

theorem W3_of (c : Dev nD) (r : Ref sig .tc) (h : r ∉ ([main_v5_0, main_v5_1, main_v5_2] : List (Ref sig .tc))) : W3 m c r = W2 m c r := by
  simp only [W3, Function.update_of_ne (StableHlo.devRef_ne_of_ne (List.ne_of_not_mem_cons h) : (Proc.devRef .tc r : DevRef τ sig) ≠ Proc.devRef .tc main_v5_0), Function.update_of_ne (StableHlo.devRef_ne_of_ne (List.ne_of_not_mem_cons (List.not_mem_of_not_mem_cons h)) : (Proc.devRef .tc r : DevRef τ sig) ≠ Proc.devRef .tc main_v5_1), Function.update_of_ne (StableHlo.devRef_ne_of_ne (List.ne_of_not_mem_cons (List.not_mem_of_not_mem_cons (List.not_mem_of_not_mem_cons h))) : (Proc.devRef .tc r : DevRef τ sig) ≠ Proc.devRef .tc main_v5_2)]

theorem W3_arg (c : Dev nD) (r : Ref sig .tc) (h3 : r ∉ ([main_v5_0, main_v5_1, main_v5_2] : List (Ref sig .tc)))
    (h2 : ∀ w, Pipeline.arrRef spec0 w ≠ r) (h1 : r ∉ hostOps0_W) : W3 m c r = m ((c : Thread nD τ).loc r) :=
  (W3_of m c r h3).trans <| (W2_of_ne m c r h2).trans <| (W1_of m c r h1).trans rfl

theorem W3_main_arg0 (c : Dev nD) : W3 m c main_arg0 = m ((c : Thread nD τ).loc main_arg0) := W3_arg m c main_arg0 (by decide) (by decide) (by decide)
theorem W3_main_arg1 (c : Dev nD) : W3 m c main_arg1 = m ((c : Thread nD τ).loc main_arg1) := W3_arg m c main_arg1 (by decide) (by decide) (by decide)
theorem W3_main_arg2 (c : Dev nD) : W3 m c main_arg2 = m ((c : Thread nD τ).loc main_arg2) := W3_arg m c main_arg2 (by decide) (by decide) (by decide)
theorem W3_main_arg3 (c : Dev nD) : W3 m c main_arg3 = m ((c : Thread nD τ).loc main_arg3) := W3_arg m c main_arg3 (by decide) (by decide) (by decide)

/-- The three results at the end: what the attention pipeline's write-backs fold to. -/
theorem W3_y (c : Dev nD) : W3 m c main_v5_0 = (dat1 (U2 m) c).arrAt 5 cfg1.N := by
  simp only [W3, Function.update_of_ne (StableHlo.devRef_ne_of_ne (by decide) : (Proc.devRef .tc main_v5_0 : DevRef τ sig) ≠ Proc.devRef .tc main_v5_2),
    Function.update_of_ne (StableHlo.devRef_ne_of_ne (by decide) : (Proc.devRef .tc main_v5_0 : DevRef τ sig) ≠ Proc.devRef .tc main_v5_1), Function.update_self]
theorem W3_k (c : Dev nD) : W3 m c main_v5_1 = (dat1 (U2 m) c).arrAt 6 cfg1.N := by
  simp only [W3, Function.update_of_ne (StableHlo.devRef_ne_of_ne (by decide) : (Proc.devRef .tc main_v5_1 : DevRef τ sig) ≠ Proc.devRef .tc main_v5_2), Function.update_self]
theorem W3_v (c : Dev nD) : W3 m c main_v5_2 = (dat1 (U2 m) c).arrAt 7 cfg1.N := by
  simp only [W3, Function.update_self]

end Cert.Kernel.Hand

end
-- ==== Proof.KernelFrame.Body0.lean ====
/-
  The projection kernel's body obligation: at every grid point, running the body on the three input blocks and the
  output's staging buffer leaves the input blocks as they were and the output's staging buffer holding the one stored
  block, a function of the three input blocks.
-/
import proofs.«177219_j15144054686376_2_alg».proof.Proof.Gen.Kernel.Launch
import proofs.«177219_j15144054686376_2_alg».proof.Proof.Gen.Kernel.Skeleton
import proofs.«177219_j15144054686376_2_alg».proof.Proof.Gen.Kernel.Points
import proofs.«177219_j15144054686376_2_alg».proof.Proof.KernelFrame.Defs0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's staging buffer holds its block -/

/-- The activation rows' staging buffer holds their block at every point, fetched there or not: where the pipeline
    does not fetch, the block index has not moved, and the body left the block in place. -/
theorem held0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight rows' staging buffer holds their block at every point. -/
theorem held0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The bias row's staging buffer holds its block at every point. -/
theorem held0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The one store covers the output's staging buffer -/

/-- The single stored rectangle is the whole 2048 × 512 buffer, so every index of the buffer lies in it. -/
theorem tiles0_3 (p0 : Vec F S2048x512 .f32) (y : S2048x512.Idx) :
    ∃ pc ∈ ([⟨r0_o, p0⟩] : List (View.Piece (Elt F) S2048x512 .f32)), y ∈ pc.1.set :=
  View.cover_of_tiled [⟨r0_o, p0⟩] S2048x512.size (by rfl) y

/-! ## The body's triple -/

set_option maxHeartbeats 1000000 in
/-- The body on whole staging memrefs — the three inputs' at contents `x0 x1 x2`, the output's at anything — runs to
    the continuation with the inputs' contents unchanged and the output's at `out0_3 x0 x1 x2`: three loads, one
    load of the output buffer whose value is not used, and one store over the whole output block. -/
theorem run_kernel0 (c : Dev nD) (E : Set ℕ) (i : grid0.Coords)
    (a0 : Memref sig .tc .vmem S2048x2048 .bf16) (h0 : a0.IsWhole)
    (a1 : Memref sig .tc .vmem S512x2048 .bf16) (h1 : a1.IsWhole)
    (a2 : Memref sig .tc .vmem S1x512 .f32) (h2 : a2.IsWhole)
    (a3 : Memref sig .tc .vmem S2048x512 .f32) (h3 : a3.IsWhole)
    (x0 : Vec F S2048x2048 .bf16) (x1 : Vec F S512x2048 .bf16) (x2 : Vec F S1x512 .f32) (K : PUnit → sProp 𝕄) :
    iprop(owns (c : Thread nD τ) a0 fullShare x0 ∗ owns (c : Thread nD τ) a1 fullShare x1
        ∗ owns (c : Thread nD τ) a2 fullShare x2 ∗ (∃ d, owns (c : Thread nD τ) a3 fullShare d)
        ∗ (iprop(owns (c : Thread nD τ) a0 fullShare x0 ∗ owns (c : Thread nD τ) a1 fullShare x1
            ∗ owns (c : Thread nD τ) a2 fullShare x2 ∗ owns (c : Thread nD τ) a3 fullShare (out0_3 x0 x1 x2)) -∗ K ⟨⟩))
      ⊢ wp frame (wpE (defs₀ (F := F)) Variants.none c none) E (cc0__qkv_proj_kernel i a0 h0 a1 h1 a2 h2 a3 h3) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tiles0_3 _)

/-! ## The body obligation, at a generic point -/

/-- What the body is handed at point `t`: the invariant, what is owed, and the four staging buffers. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what is owed pass through unread. -/
theorem run_body0 (c : Dev nD) (t : Fin cfg0.N) :
    pre0 V c t ⊢ wp frame (wpE (defs₀ (F := F)) Variants.none c none) Set.univ (bodyAt0 t) (fun _ => post0 V c t) := by
  unfold pre0 post0 bodyAt0
  simp only [held0_0, held0_1, held0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (run_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the projection's pipeline, at every point. -/
theorem body_obligation0 (c : Dev nD) : BodyObligation (dat0 (F := F) V c) (defs₀ (F := F)) Variants.none () Set.univ := fun t => by
  rw [bigSep_W0, bigSep_W0]
  exact run_body0 V c t

end Cert.Kernel.Hand

end
-- ==== Proof.KernelFrame.Body1.lean ====
/-
  The body obligation of the attention pipeline: at every grid point, run between the pipeline's "before" and "after"
  frames, the kernel body reads its five staged input blocks and leaves in the three output staging buffers the values
  the pipeline's data record for that point.
-/
import proofs.«177219_j15144054686376_2_alg».proof.Proof.Gen.Kernel.Launch
import proofs.«177219_j15144054686376_2_alg».proof.Proof.Gen.Kernel.Skeleton
import proofs.«177219_j15144054686376_2_alg».proof.Proof.Gen.Kernel.Points
import proofs.«177219_j15144054686376_2_alg».proof.Proof.KernelFrame.Defs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's staging buffer holds its block -/

/-- Input window 0's current staging buffer holds its block at every point, whether the pipeline fetched it there or
    not (unfetched, the block index has not moved, and the buffer still holds the previous point's block, which is
    this point's): the window is uncut and never idle, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, whether the pipeline fetched it there or
    not (unfetched, the block index has not moved, and the buffer still holds the previous point's block, which is
    this point's): the window is uncut and never idle, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, whether the pipeline fetched it there or
    not (unfetched, the block index has not moved, and the buffer still holds the previous point's block, which is
    this point's): the window is uncut and never idle, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- Input window 3's current staging buffer holds its block at every point, whether the pipeline fetched it there or
    not (unfetched, the block index has not moved, and the buffer still holds the previous point's block, which is
    this point's): the window is uncut and never idle, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_3 (c : Dev nD) (t : Fin cfg1.N) (d) : (dat1 V c).before 3 t d = iblk1 V c 3 t :=
  before1_3_of V (dat1 V c) (A_eq1 V c 3) (after1_3 V c) t d

/-- Input window 4's current staging buffer holds its block at every point, whether the pipeline fetched it there or
    not (unfetched, the block index has not moved, and the buffer still holds the previous point's block, which is
    this point's): the window is uncut and never idle, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_4 (c : Dev nD) (t : Fin cfg1.N) (d) : (dat1 V c).before 4 t d = iblk1 V c 4 t :=
  before1_4_of V (dat1 V c) (A_eq1 V c 4) (after1_4 V c) t d

/-! ## The output stores cover their buffers -/

/-- The one store into the attention output's buffer is of the whole block, so it covers it. -/
theorem cover1_5 (p0 : Vec F S512x128 .f32) (y : S512x128.Idx) :
    ∃ pc ∈ ([⟨r1_q, p0⟩] : List (View.Piece (Elt F) S512x128 .f32)), y ∈ pc.1.set :=
  View.cover_of_tiled [⟨r1_q, p0⟩] S512x128.size (by rfl) y

/-- The one store into a head's key (or value) buffer is of the whole block, so it covers it. -/
theorem cover1_o (p0 : Vec F S1x1x2048x128 .f32) (y : S1x1x2048x128.Idx) :
    ∃ pc ∈ ([⟨r1_o, p0⟩] : List (View.Piece (Elt F) S1x1x2048x128 .f32)), y ∈ pc.1.set :=
  View.cover_of_tiled [⟨r1_o, p0⟩] S1x1x2048x128.size (by rfl) y

/-! ## The body's triple -/

set_option maxHeartbeats 4000000 in
/-- The kernel body on whole staging memrefs, the five inputs' at read contents `x0 … x4` and the three outputs' at
    anything, runs to the continuation holding the inputs' as they were and each output's at what its one whole-block
    store leaves: the attention tile, the rotated keys, the values. -/
theorem sound_kernel1 (c : Dev nD) (E : Set ℕ) (i : grid1.Coords)
    (arg2 : Memref sig .tc .vmem S512x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S512x64 .f32) (harg5 : arg5.IsWhole)
    (arg6 : Memref sig .tc .vmem S2048x64 .f32) (harg6 : arg6.IsWhole)
    (arg7 : Memref sig .tc .vmem S512x128 .f32) (harg7 : arg7.IsWhole)
    (arg8 : Memref sig .tc .vmem S1x1x2048x128 .f32) (harg8 : arg8.IsWhole)
    (arg9 : Memref sig .tc .vmem S1x1x2048x128 .f32) (harg9 : arg9.IsWhole)
    (x0 : Vec F S512x128 .f32) (x1 : Vec F S2048x128 .f32) (x2 : Vec F S2048x128 .f32) (x3 : Vec F S512x64 .f32)
    (x4 : Vec F S2048x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4
        ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (out1_5 x0 x1 x2 x3 x4)
            ∗ owns (c : Thread nD τ) arg8 fullShare (out1_6 x1 x4)
            ∗ owns (c : Thread nD τ) arg9 fullShare (out1_7 x2)) -∗ K ⟨⟩))
      ⊢ wp frame (wpE (defs₀ (F := F)) Variants.none c none) E
          (cc1__fused_attn_kernel i arg2 harg2 arg3 harg3 arg4 harg4 arg5 harg5 arg6 harg6 arg7 harg7 arg8 harg8 arg9 harg9) K := by
  simp only [cc1__fused_attn_kernel_eq_skeleton]; unfold cc1__fused_attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  isplitl [H6]
  · iexists _; isplitr
    swap; · iexact H6
    ipureintro
    exact View.read_writes_eq_canon _ _ _ (cover1_o _)
  iexists _; isplitr
  swap; · iexact H7
  ipureintro
  exact View.read_writes_eq_canon _ _ _ (cover1_o _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' staging buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelFrame.Shares1.lean ====
/-
  The attention pipeline's arrays in and out of the core's unscoped buffers.  Five distinct buffers stand behind its eight
  windows: the projection array (three input windows), the table (two input windows) and the three results.  Entering,
  each shared buffer's full share is dealt among the windows that read it; leaving, the parts are put back together.
-/
import proofs.«177219_j15144054686376_2_alg».proof.Proof.Gen.Kernel.Launch
import proofs.«177219_j15144054686376_2_alg».proof.Proof.Gen.Kernel.Skeleton
import proofs.«177219_j15144054686376_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«177219_j15144054686376_2_alg».proof.Proof.KernelFrame.Defs1
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The five distinct buffers behind the eight windows. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v4) ↦{fullShare} Vv main_v4) ∗ (((c : Thread nD τ).loc main_arg3) ↦{fullShare} Vv main_arg3)
          ∗ (((c : Thread nD τ).loc main_v5_0) ↦{fullShare} Vv main_v5_0) ∗ (((c : Thread nD τ).loc main_v5_1) ↦{fullShare} Vv main_v5_1)
          ∗ (((c : Thread nD τ).loc main_v5_2) ↦{fullShare} Vv main_v5_2)) := by
  unfold Pipeline.arrBufs
  exact bigSep_eq_bigSepL_of_eq [main_v4, main_arg3, main_v5_0, main_v5_1, main_v5_2] (by decide) (by decide) _

/-- The share of its array each window holds. -/
theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare.left := rfl
theorem share1_4 (c : Dev nD) : (dat1 V c).share 4 = fullShare.right := rfl
theorem share1_5 (c : Dev nD) : (dat1 V c).share 5 = fullShare := rfl
theorem share1_6 (c : Dev nD) : (dat1 V c).share 6 = fullShare := rfl
theorem share1_7 (c : Dev nD) : (dat1 V c).share 7 = fullShare := rfl

/-- Each window's array, whole, at its share. -/
theorem pt1_0 (c : Dev nD) (f : Buf (Elt F) ((cfg1.win 0).arr.view.loc (c : Thread nD τ))) :
    ((cfg1.win 0).arr.view.loc (c : Thread nD τ) ↦[(cfg1.win 0).arr.view.set]{(dat1 V c).share 0} f : sProp 𝕄)
      = (((c : Thread nD τ).loc main_v4) ↦{fullShare.left} f) := by
  rw [(arr_whole1 0).set_eq_univ, share1_0]
theorem pt1_1 (c : Dev nD) (f : Buf (Elt F) ((cfg1.win 1).arr.view.loc (c : Thread nD τ))) :
    ((cfg1.win 1).arr.view.loc (c : Thread nD τ) ↦[(cfg1.win 1).arr.view.set]{(dat1 V c).share 1} f : sProp 𝕄)
      = (((c : Thread nD τ).loc main_v4) ↦{fullShare.right.left} f) := by
  rw [(arr_whole1 1).set_eq_univ, share1_1]
theorem pt1_2 (c : Dev nD) (f : Buf (Elt F) ((cfg1.win 2).arr.view.loc (c : Thread nD τ))) :
    ((cfg1.win 2).arr.view.loc (c : Thread nD τ) ↦[(cfg1.win 2).arr.view.set]{(dat1 V c).share 2} f : sProp 𝕄)
      = (((c : Thread nD τ).loc main_v4) ↦{fullShare.right.right} f) := by
  rw [(arr_whole1 2).set_eq_univ, share1_2]
theorem pt1_3 (c : Dev nD) (f : Buf (Elt F) ((cfg1.win 3).arr.view.loc (c : Thread nD τ))) :
    ((cfg1.win 3).arr.view.loc (c : Thread nD τ) ↦[(cfg1.win 3).arr.view.set]{(dat1 V c).share 3} f : sProp 𝕄)
      = (((c : Thread nD τ).loc main_arg3) ↦{fullShare.left} f) := by
  rw [(arr_whole1 3).set_eq_univ, share1_3]
theorem pt1_4 (c : Dev nD) (f : Buf (Elt F) ((cfg1.win 4).arr.view.loc (c : Thread nD τ))) :
    ((cfg1.win 4).arr.view.loc (c : Thread nD τ) ↦[(cfg1.win 4).arr.view.set]{(dat1 V c).share 4} f : sProp 𝕄)
      = (((c : Thread nD τ).loc main_arg3) ↦{fullShare.right} f) := by
  rw [(arr_whole1 4).set_eq_univ, share1_4]
theorem pt1_5 (c : Dev nD) (f : Buf (Elt F) ((cfg1.win 5).arr.view.loc (c : Thread nD τ))) :
    ((cfg1.win 5).arr.view.loc (c : Thread nD τ) ↦[(cfg1.win 5).arr.view.set]{(dat1 V c).share 5} f : sProp 𝕄)
      = (((c : Thread nD τ).loc main_v5_0) ↦{fullShare} f) := by
  rw [(arr_whole1 5).set_eq_univ, share1_5]
theorem pt1_6 (c : Dev nD) (f : Buf (Elt F) ((cfg1.win 6).arr.view.loc (c : Thread nD τ))) :
    ((cfg1.win 6).arr.view.loc (c : Thread nD τ) ↦[(cfg1.win 6).arr.view.set]{(dat1 V c).share 6} f : sProp 𝕄)
      = (((c : Thread nD τ).loc main_v5_1) ↦{fullShare} f) := by
  rw [(arr_whole1 6).set_eq_univ, share1_6]
theorem pt1_7 (c : Dev nD) (f : Buf (Elt F) ((cfg1.win 7).arr.view.loc (c : Thread nD τ))) :
    ((cfg1.win 7).arr.view.loc (c : Thread nD τ) ↦[(cfg1.win 7).arr.view.set]{(dat1 V c).share 7} f : sProp 𝕄)
      = (((c : Thread nD τ).loc main_v5_2) ↦{fullShare} f) := by
  rw [(arr_whole1 7).set_eq_univ, share1_7]

/-- The pipeline's arrays, window by window. -/
theorem arrays1_eq (c : Dev nD) (F' : (w : Fin cfg1.W) → Buf (Elt F) ((cfg1.win w).arr.view.loc (c : Thread nD τ))) :
    ((dat1 V c).arrays F' : sProp 𝕄)
      = iprop((((c : Thread nD τ).loc main_v4) ↦{fullShare.left} F' 0)
        ∗ (((c : Thread nD τ).loc main_v4) ↦{fullShare.right.left} F' 1)
        ∗ (((c : Thread nD τ).loc main_v4) ↦{fullShare.right.right} F' 2)
        ∗ (((c : Thread nD τ).loc main_arg3) ↦{fullShare.left} F' 3)
        ∗ (((c : Thread nD τ).loc main_arg3) ↦{fullShare.right} F' 4)
        ∗ (((c : Thread nD τ).loc main_v5_0) ↦{fullShare} F' 5)
        ∗ (((c : Thread nD τ).loc main_v5_1) ↦{fullShare} F' 6)
        ∗ (((c : Thread nD τ).loc main_v5_2) ↦{fullShare} F' 7)) := by
  unfold Pipeline.Dat.arrays
  rw [bigSep_W1]
  exact congrArg₂ BI.sep (pt1_0 V c _) (congrArg₂ BI.sep (pt1_1 V c _) (congrArg₂ BI.sep (pt1_2 V c _) (congrArg₂ BI.sep (pt1_3 V c _)
    (congrArg₂ BI.sep (pt1_4 V c _) (congrArg₂ BI.sep (pt1_5 V c _) (congrArg₂ BI.sep (pt1_6 V c _) (pt1_7 V c _)))))))

/-- The buffers behind the arrays, each whole at the full share, make the pipeline's arrays: the projection array's full
    share is dealt among the three windows that read it, the table's between its two. -/
theorem arrays1_of_bufs (c : Dev nD) (Vv : (b : Ref sig .tc) → Buf (Elt F) ((c : Thread nD τ).loc b))
    (F' : (w : Fin cfg1.W) → Buf (Elt F) ((cfg1.win w).arr.view.loc (c : Thread nD τ)))
    (hF : ∀ w, F' w = Vv (Pipeline.arrRef spec1 w)) :
    (Pipeline.arrBufs (Ix := Unit) (Name := ℕ) (U := UR sig nD τ) (Lvl := ℕ) spec1 c Vv : sProp 𝕄) ⊢ (dat1 V c).arrays F' := by
  obtain rfl : F' = fun w => Vv (Pipeline.arrRef spec1 w) := funext hF
  rw [arrBufs1_eq, arrays1_eq]
  iintro ⟨H4, H3, H50, H51, H52⟩
  ihave H4' := (pointsTo_share (PosShare.mem_left_op_right fullShare)).1 $$ H4
  icases H4' with ⟨H4l, H4r⟩
  ihave H4r' := (pointsTo_share (PosShare.mem_left_op_right fullShare.right)).1 $$ H4r
  icases H4r' with ⟨H4rl, H4rr⟩
  ihave H3' := (pointsTo_share (PosShare.mem_left_op_right fullShare)).1 $$ H3
  icases H3' with ⟨H3l, H3r⟩
  isplitl [H4l]; · iexact H4l
  isplitl [H4rl]; · iexact H4rl
  isplitl [H4rr]; · iexact H4rr
  isplitl [H3l]; · iexact H3l
  isplitl [H3r]; · iexact H3r
  isplitl [H50]; · iexact H50
  isplitl [H51]; · iexact H51
  iexact H52

/-- The converse at the exit: the parts of each shared buffer put back together. -/
theorem bufs_of_arrays1 (c : Dev nD) (Vv : (b : Ref sig .tc) → Buf (Elt F) ((c : Thread nD τ).loc b))
    (F' : (w : Fin cfg1.W) → Buf (Elt F) ((cfg1.win w).arr.view.loc (c : Thread nD τ)))
    (hF : ∀ w, F' w = Vv (Pipeline.arrRef spec1 w)) :
    ((dat1 V c).arrays F' : sProp 𝕄) ⊢ Pipeline.arrBufs (Ix := Unit) (Name := ℕ) (U := UR sig nD τ) (Lvl := ℕ) spec1 c Vv := by
  obtain rfl : F' = fun w => Vv (Pipeline.arrRef spec1 w) := funext hF
  rw [arrBufs1_eq, arrays1_eq]
  iintro ⟨H4l, H4rl, H4rr, H3l, H3r, H50, H51, H52⟩
  isplitl [H4l H4rl H4rr]
  · iapply (pointsTo_share (PosShare.mem_left_op_right fullShare)).2
    isplitl [H4l]; · iexact H4l
    iapply (pointsTo_share (PosShare.mem_left_op_right fullShare.right)).2
    isplitl [H4rl]; · iexact H4rl
    iexact H4rr
  isplitl [H3l H3r]
  · iapply (pointsTo_share (PosShare.mem_left_op_right fullShare)).2
    isplitl [H3l]; · iexact H3l
    iexact H3r
  isplitl [H50]; · iexact H50
  isplitl [H51]; · iexact H51
  iexact H52

/-- ENTRY: the core's unscoped buffers at contents `V c` are the pipeline's arrays at the proof data's entry contents and
    the unscoped rest. -/
theorem arrays_of_unscopedBufs1 (c : Dev nD) :
    (unscopedBufs c (V c) : sProp 𝕄) ⊢ iprop((dat1 V c).arrays ((dat1 V c).arrAt · 0)
      ∗ Pipeline.unscopedRest (Ix := Unit) (Name := ℕ) (U := UR sig nD τ) (Lvl := ℕ) spec1 c (V c)) := by
  rw [Pipeline.unscopedBufs_split₀ cfgs 1 winFacts₀1.arr_unscoped c (V c)]
  exact sep_mono (arrays1_of_bufs V c (V c) _ fun _ => rfl) .rfl

/-- EXIT: the arrays at contents `F'` and the unscoped rest at `V c` are the core's unscoped buffers at any contents that
    have the arrays at `F'` and agree with `V c` off them. -/
theorem unscopedBufs_of_arrays1 (c : Dev nD) (Vv' : (b : Ref sig .tc) → Buf (Elt F) ((c : Thread nD τ).loc b))
    (F' : (w : Fin cfg1.W) → Buf (Elt F) ((cfg1.win w).arr.view.loc (c : Thread nD τ)))
    (hF : ∀ w, F' w = Vv' (Pipeline.arrRef spec1 w))
    (hrest : ∀ b, b ∉ Finset.univ.image (Pipeline.arrRef spec1) → Vv' b = V c b) :
    iprop((dat1 V c).arrays F' ∗ Pipeline.unscopedRest (Ix := Unit) (Name := ℕ) (U := UR sig nD τ) (Lvl := ℕ) spec1 c (V c))
      ⊢ (unscopedBufs c Vv' : sProp 𝕄) := by
  rw [Pipeline.unscopedBufs_split₀ cfgs 1 winFacts₀1.arr_unscoped c Vv']
  refine sep_mono (bufs_of_arrays1 V c Vv' F' hF) (Entails.of_eq ?_)
  unfold Pipeline.unscopedRest
  exact bigSep_congr fun b hb => by rw [hrest b (Finset.mem_sdiff.mp hb).2]

end Cert.Kernel.Hand

end
-- ==== Proof.KernelFrame.Run.lean ====
/-
  The whole run of the program as the run of its three items: the host stretch, the projection pipeline and the attention
  pipeline, each entered from every unscoped buffer of the core at the contents the item before it left.  The projection
  pipeline's four arrays are distinct buffers, each held whole; the attention pipeline reads the projection array through
  three windows and the table through two, each window holding a part of its buffer's full share.  The last contents,
  read against the final memory, give every unscoped buffer of the final state.
-/
import proofs.«177219_j15144054686376_2_alg».proof.Proof.KernelFrame.Fold
import proofs.«177219_j15144054686376_2_alg».proof.Proof.KernelFrame.Body0
import proofs.«177219_j15144054686376_2_alg».proof.Proof.KernelFrame.Body1
import proofs.«177219_j15144054686376_2_alg».proof.Proof.KernelFrame.Shares1
import proofs.«177219_j15144054686376_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev admH : (p : Fin 2) → (pcfgs (F := F) p).Adm := fun p => (cfgs p).toPCfg_adm
/-- Every pipeline's proof data, each at its entry contents. -/
def pdatsH : (p : Fin 2) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U2 m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every item: the core's generator register at some state and its dues, none. -/
abbrev RH (c : Dev nD) : sProp 𝕄 := iprop((∃ r, prngReg c r) ∗ ∃ W, owes (c : Thread nD τ) (0 : CellTallies nD τ sig Unit) W)
/-- The host stretch as an item from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev TnH (c : Dev nD) : sProp 𝕄 := iprop(StableHlo.held (c : Thread nD τ) (Pipeline.ucRefs τ sig) (W3 m c) ∗ ∃ r, prngReg c r)

/-! ## The pipelines as items -/

set_option backward.isDefEq.respectTransparency.types false in
/-- The projection pipeline: entered from every unscoped buffer at `W1`, left at `W2`. Its four arrays are distinct
    buffers, each held whole. -/
def regA : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the attention pipeline's exit each of its arrays holds what the fold's last contents say: an input array what it
    held at entry, a result what the write-backs fold to. -/
theorem hF1 (c : Dev nD) (w : Fin cfg1.W) : (dat1 (U2 m) c).arrAt w cfg1.N = U3 m c (Pipeline.arrRef spec1 w) :=
  match w with
  | ⟨0, _⟩ => ((dat1 (U2 m) c).arrAt_in 0 rfl _).trans ((A_eq1 (U2 m) c 0).trans (W3_of m c main_v4 (by decide)).symm)
  | ⟨1, _⟩ => ((dat1 (U2 m) c).arrAt_in 1 rfl _).trans ((A_eq1 (U2 m) c 1).trans (W3_of m c main_v4 (by decide)).symm)
  | ⟨2, _⟩ => ((dat1 (U2 m) c).arrAt_in 2 rfl _).trans ((A_eq1 (U2 m) c 2).trans (W3_of m c main_v4 (by decide)).symm)
  | ⟨3, _⟩ => ((dat1 (U2 m) c).arrAt_in 3 rfl _).trans ((A_eq1 (U2 m) c 3).trans (W3_of m c main_arg3 (by decide)).symm)
  | ⟨4, _⟩ => ((dat1 (U2 m) c).arrAt_in 4 rfl _).trans ((A_eq1 (U2 m) c 4).trans (W3_of m c main_arg3 (by decide)).symm)
  | ⟨5, _⟩ => (W3_y m c).symm
  | ⟨6, _⟩ => (W3_k m c).symm
  | ⟨7, _⟩ => (W3_v m c).symm
theorem hrest1 (c : Dev nD) : ∀ b, b ∉ Finset.univ.image (Pipeline.arrRef spec1) → U3 m c b = U2 m c b := fun b hb =>
  W3_of m c b fun h => hb (by
    simp only [List.mem_cons, List.not_mem_nil, or_false] at h
    rcases h with rfl | rfl | rfl
    · exact Finset.mem_image.mpr ⟨5, Finset.mem_univ _, rfl⟩
    · exact Finset.mem_image.mpr ⟨6, Finset.mem_univ _, rfl⟩
    · exact Finset.mem_image.mpr ⟨7, Finset.mem_univ _, rfl⟩)

set_option backward.isDefEq.respectTransparency.types false in
/-- The attention pipeline: entered from every unscoped buffer at `W2`, left at `W3`. -/
def regB : Pipeline.RegionSeg (pcfgs (F := F)) admH (pdatsH m) () defs₀ 𝒱H LH lvH 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := arrays_of_unscopedBufs1 (U2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (U2 m) c (U3 m c) ((pdatsH m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as its items, and the launch -/

abbrev segsH : List (Pipeline.Seg (pcfgs (F := F)) admH (pdatsH m) () defs₀ 𝒱H LH lvH) :=
  [ .host (hsegH hostOps0 hostOps0_sub hostOps0_fresh (W0 m)),
    .region (regA m),
    .region (regB m) ]
theorem main_runH (c : Dev nD) : main (F := F) c = Pipeline.Seg.run (segsH m) := (main_chain c).trans (by chain_rfl)

set_option backward.isDefEq.respectTransparency.types false in
/-- Every weakly fair execution of the program from memory `m` terminates, nothing faulting, and the final memory holds
    every unscoped buffer of every core at the last contents of the fold. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W3 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.KernelIdealFrame.Defs0.lean ====
/-
  The projection kernel's pipeline, at a parameter `V` — the contents of the core's buffers when the pipeline is entered.
  A grid point (i, j) of the 2 × 12 grid reads rows 2048·i … of the activations, rows 512·j … of the weights and columns
  512·j … of the bias row, and writes the 2048 × 512 block (i, j) of the projection.  Stated here: each window's block
  at a point, what the body leaves in the output's staging buffer as a function of the three input blocks, and the
  pipeline's proof data (every array held whole; inputs leave their blocks in place; nothing owed).
-/
import proofs.«177219_j15144054686376_2_alg».proof.Proof.Gen.KernelIdeal.Launch
import proofs.«177219_j15144054686376_2_alg».proof.Proof.Gen.KernelIdeal.Skeleton
import proofs.«177219_j15144054686376_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body reads and writes. -/
abbrev r0_x : Rect S2048x2048 := Rect.unit (s := S2048x2048) ![0, 0] S2048x2048.size inb_S2048x2048_S2048x2048_0_0
abbrev r0_w : Rect S512x2048 := Rect.unit (s := S512x2048) ![0, 0] S512x2048.size inb_S512x2048_S512x2048_0_0
abbrev r0_b : Rect S1x512 := Rect.unit (s := S1x512) ![0, 0] S1x512.size inb_S1x512_S1x512_0_0
abbrev r0_o : Rect S2048x512 := Rect.unit (s := S2048x512) ![0, 0] S2048x512.size inb_S2048x512_S2048x512_0_0

/-- The output's staging buffer after the body, from the three input blocks: one store of the whole block. -/
def out0_3 (x0 : Vec F S2048x2048 .bf16) (x1 : Vec F S512x2048 .bf16) (x2 : Vec F S1x512 .f32) : Vec F S2048x512 .f32 :=
  View.canon [⟨r0_o, k0_pay1 (View.ld x0 r0_x) (View.ld x1 r0_w) (View.ld x2 r0_b)⟩]

/-- The proof data of the projection's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.Hand

end
-- ==== Proof.KernelIdealFrame.Defs1.lean ====
/-
  The attention kernel's pipeline, at a parameter `V` — the contents of the core's buffers when the pipeline is entered.
  A grid point (b·16 + h, i) of the 32 × 4 grid reads, out of the ONE projection array, the 512 query rows of tile `i`
  and all 2048 key rows and value rows of batch `b` at head `h`'s columns, and out of the ONE table its rows of tile `i`
  and all of it; it writes tile `i` of head `h`'s attention output and (the same at each of the head's four points) the
  head's rotated keys and values.  Three windows read the projection array and two the table: each window holds its array
  at a part of the full share, the parts of one array composing to the whole.
-/
import proofs.«177219_j15144054686376_2_alg».proof.Proof.Gen.KernelIdeal.Launch
import proofs.«177219_j15144054686376_2_alg».proof.Proof.Gen.KernelIdeal.Skeleton
import proofs.«177219_j15144054686376_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pipeline finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body reads and writes. -/
abbrev r1_q : Rect S512x128 := Rect.unit (s := S512x128) ![0, 0] S512x128.size inb_S512x128_S512x128_0_0
abbrev r1_k : Rect S2048x128 := Rect.unit (s := S2048x128) ![0, 0] S2048x128.size inb_S2048x128_S2048x128_0_0
abbrev r1_fq : Rect S512x64 := Rect.unit (s := S512x64) ![0, 0] S512x64.size inb_S512x64_S512x64_0_0
abbrev r1_fk : Rect S2048x64 := Rect.unit (s := S2048x64) ![0, 0] S2048x64.size inb_S2048x64_S2048x64_0_0
abbrev r1_o : Rect S1x1x2048x128 := Rect.unit (s := S1x1x2048x128) ![0, 0, 0, 0] S1x1x2048x128.size inb_S1x1x2048x128_S1x1x2048x128_0_0_0_0

/-- The attention output's staging buffer after the body, from the five input blocks: one store of the whole block. -/
def out1_5 (x0 : Vec F S512x128 .f32) (x1 : Vec F S2048x128 .f32) (x2 : Vec F S2048x128 .f32) (x3 : Vec F S512x64 .f32)
    (x4 : Vec F S2048x64 .f32) : Vec F S512x128 .f32 :=
  View.canon [⟨r1_q, k1_pay4 (View.ld x0 r1_q) (View.ld x1 r1_k) (View.ld x2 r1_k) (View.ld x3 r1_fq) (View.ld x4 r1_fk)⟩]

/-- The rotated keys' staging buffer after the body, from the key block and the whole table. -/
def out1_6 (x1 : Vec F S2048x128 .f32) (x4 : Vec F S2048x64 .f32) : Vec F S1x1x2048x128 .f32 :=
  View.canon [⟨r1_o, k1_pay5 (View.ld x1 r1_k) (View.ld x4 r1_fk)⟩]

/-- The values' staging buffer after the body, from the value block. -/
def out1_7 (x2 : Vec F S2048x128 .f32) : Vec F S1x1x2048x128 .f32 :=
  View.canon [⟨r1_o, k1_pay1 (k1_pay2 (View.ld x2 r1_k))⟩]

/-- The share of its array each input window holds: the projection array dealt among windows 0, 1, 2, the table between
    windows 3, 4. -/
def q1 : Fin cfg1.W → PosShare TreeShare
  | ⟨0, _⟩ => fullShare.left
  | ⟨1, _⟩ => fullShare.right.left
  | ⟨2, _⟩ => fullShare.right.right
  | ⟨3, _⟩ => fullShare.left
  | ⟨4, _⟩ => fullShare.right
  | ⟨5, _⟩ => fullShare
  | ⟨6, _⟩ => fullShare
  | ⟨7, _⟩ => fullShare

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 1 t) (iblk1 V c 4 t)
    | ⟨7, _⟩ => out1_7 (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 1 t) (iblk1 V c 4 t) := by dsimp only [dat1]
theorem after1_7 (c : Dev nD) (t : Fin cfg1.N) : (dat1 V c).after 7 t = out1_7 (iblk1 V c 2 t) := by dsimp only [dat1]

end Cert.KernelIdeal.Hand

end
-- ==== Proof.KernelIdealFrame.Fold.lean ====
/-
  The contents of the core's buffers at each boundary of the program's three items — a stretch of host operations
  (flatten the activations, two changes of float format, the bias as a row), the projection pipeline, the attention
  pipeline —, a fold from the launch memory: a host stretch leaves what its operations compute; a pipeline leaves its
  output arrays at what its write-backs fold to and every other buffer as entered.  No item writes an argument, and the
  three results end at what the attention pipeline's write-backs fold to.
-/
import proofs.«177219_j15144054686376_2_alg».proof.Proof.KernelIdealFrame.Defs0
import proofs.«177219_j15144054686376_2_alg».proof.Proof.KernelIdealFrame.Defs1
import proofs.«177219_j15144054686376_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- After the host stretch (the projection pipeline's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At the projection pipeline's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the attention pipeline's entry). -/
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- At the attention pipeline's exit: its three output arrays at what the pipeline leaves, every other buffer as
    entered. -/
def W3 (c : Dev nD) : Valuation τ sig (Elt F) :=
  Function.update (Function.update (Function.update (W2 m c) main_v5_0 ((dat1 (U2 m) c).arrAt 5 cfg1.N))
    main_v5_1 ((dat1 (U2 m) c).arrAt 6 cfg1.N)) main_v5_2 ((dat1 (U2 m) c).arrAt 7 cfg1.N)
abbrev U3 : (c : Dev nD) → (b : Ref sig .tc) → Buf (Elt F) ((c : Thread nD τ).loc b) := fun c b => W3 m c b

/-! ### The arguments end as launched -/

theorem W1_of (c : Dev nD) (r : Ref sig .tc) (h : r ∉ hostOps0_W) : W1 m c r = W0 m c r :=
  StableHlo.after_of_writes_sub hostOps0 _ hostOps0_writes h

theorem W3_of (c : Dev nD) (r : Ref sig .tc) (h : r ∉ ([main_v5_0, main_v5_1, main_v5_2] : List (Ref sig .tc))) : W3 m c r = W2 m c r := by
  simp only [W3, Function.update_of_ne (StableHlo.devRef_ne_of_ne (List.ne_of_not_mem_cons h) : (Proc.devRef .tc r : DevRef τ sig) ≠ Proc.devRef .tc main_v5_0), Function.update_of_ne (StableHlo.devRef_ne_of_ne (List.ne_of_not_mem_cons (List.not_mem_of_not_mem_cons h)) : (Proc.devRef .tc r : DevRef τ sig) ≠ Proc.devRef .tc main_v5_1), Function.update_of_ne (StableHlo.devRef_ne_of_ne (List.ne_of_not_mem_cons (List.not_mem_of_not_mem_cons (List.not_mem_of_not_mem_cons h))) : (Proc.devRef .tc r : DevRef τ sig) ≠ Proc.devRef .tc main_v5_2)]

theorem W3_arg (c : Dev nD) (r : Ref sig .tc) (h3 : r ∉ ([main_v5_0, main_v5_1, main_v5_2] : List (Ref sig .tc)))
    (h2 : ∀ w, Pipeline.arrRef spec0 w ≠ r) (h1 : r ∉ hostOps0_W) : W3 m c r = m ((c : Thread nD τ).loc r) :=
  (W3_of m c r h3).trans <| (W2_of_ne m c r h2).trans <| (W1_of m c r h1).trans rfl

theorem W3_main_arg0 (c : Dev nD) : W3 m c main_arg0 = m ((c : Thread nD τ).loc main_arg0) := W3_arg m c main_arg0 (by decide) (by decide) (by decide)
theorem W3_main_arg1 (c : Dev nD) : W3 m c main_arg1 = m ((c : Thread nD τ).loc main_arg1) := W3_arg m c main_arg1 (by decide) (by decide) (by decide)
theorem W3_main_arg2 (c : Dev nD) : W3 m c main_arg2 = m ((c : Thread nD τ).loc main_arg2) := W3_arg m c main_arg2 (by decide) (by decide) (by decide)
theorem W3_main_arg3 (c : Dev nD) : W3 m c main_arg3 = m ((c : Thread nD τ).loc main_arg3) := W3_arg m c main_arg3 (by decide) (by decide) (by decide)

/-- The three results at the end: what the attention pipeline's write-backs fold to. -/
theorem W3_y (c : Dev nD) : W3 m c main_v5_0 = (dat1 (U2 m) c).arrAt 5 cfg1.N := by
  simp only [W3, Function.update_of_ne (StableHlo.devRef_ne_of_ne (by decide) : (Proc.devRef .tc main_v5_0 : DevRef τ sig) ≠ Proc.devRef .tc main_v5_2),
    Function.update_of_ne (StableHlo.devRef_ne_of_ne (by decide) : (Proc.devRef .tc main_v5_0 : DevRef τ sig) ≠ Proc.devRef .tc main_v5_1), Function.update_self]
theorem W3_k (c : Dev nD) : W3 m c main_v5_1 = (dat1 (U2 m) c).arrAt 6 cfg1.N := by
  simp only [W3, Function.update_of_ne (StableHlo.devRef_ne_of_ne (by decide) : (Proc.devRef .tc main_v5_1 : DevRef τ sig) ≠ Proc.devRef .tc main_v5_2), Function.update_self]
theorem W3_v (c : Dev nD) : W3 m c main_v5_2 = (dat1 (U2 m) c).arrAt 7 cfg1.N := by
  simp only [W3, Function.update_self]

end Cert.KernelIdeal.Hand

end
-- ==== Proof.KernelIdealFrame.Body0.lean ====
/-
  The projection kernel's body obligation: at every grid point, running the body on the three input blocks and the
  output's staging buffer leaves the input blocks as they were and the output's staging buffer holding the one stored
  block, a function of the three input blocks.
-/
import proofs.«177219_j15144054686376_2_alg».proof.Proof.Gen.KernelIdeal.Launch
import proofs.«177219_j15144054686376_2_alg».proof.Proof.Gen.KernelIdeal.Skeleton
import proofs.«177219_j15144054686376_2_alg».proof.Proof.Gen.KernelIdeal.Points
import proofs.«177219_j15144054686376_2_alg».proof.Proof.KernelIdealFrame.Defs0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's staging buffer holds its block -/

/-- The activation rows' staging buffer holds their block at every point, fetched there or not: where the pipeline
    does not fetch, the block index has not moved, and the body left the block in place. -/
theorem held0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight rows' staging buffer holds their block at every point. -/
theorem held0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The bias row's staging buffer holds its block at every point. -/
theorem held0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The one store covers the output's staging buffer -/

/-- The single stored rectangle is the whole 2048 × 512 buffer, so every index of the buffer lies in it. -/
theorem tiles0_3 (p0 : Vec F S2048x512 .f32) (y : S2048x512.Idx) :
    ∃ pc ∈ ([⟨r0_o, p0⟩] : List (View.Piece (Elt F) S2048x512 .f32)), y ∈ pc.1.set :=
  View.cover_of_tiled [⟨r0_o, p0⟩] S2048x512.size (by rfl) y

/-! ## The body's triple -/

set_option maxHeartbeats 1000000 in
/-- The body on whole staging memrefs — the three inputs' at contents `x0 x1 x2`, the output's at anything — runs to
    the continuation with the inputs' contents unchanged and the output's at `out0_3 x0 x1 x2`: three loads, one
    load of the output buffer whose value is not used, and one store over the whole output block. -/
theorem run_kernel0 (c : Dev nD) (E : Set ℕ) (i : grid0.Coords)
    (a0 : Memref sig .tc .vmem S2048x2048 .bf16) (h0 : a0.IsWhole)
    (a1 : Memref sig .tc .vmem S512x2048 .bf16) (h1 : a1.IsWhole)
    (a2 : Memref sig .tc .vmem S1x512 .f32) (h2 : a2.IsWhole)
    (a3 : Memref sig .tc .vmem S2048x512 .f32) (h3 : a3.IsWhole)
    (x0 : Vec F S2048x2048 .bf16) (x1 : Vec F S512x2048 .bf16) (x2 : Vec F S1x512 .f32) (K : PUnit → sProp 𝕄) :
    iprop(owns (c : Thread nD τ) a0 fullShare x0 ∗ owns (c : Thread nD τ) a1 fullShare x1
        ∗ owns (c : Thread nD τ) a2 fullShare x2 ∗ (∃ d, owns (c : Thread nD τ) a3 fullShare d)
        ∗ (iprop(owns (c : Thread nD τ) a0 fullShare x0 ∗ owns (c : Thread nD τ) a1 fullShare x1
            ∗ owns (c : Thread nD τ) a2 fullShare x2 ∗ owns (c : Thread nD τ) a3 fullShare (out0_3 x0 x1 x2)) -∗ K ⟨⟩))
      ⊢ wp frame (wpE (defs₀ (F := F)) Variants.none c none) E (cc0__qkv_proj_kernel i a0 h0 a1 h1 a2 h2 a3 h3) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tiles0_3 _)

/-! ## The body obligation, at a generic point -/

/-- What the body is handed at point `t`: the invariant, what is owed, and the four staging buffers. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what is owed pass through unread. -/
theorem run_body0 (c : Dev nD) (t : Fin cfg0.N) :
    pre0 V c t ⊢ wp frame (wpE (defs₀ (F := F)) Variants.none c none) Set.univ (bodyAt0 t) (fun _ => post0 V c t) := by
  unfold pre0 post0 bodyAt0
  simp only [held0_0, held0_1, held0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (run_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the projection's pipeline, at every point. -/
theorem body_obligation0 (c : Dev nD) : BodyObligation (dat0 (F := F) V c) (defs₀ (F := F)) Variants.none () Set.univ := fun t => by
  rw [bigSep_W0, bigSep_W0]
  exact run_body0 V c t

end Cert.KernelIdeal.Hand

end
-- ==== Proof.KernelIdealFrame.Body1.lean ====
/-
  The body obligation of the attention pipeline: at every grid point, run between the pipeline's "before" and "after"
  frames, the kernel body reads its five staged input blocks and leaves in the three output staging buffers the values
  the pipeline's data record for that point.
-/
import proofs.«177219_j15144054686376_2_alg».proof.Proof.Gen.KernelIdeal.Launch
import proofs.«177219_j15144054686376_2_alg».proof.Proof.Gen.KernelIdeal.Skeleton
import proofs.«177219_j15144054686376_2_alg».proof.Proof.Gen.KernelIdeal.Points
import proofs.«177219_j15144054686376_2_alg».proof.Proof.KernelIdealFrame.Defs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's staging buffer holds its block -/

/-- Input window 0's current staging buffer holds its block at every point, whether the pipeline fetched it there or
    not (unfetched, the block index has not moved, and the buffer still holds the previous point's block, which is
    this point's): the window is uncut and never idle, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, whether the pipeline fetched it there or
    not (unfetched, the block index has not moved, and the buffer still holds the previous point's block, which is
    this point's): the window is uncut and never idle, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, whether the pipeline fetched it there or
    not (unfetched, the block index has not moved, and the buffer still holds the previous point's block, which is
    this point's): the window is uncut and never idle, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- Input window 3's current staging buffer holds its block at every point, whether the pipeline fetched it there or
    not (unfetched, the block index has not moved, and the buffer still holds the previous point's block, which is
    this point's): the window is uncut and never idle, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_3 (c : Dev nD) (t : Fin cfg1.N) (d) : (dat1 V c).before 3 t d = iblk1 V c 3 t :=
  before1_3_of V (dat1 V c) (A_eq1 V c 3) (after1_3 V c) t d

/-- Input window 4's current staging buffer holds its block at every point, whether the pipeline fetched it there or
    not (unfetched, the block index has not moved, and the buffer still holds the previous point's block, which is
    this point's): the window is uncut and never idle, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_4 (c : Dev nD) (t : Fin cfg1.N) (d) : (dat1 V c).before 4 t d = iblk1 V c 4 t :=
  before1_4_of V (dat1 V c) (A_eq1 V c 4) (after1_4 V c) t d

/-! ## The output stores cover their buffers -/

/-- The one store into the attention output's buffer is of the whole block, so it covers it. -/
theorem cover1_5 (p0 : Vec F S512x128 .f32) (y : S512x128.Idx) :
    ∃ pc ∈ ([⟨r1_q, p0⟩] : List (View.Piece (Elt F) S512x128 .f32)), y ∈ pc.1.set :=
  View.cover_of_tiled [⟨r1_q, p0⟩] S512x128.size (by rfl) y

/-- The one store into a head's key (or value) buffer is of the whole block, so it covers it. -/
theorem cover1_o (p0 : Vec F S1x1x2048x128 .f32) (y : S1x1x2048x128.Idx) :
    ∃ pc ∈ ([⟨r1_o, p0⟩] : List (View.Piece (Elt F) S1x1x2048x128 .f32)), y ∈ pc.1.set :=
  View.cover_of_tiled [⟨r1_o, p0⟩] S1x1x2048x128.size (by rfl) y

/-! ## The body's triple -/

set_option maxHeartbeats 4000000 in
/-- The kernel body on whole staging memrefs, the five inputs' at read contents `x0 … x4` and the three outputs' at
    anything, runs to the continuation holding the inputs' as they were and each output's at what its one whole-block
    store leaves: the attention tile, the rotated keys, the values. -/
theorem sound_kernel1 (c : Dev nD) (E : Set ℕ) (i : grid1.Coords)
    (arg2 : Memref sig .tc .vmem S512x128 .f32) (harg2 : arg2.IsWhole)
    (arg3 : Memref sig .tc .vmem S2048x128 .f32) (harg3 : arg3.IsWhole)
    (arg4 : Memref sig .tc .vmem S2048x128 .f32) (harg4 : arg4.IsWhole)
    (arg5 : Memref sig .tc .vmem S512x64 .f32) (harg5 : arg5.IsWhole)
    (arg6 : Memref sig .tc .vmem S2048x64 .f32) (harg6 : arg6.IsWhole)
    (arg7 : Memref sig .tc .vmem S512x128 .f32) (harg7 : arg7.IsWhole)
    (arg8 : Memref sig .tc .vmem S1x1x2048x128 .f32) (harg8 : arg8.IsWhole)
    (arg9 : Memref sig .tc .vmem S1x1x2048x128 .f32) (harg9 : arg9.IsWhole)
    (x0 : Vec F S512x128 .f32) (x1 : Vec F S2048x128 .f32) (x2 : Vec F S2048x128 .f32) (x3 : Vec F S512x64 .f32)
    (x4 : Vec F S2048x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4
        ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (out1_5 x0 x1 x2 x3 x4)
            ∗ owns (c : Thread nD τ) arg8 fullShare (out1_6 x1 x4)
            ∗ owns (c : Thread nD τ) arg9 fullShare (out1_7 x2)) -∗ K ⟨⟩))
      ⊢ wp frame (wpE (defs₀ (F := F)) Variants.none c none) E
          (cc1__fused_attn_kernel i arg2 harg2 arg3 harg3 arg4 harg4 arg5 harg5 arg6 harg6 arg7 harg7 arg8 harg8 arg9 harg9) K := by
  simp only [cc1__fused_attn_kernel_eq_skeleton]; unfold cc1__fused_attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  isplitl [H6]
  · iexists _; isplitr
    swap; · iexact H6
    ipureintro
    exact View.read_writes_eq_canon _ _ _ (cover1_o _)
  iexists _; isplitr
  swap; · iexact H7
  ipureintro
  exact View.read_writes_eq_canon _ _ _ (cover1_o _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' staging buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealFrame.Shares1.lean ====
/-
  The attention pipeline's arrays in and out of the core's unscoped buffers.  Five distinct buffers stand behind its eight
  windows: the projection array (three input windows), the table (two input windows) and the three results.  Entering,
  each shared buffer's full share is dealt among the windows that read it; leaving, the parts are put back together.
-/
import proofs.«177219_j15144054686376_2_alg».proof.Proof.Gen.KernelIdeal.Launch
import proofs.«177219_j15144054686376_2_alg».proof.Proof.Gen.KernelIdeal.Skeleton
import proofs.«177219_j15144054686376_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«177219_j15144054686376_2_alg».proof.Proof.KernelIdealFrame.Defs1
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The five distinct buffers behind the eight windows. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v4) ↦{fullShare} Vv main_v4) ∗ (((c : Thread nD τ).loc main_arg3) ↦{fullShare} Vv main_arg3)
          ∗ (((c : Thread nD τ).loc main_v5_0) ↦{fullShare} Vv main_v5_0) ∗ (((c : Thread nD τ).loc main_v5_1) ↦{fullShare} Vv main_v5_1)
          ∗ (((c : Thread nD τ).loc main_v5_2) ↦{fullShare} Vv main_v5_2)) := by
  unfold Pipeline.arrBufs
  exact bigSep_eq_bigSepL_of_eq [main_v4, main_arg3, main_v5_0, main_v5_1, main_v5_2] (by decide) (by decide) _

/-- The share of its array each window holds. -/
theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare.left := rfl
theorem share1_4 (c : Dev nD) : (dat1 V c).share 4 = fullShare.right := rfl
theorem share1_5 (c : Dev nD) : (dat1 V c).share 5 = fullShare := rfl
theorem share1_6 (c : Dev nD) : (dat1 V c).share 6 = fullShare := rfl
theorem share1_7 (c : Dev nD) : (dat1 V c).share 7 = fullShare := rfl

/-- Each window's array, whole, at its share. -/
theorem pt1_0 (c : Dev nD) (f : Buf (Elt F) ((cfg1.win 0).arr.view.loc (c : Thread nD τ))) :
    ((cfg1.win 0).arr.view.loc (c : Thread nD τ) ↦[(cfg1.win 0).arr.view.set]{(dat1 V c).share 0} f : sProp 𝕄)
      = (((c : Thread nD τ).loc main_v4) ↦{fullShare.left} f) := by
  rw [(arr_whole1 0).set_eq_univ, share1_0]
theorem pt1_1 (c : Dev nD) (f : Buf (Elt F) ((cfg1.win 1).arr.view.loc (c : Thread nD τ))) :
    ((cfg1.win 1).arr.view.loc (c : Thread nD τ) ↦[(cfg1.win 1).arr.view.set]{(dat1 V c).share 1} f : sProp 𝕄)
      = (((c : Thread nD τ).loc main_v4) ↦{fullShare.right.left} f) := by
  rw [(arr_whole1 1).set_eq_univ, share1_1]
theorem pt1_2 (c : Dev nD) (f : Buf (Elt F) ((cfg1.win 2).arr.view.loc (c : Thread nD τ))) :
    ((cfg1.win 2).arr.view.loc (c : Thread nD τ) ↦[(cfg1.win 2).arr.view.set]{(dat1 V c).share 2} f : sProp 𝕄)
      = (((c : Thread nD τ).loc main_v4) ↦{fullShare.right.right} f) := by
  rw [(arr_whole1 2).set_eq_univ, share1_2]
theorem pt1_3 (c : Dev nD) (f : Buf (Elt F) ((cfg1.win 3).arr.view.loc (c : Thread nD τ))) :
    ((cfg1.win 3).arr.view.loc (c : Thread nD τ) ↦[(cfg1.win 3).arr.view.set]{(dat1 V c).share 3} f : sProp 𝕄)
      = (((c : Thread nD τ).loc main_arg3) ↦{fullShare.left} f) := by
  rw [(arr_whole1 3).set_eq_univ, share1_3]
theorem pt1_4 (c : Dev nD) (f : Buf (Elt F) ((cfg1.win 4).arr.view.loc (c : Thread nD τ))) :
    ((cfg1.win 4).arr.view.loc (c : Thread nD τ) ↦[(cfg1.win 4).arr.view.set]{(dat1 V c).share 4} f : sProp 𝕄)
      = (((c : Thread nD τ).loc main_arg3) ↦{fullShare.right} f) := by
  rw [(arr_whole1 4).set_eq_univ, share1_4]
theorem pt1_5 (c : Dev nD) (f : Buf (Elt F) ((cfg1.win 5).arr.view.loc (c : Thread nD τ))) :
    ((cfg1.win 5).arr.view.loc (c : Thread nD τ) ↦[(cfg1.win 5).arr.view.set]{(dat1 V c).share 5} f : sProp 𝕄)
      = (((c : Thread nD τ).loc main_v5_0) ↦{fullShare} f) := by
  rw [(arr_whole1 5).set_eq_univ, share1_5]
theorem pt1_6 (c : Dev nD) (f : Buf (Elt F) ((cfg1.win 6).arr.view.loc (c : Thread nD τ))) :
    ((cfg1.win 6).arr.view.loc (c : Thread nD τ) ↦[(cfg1.win 6).arr.view.set]{(dat1 V c).share 6} f : sProp 𝕄)
      = (((c : Thread nD τ).loc main_v5_1) ↦{fullShare} f) := by
  rw [(arr_whole1 6).set_eq_univ, share1_6]
theorem pt1_7 (c : Dev nD) (f : Buf (Elt F) ((cfg1.win 7).arr.view.loc (c : Thread nD τ))) :
    ((cfg1.win 7).arr.view.loc (c : Thread nD τ) ↦[(cfg1.win 7).arr.view.set]{(dat1 V c).share 7} f : sProp 𝕄)
      = (((c : Thread nD τ).loc main_v5_2) ↦{fullShare} f) := by
  rw [(arr_whole1 7).set_eq_univ, share1_7]

/-- The pipeline's arrays, window by window. -/
theorem arrays1_eq (c : Dev nD) (F' : (w : Fin cfg1.W) → Buf (Elt F) ((cfg1.win w).arr.view.loc (c : Thread nD τ))) :
    ((dat1 V c).arrays F' : sProp 𝕄)
      = iprop((((c : Thread nD τ).loc main_v4) ↦{fullShare.left} F' 0)
        ∗ (((c : Thread nD τ).loc main_v4) ↦{fullShare.right.left} F' 1)
        ∗ (((c : Thread nD τ).loc main_v4) ↦{fullShare.right.right} F' 2)
        ∗ (((c : Thread nD τ).loc main_arg3) ↦{fullShare.left} F' 3)
        ∗ (((c : Thread nD τ).loc main_arg3) ↦{fullShare.right} F' 4)
        ∗ (((c : Thread nD τ).loc main_v5_0) ↦{fullShare} F' 5)
        ∗ (((c : Thread nD τ).loc main_v5_1) ↦{fullShare} F' 6)
        ∗ (((c : Thread nD τ).loc main_v5_2) ↦{fullShare} F' 7)) := by
  unfold Pipeline.Dat.arrays
  rw [bigSep_W1]
  exact congrArg₂ BI.sep (pt1_0 V c _) (congrArg₂ BI.sep (pt1_1 V c _) (congrArg₂ BI.sep (pt1_2 V c _) (congrArg₂ BI.sep (pt1_3 V c _)
    (congrArg₂ BI.sep (pt1_4 V c _) (congrArg₂ BI.sep (pt1_5 V c _) (congrArg₂ BI.sep (pt1_6 V c _) (pt1_7 V c _)))))))

/-- The buffers behind the arrays, each whole at the full share, make the pipeline's arrays: the projection array's full
    share is dealt among the three windows that read it, the table's between its two. -/
theorem arrays1_of_bufs (c : Dev nD) (Vv : (b : Ref sig .tc) → Buf (Elt F) ((c : Thread nD τ).loc b))
    (F' : (w : Fin cfg1.W) → Buf (Elt F) ((cfg1.win w).arr.view.loc (c : Thread nD τ)))
    (hF : ∀ w, F' w = Vv (Pipeline.arrRef spec1 w)) :
    (Pipeline.arrBufs (Ix := Unit) (Name := ℕ) (U := UR sig nD τ) (Lvl := ℕ) spec1 c Vv : sProp 𝕄) ⊢ (dat1 V c).arrays F' := by
  obtain rfl : F' = fun w => Vv (Pipeline.arrRef spec1 w) := funext hF
  rw [arrBufs1_eq, arrays1_eq]
  iintro ⟨H4, H3, H50, H51, H52⟩
  ihave H4' := (pointsTo_share (PosShare.mem_left_op_right fullShare)).1 $$ H4
  icases H4' with ⟨H4l, H4r⟩
  ihave H4r' := (pointsTo_share (PosShare.mem_left_op_right fullShare.right)).1 $$ H4r
  icases H4r' with ⟨H4rl, H4rr⟩
  ihave H3' := (pointsTo_share (PosShare.mem_left_op_right fullShare)).1 $$ H3
  icases H3' with ⟨H3l, H3r⟩
  isplitl [H4l]; · iexact H4l
  isplitl [H4rl]; · iexact H4rl
  isplitl [H4rr]; · iexact H4rr
  isplitl [H3l]; · iexact H3l
  isplitl [H3r]; · iexact H3r
  isplitl [H50]; · iexact H50
  isplitl [H51]; · iexact H51
  iexact H52

/-- The converse at the exit: the parts of each shared buffer put back together. -/
theorem bufs_of_arrays1 (c : Dev nD) (Vv : (b : Ref sig .tc) → Buf (Elt F) ((c : Thread nD τ).loc b))
    (F' : (w : Fin cfg1.W) → Buf (Elt F) ((cfg1.win w).arr.view.loc (c : Thread nD τ)))
    (hF : ∀ w, F' w = Vv (Pipeline.arrRef spec1 w)) :
    ((dat1 V c).arrays F' : sProp 𝕄) ⊢ Pipeline.arrBufs (Ix := Unit) (Name := ℕ) (U := UR sig nD τ) (Lvl := ℕ) spec1 c Vv := by
  obtain rfl : F' = fun w => Vv (Pipeline.arrRef spec1 w) := funext hF
  rw [arrBufs1_eq, arrays1_eq]
  iintro ⟨H4l, H4rl, H4rr, H3l, H3r, H50, H51, H52⟩
  isplitl [H4l H4rl H4rr]
  · iapply (pointsTo_share (PosShare.mem_left_op_right fullShare)).2
    isplitl [H4l]; · iexact H4l
    iapply (pointsTo_share (PosShare.mem_left_op_right fullShare.right)).2
    isplitl [H4rl]; · iexact H4rl
    iexact H4rr
  isplitl [H3l H3r]
  · iapply (pointsTo_share (PosShare.mem_left_op_right fullShare)).2
    isplitl [H3l]; · iexact H3l
    iexact H3r
  isplitl [H50]; · iexact H50
  isplitl [H51]; · iexact H51
  iexact H52

/-- ENTRY: the core's unscoped buffers at contents `V c` are the pipeline's arrays at the proof data's entry contents and
    the unscoped rest. -/
theorem arrays_of_unscopedBufs1 (c : Dev nD) :
    (unscopedBufs c (V c) : sProp 𝕄) ⊢ iprop((dat1 V c).arrays ((dat1 V c).arrAt · 0)
      ∗ Pipeline.unscopedRest (Ix := Unit) (Name := ℕ) (U := UR sig nD τ) (Lvl := ℕ) spec1 c (V c)) := by
  rw [Pipeline.unscopedBufs_split₀ cfgs 1 winFacts₀1.arr_unscoped c (V c)]
  exact sep_mono (arrays1_of_bufs V c (V c) _ fun _ => rfl) .rfl

/-- EXIT: the arrays at contents `F'` and the unscoped rest at `V c` are the core's unscoped buffers at any contents that
    have the arrays at `F'` and agree with `V c` off them. -/
theorem unscopedBufs_of_arrays1 (c : Dev nD) (Vv' : (b : Ref sig .tc) → Buf (Elt F) ((c : Thread nD τ).loc b))
    (F' : (w : Fin cfg1.W) → Buf (Elt F) ((cfg1.win w).arr.view.loc (c : Thread nD τ)))
    (hF : ∀ w, F' w = Vv' (Pipeline.arrRef spec1 w))
    (hrest : ∀ b, b ∉ Finset.univ.image (Pipeline.arrRef spec1) → Vv' b = V c b) :
    iprop((dat1 V c).arrays F' ∗ Pipeline.unscopedRest (Ix := Unit) (Name := ℕ) (U := UR sig nD τ) (Lvl := ℕ) spec1 c (V c))
      ⊢ (unscopedBufs c Vv' : sProp 𝕄) := by
  rw [Pipeline.unscopedBufs_split₀ cfgs 1 winFacts₀1.arr_unscoped c Vv']
  refine sep_mono (bufs_of_arrays1 V c Vv' F' hF) (Entails.of_eq ?_)
  unfold Pipeline.unscopedRest
  exact bigSep_congr fun b hb => by rw [hrest b (Finset.mem_sdiff.mp hb).2]

end Cert.KernelIdeal.Hand

end
-- ==== Proof.KernelIdealFrame.Run.lean ====
/-
  The whole run of the program as the run of its three items: the host stretch, the projection pipeline and the attention
  pipeline, each entered from every unscoped buffer of the core at the contents the item before it left.  The projection
  pipeline's four arrays are distinct buffers, each held whole; the attention pipeline reads the projection array through
  three windows and the table through two, each window holding a part of its buffer's full share.  The last contents,
  read against the final memory, give every unscoped buffer of the final state.
-/
import proofs.«177219_j15144054686376_2_alg».proof.Proof.KernelIdealFrame.Fold
import proofs.«177219_j15144054686376_2_alg».proof.Proof.KernelIdealFrame.Body0
import proofs.«177219_j15144054686376_2_alg».proof.Proof.KernelIdealFrame.Body1
import proofs.«177219_j15144054686376_2_alg».proof.Proof.KernelIdealFrame.Shares1
import proofs.«177219_j15144054686376_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev admH : (p : Fin 2) → (pcfgs (F := F) p).Adm := fun p => (cfgs p).toPCfg_adm
/-- Every pipeline's proof data, each at its entry contents. -/
def pdatsH : (p : Fin 2) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U2 m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every item: the core's generator register at some state and its dues, none. -/
abbrev RH (c : Dev nD) : sProp 𝕄 := iprop((∃ r, prngReg c r) ∗ ∃ W, owes (c : Thread nD τ) (0 : CellTallies nD τ sig Unit) W)
/-- The host stretch as an item from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev TnH (c : Dev nD) : sProp 𝕄 := iprop(StableHlo.held (c : Thread nD τ) (Pipeline.ucRefs τ sig) (W3 m c) ∗ ∃ r, prngReg c r)

/-! ## The pipelines as items -/

set_option backward.isDefEq.respectTransparency.types false in
/-- The projection pipeline: entered from every unscoped buffer at `W1`, left at `W2`. Its four arrays are distinct
    buffers, each held whole. -/
def regA : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the attention pipeline's exit each of its arrays holds what the fold's last contents say: an input array what it
    held at entry, a result what the write-backs fold to. -/
theorem hF1 (c : Dev nD) (w : Fin cfg1.W) : (dat1 (U2 m) c).arrAt w cfg1.N = U3 m c (Pipeline.arrRef spec1 w) :=
  match w with
  | ⟨0, _⟩ => ((dat1 (U2 m) c).arrAt_in 0 rfl _).trans ((A_eq1 (U2 m) c 0).trans (W3_of m c main_v4 (by decide)).symm)
  | ⟨1, _⟩ => ((dat1 (U2 m) c).arrAt_in 1 rfl _).trans ((A_eq1 (U2 m) c 1).trans (W3_of m c main_v4 (by decide)).symm)
  | ⟨2, _⟩ => ((dat1 (U2 m) c).arrAt_in 2 rfl _).trans ((A_eq1 (U2 m) c 2).trans (W3_of m c main_v4 (by decide)).symm)
  | ⟨3, _⟩ => ((dat1 (U2 m) c).arrAt_in 3 rfl _).trans ((A_eq1 (U2 m) c 3).trans (W3_of m c main_arg3 (by decide)).symm)
  | ⟨4, _⟩ => ((dat1 (U2 m) c).arrAt_in 4 rfl _).trans ((A_eq1 (U2 m) c 4).trans (W3_of m c main_arg3 (by decide)).symm)
  | ⟨5, _⟩ => (W3_y m c).symm
  | ⟨6, _⟩ => (W3_k m c).symm
  | ⟨7, _⟩ => (W3_v m c).symm
theorem hrest1 (c : Dev nD) : ∀ b, b ∉ Finset.univ.image (Pipeline.arrRef spec1) → U3 m c b = U2 m c b := fun b hb =>
  W3_of m c b fun h => hb (by
    simp only [List.mem_cons, List.not_mem_nil, or_false] at h
    rcases h with rfl | rfl | rfl
    · exact Finset.mem_image.mpr ⟨5, Finset.mem_univ _, rfl⟩
    · exact Finset.mem_image.mpr ⟨6, Finset.mem_univ _, rfl⟩
    · exact Finset.mem_image.mpr ⟨7, Finset.mem_univ _, rfl⟩)

set_option backward.isDefEq.respectTransparency.types false in
/-- The attention pipeline: entered from every unscoped buffer at `W2`, left at `W3`. -/
def regB : Pipeline.RegionSeg (pcfgs (F := F)) admH (pdatsH m) () defs₀ 𝒱H LH lvH 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := arrays_of_unscopedBufs1 (U2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (U2 m) c (U3 m c) ((pdatsH m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as its items, and the launch -/

abbrev segsH : List (Pipeline.Seg (pcfgs (F := F)) admH (pdatsH m) () defs₀ 𝒱H LH lvH) :=
  [ .host (hsegH hostOps0 hostOps0_sub hostOps0_fresh (W0 m)),
    .region (regA m),
    .region (regB m) ]
theorem main_runH (c : Dev nD) : main (F := F) c = Pipeline.Seg.run (segsH m) := (main_chain c).trans (by chain_rfl)

set_option backward.isDefEq.respectTransparency.types false in
/-- Every weakly fair execution of the program from memory `m` terminates, nothing faulting, and the final memory holds
    every unscoped buffer of every core at the last contents of the fold. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W3 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.LibLastAxisSoftmax.lean ====
/-
  Softmax along the last axis, read at an index, on the extended reals.

  A row of extended reals `f : Fin c → EReal` has the softmax
  `exp (f l - M) / ∑ k, exp (f k - M)`, with `M` the row's maximum taken from the word of minus
  infinity upward (`softmaxAt`). Two programs compute it, each along the LAST axis of an array:
  * a vector program on a rank-3 array [a, b, c]: the maximum and the sum are lane reductions to
    [a, b], each kept as a unit axis [a, b, 1] and broadcast back to [a, b, c] (`vecSoftmax3`);
  * a host program on a rank-4 array [a, b, g, c]: the maximum and the sum are reductions over
    axis 3 to [a, b, g], the maximum joined once more with minus infinity (which changes nothing),
    each broadcast back through [a, b, g, 1] (`hostSoftmax4`).
  Read at an index both are `softmaxAt` of the row through that index
  (`vecSoftmax3_apply`, `hostSoftmax4_apply`): no law of arithmetic is used beyond
  `max b (fold max b f) = fold max b f` and `0 + s = s`.
-/
import Idealize.ShloMosaic.PureOps.Ideal.Laws
import Idealize.ShloMosaic.Lib.ValueIdx
import Idealize.ShloMosaic.Lib.Pipeline.Value

noncomputable section

open scoped BigOperators

namespace Idealize.ShloMosaic.LastAxisSoftmax

open Idealize.ShloMosaic Idealize.ShloMosaic.ValueIdx

/-- The extended real that the f32 word of minus infinity denotes; it is only ever compared with itself. -/
abbrev negInf : EReal := Ideal.ofBits .f32 0xFF800000#32

/-- The softmax of the row `f` at its member `l`: the maximum is folded from `negInf`. -/
def softmaxAt {c : Nat} (f : Fin c → EReal) (l : Fin c) : EReal :=
  Ideal.div (Ideal.exp (f l - (Finset.univ : Finset (Fin c)).fold max negInf f))
    (∑ k : Fin c, Ideal.exp (f k - (Finset.univ : Finset (Fin c)).fold max negInf f))

/-! ## The vector program, rank 3 -/

section Vec
variable {n0 n1 n2 : Nat}

/-- A reduced array [a, b], given a unit last axis and broadcast along it to [a, b, c], reads at
    (p, g, l) what it held at (p, g). -/
theorem keepdims3_apply {α : Type} (v : (⟨2, ![n0, n1]⟩ : Shape).Idx → α)
    (hc : (⟨2, ![n0, n1]⟩ : Shape).ShapeCasts ⟨3, ![n0, n1, 1]⟩)
    (hb : (⟨3, ![n0, n1, 1]⟩ : Shape).Broadcasts ⟨3, ![n0, n1, n2]⟩)
    (p : Fin n0) (g : Fin n1) (l : Fin n2) :
    broadcastTo ⟨3, ![n0, n1, n2]⟩ (shapeCast ⟨3, ![n0, n1, 1]⟩ v hc) hb (ix3 p g l) = v (ix2 p g) := by
  rw [broadcastTo_apply _ hb (ix3 p g l) (ix3 p g (⟨0, Nat.one_pos⟩ : Fin 1)) (fun a => by
    match a with
    | ⟨0, _⟩ =>
      show p.val = if n0 = 1 then 0 else p.val
      split
      · have := p.isLt; omega
      · rfl
    | ⟨1, _⟩ =>
      show g.val = if n1 = 1 then 0 else g.val
      split
      · have := g.isLt; omega
      · rfl
    | ⟨2, _⟩ =>
      show 0 = if (1 : Nat) = 1 then 0 else l.val
      rw [if_pos rfl])]
  exact shapeCast_apply v hc _ (ix2 p g) (by
    rw [Shape.rowMajor_val_two, Shape.rowMajor_val_three]
    show p.val * n1 + g.val = (p.val * n1 + g.val) * 1 + 0
    omega)

/-- The index of [a, b, c] over (p, g) of [a, b] with `k` on the reduced last axis is (p, g, k). -/
theorem lift3 (hr : (⟨3, ![n0, n1, n2]⟩ : Shape).Reduces [2] ⟨2, ![n0, n1]⟩) (p : Fin n0) (g : Fin n1) (k : Fin n2) :
    hr.lift (ix2 p g) k = ix3 p g k := by
  funext a
  apply Fin.ext
  match a with
  | ⟨0, _⟩ => rfl
  | ⟨1, _⟩ => rfl
  | ⟨2, _⟩ => rfl

variable {F : FTy → Type} [FloatOps F]

/-- The vector program: subtract the lane maximum, exponentiate, divide by the lane sum. -/
def vecSoftmax3 (X : FVec F ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) : FVec F ⟨3, ![n0, n1, n2]⟩ .f32 :=
  divf
    (exp (subf X (broadcastTo ⟨3, ![n0, n1, n2]⟩ (shapeCast ⟨3, ![n0, n1, 1]⟩
      (multiReduction .maximumf [2] ⟨2, ![n0, n1]⟩ X 0xFF800000#32 hr hφ hmax) hc) hb)))
    (broadcastTo ⟨3, ![n0, n1, n2]⟩ (shapeCast ⟨3, ![n0, n1, 1]⟩
      (multiReduction .add [2] ⟨2, ![n0, n1]⟩
        (exp (subf X (broadcastTo ⟨3, ![n0, n1, n2]⟩ (shapeCast ⟨3, ![n0, n1, 1]⟩
          (multiReduction .maximumf [2] ⟨2, ![n0, n1]⟩ X 0xFF800000#32 hr hφ hmax) hc) hb)))
        0x00000000#32 hr hφ hadd) hc) hb)

end Vec

/-- Read at (p, g, l), the vector program is the softmax of row (p, g, ·) at `l`. -/
theorem vecSoftmax3_apply {n0 n1 n2 : Nat} (X : FVec Ideal ⟨3, ![n0, n1, n2]⟩ .f32)
    (hr : (⟨3, ![n0, n1, n2]⟩ : Shape).Reduces [2] ⟨2, ![n0, n1]⟩)
    (hc : (⟨2, ![n0, n1]⟩ : Shape).ShapeCasts ⟨3, ![n0, n1, 1]⟩)
    (hb : (⟨3, ![n0, n1, 1]⟩ : Shape).Broadcasts ⟨3, ![n0, n1, n2]⟩)
    (hφ : FKind.Formats .f32) (hmax : (0xFF800000#32 : BitVec 32) = FKind.maximumf.neutral .f32 hφ)
    (hadd : (0x00000000#32 : BitVec 32) = FKind.add.neutral .f32 hφ) (p : Fin n0) (g : Fin n1) (l : Fin n2) :
    vecSoftmax3 (F := Ideal) X hr hc hb hφ hmax hadd (ix3 p g l) = softmaxAt (fun k : Fin n2 => X (ix3 p g k)) l := by
  -- the lane maximum at (p, g): the fold of `max` over the row
  have hM : multiReduction .maximumf [2] ⟨2, ![n0, n1]⟩ X 0xFF800000#32 hr hφ hmax (ix2 p g)
      = (Finset.univ : Finset (Fin n2)).fold max negInf (fun k : Fin n2 => X (ix3 p g k)) := by
    rw [Ideal.multiReduction_maximumf_single]
    exact congrArg (fun f : Fin n2 → EReal => (Finset.univ : Finset (Fin n2)).fold max negInf f)
      (funext fun k => congrArg X (lift3 hr p g k))
  -- the exponentials at (p, g, k)
  have hE : ∀ k : Fin n2,
      exp (subf X (broadcastTo ⟨3, ![n0, n1, n2]⟩ (shapeCast ⟨3, ![n0, n1, 1]⟩
        (multiReduction .maximumf [2] ⟨2, ![n0, n1]⟩ X 0xFF800000#32 hr hφ hmax) hc) hb)) (ix3 p g k)
      = Ideal.exp (X (ix3 p g k) - (Finset.univ : Finset (Fin n2)).fold max negInf (fun k : Fin n2 => X (ix3 p g k))) := by
    intro k
    show Ideal.exp (X (ix3 p g k) - broadcastTo ⟨3, ![n0, n1, n2]⟩ (shapeCast ⟨3, ![n0, n1, 1]⟩
        (multiReduction .maximumf [2] ⟨2, ![n0, n1]⟩ X 0xFF800000#32 hr hφ hmax) hc) hb (ix3 p g k)) = _
    rw [keepdims3_apply, hM]
  unfold vecSoftmax3 softmaxAt
  show Ideal.div _ _ = _
  rw [hE l, keepdims3_apply, Ideal.multiReduction_add_single]
  refine congrArg (Ideal.div _) ?_
  exact Finset.sum_congr rfl fun k _ => by rw [lift3 hr p g k, hE k]

/-! ## The host program, rank 4 -/

section Host
variable {n0 n1 n2 n3 : Nat}

/-- A reduced array [a, b, g], broadcast to [a, b, g, 1] and then along the unit axis to [a, b, g, c],
    reads at (a, b, g, l) what it held at (a, b, g). -/
theorem keepdims4_apply {α : Type} (v : (⟨3, ![n0, n1, n2]⟩ : Shape).Idx → α)
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    broadcastInDim ⟨4, ![n0, n1, n2, n3]⟩ ![0, 1, 2, 3] h2 (broadcastInDim ⟨4, ![n0, n1, n2, 1]⟩ ![0, 1, 2] h1 v) (ix4 a b g l)
      = v (ix3 a b g) := by
  rw [broadcastInDim_apply _ h2 _ (ix4 a b g l) (ix4 a b g (⟨0, Nat.one_pos⟩ : Fin 1)) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl
    | ⟨3, _⟩ =>
      show 0 = if (1 : Nat) = 1 then 0 else l.val
      rw [if_pos rfl])]
  exact broadcastInDim_apply _ h1 v _ (ix3 a b g) (fun d => by
    match d with
    | ⟨0, _⟩ =>
      show a.val = if n0 = 1 then 0 else a.val
      split
      · have := a.isLt; omega
      · rfl
    | ⟨1, _⟩ =>
      show b.val = if n1 = 1 then 0 else b.val
      split
      · have := b.isLt; omega
      · rfl
    | ⟨2, _⟩ =>
      show g.val = if n2 = 1 then 0 else g.val
      split
      · have := g.isLt; omega
      · rfl)

/-- The index of [a, b, g, c] over (a, b, g) with `k` on the reduced last axis is (a, b, g, k). -/
theorem lift4 (hr : (⟨4, ![n0, n1, n2, n3]⟩ : Shape).Reduces [3] ⟨3, ![n0, n1, n2]⟩) (a : Fin n0) (b : Fin n1) (g : Fin n2)
    (k : Fin n3) : hr.lift (ix3 a b g) k = ix4 a b g k := by
  funext d
  apply Fin.ext
  match d with
  | ⟨0, _⟩ => rfl
  | ⟨1, _⟩ => rfl
  | ⟨2, _⟩ => rfl
  | ⟨3, _⟩ => rfl

variable {F : FTy → Type} [FloatOps F]

/-- The host program: the maximum over axis 3 joined with minus infinity, subtracted, exponentiated, divided by
    the sum over axis 3 (from zero). -/
def hostSoftmax4 (X : FVec F ⟨4, ![n0, n1, n2, n3]⟩ .f32)
    (hred : (⟨4, ![n0, n1, n2, n3]⟩ : Shape).ReducesTo [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4)) :
    FVec F ⟨4, ![n0, n1, n2, n3]⟩ .f32 :=
  Host.divf
    (Host.exp (subf X (broadcastInDim ⟨4, ![n0, n1, n2, n3]⟩ ![0, 1, 2, 3] h2 (broadcastInDim ⟨4, ![n0, n1, n2, 1]⟩ ![0, 1, 2] h1
      (maximumf (broadcastInDim ⟨3, ![n0, n1, n2]⟩ ![] h0 (constant ⟨0, ![]⟩ .f32 0xFF800000#32))
        (Host.reduce FloatOps.maximumf X (constant ⟨0, ![]⟩ .f32 0xFF800000#32) hred hu))))))
    (broadcastInDim ⟨4, ![n0, n1, n2, n3]⟩ ![0, 1, 2, 3] h2 (broadcastInDim ⟨4, ![n0, n1, n2, 1]⟩ ![0, 1, 2] h1
      (Host.reduceAdd
        (Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant ⟨0, ![]⟩ .f32 0xFF800000#32))
            (Host.reduce FloatOps.maximumf X (constant ⟨0, ![]⟩ .f32 0xFF800000#32) hred hu))))))
        (constant ⟨0, ![]⟩ .f32 0x00000000#32) hred hu)))

end Host

/-- Read at (a, b, g, l), the host program is the softmax of row (a, b, g, ·) at `l`. -/
theorem hostSoftmax4_apply {n0 n1 n2 n3 : Nat} (X : FVec Ideal ⟨4, ![n0, n1, n2, n3]⟩ .f32)
    (hred : (⟨4, ![n0, n1, n2, n3]⟩ : Shape).ReducesTo [3] ⟨3, ![n0, n1, n2]⟩)
    (hr : (⟨4, ![n0, n1, n2, n3]⟩ : Shape).Reduces [3] ⟨3, ![n0, n1, n2]⟩)
    (hu : 0 < (⟨0, ![]⟩ : Shape).numel)
    (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (a : Fin n0) (b : Fin n1) (g : Fin n2) (l : Fin n3) :
    hostSoftmax4 (F := Ideal) X hred hu h0 h1 h2 (ix4 a b g l) = softmaxAt (fun k : Fin n3 => X (ix4 a b g k)) l := by
  -- the maximum at (a, b, g): joining the fold from minus infinity with minus infinity changes nothing
  have hM : maximumf (broadcastInDim ⟨3, ![n0, n1, n2]⟩ ![] h0 (constant (F := Ideal) ⟨0, ![]⟩ .f32 0xFF800000#32))
        (Host.reduce FloatOps.maximumf X (constant (F := Ideal) ⟨0, ![]⟩ .f32 0xFF800000#32) hred hu) (ix3 a b g)
      = (Finset.univ : Finset (Fin n3)).fold max negInf (fun k : Fin n3 => X (ix4 a b g k)) := by
    show max (broadcastInDim ⟨3, ![n0, n1, n2]⟩ ![] h0 (constant (F := Ideal) ⟨0, ![]⟩ .f32 0xFF800000#32) (ix3 a b g))
        (Host.reduce FloatOps.maximumf X (constant (F := Ideal) ⟨0, ![]⟩ .f32 0xFF800000#32) hred hu (ix3 a b g)) = _
    rw [Host.reduce_eq_fold_single FloatOps.maximumf X _ hred hr hu (ix3 a b g),
      broadcastInDim_apply _ h0 _ (ix3 a b g) ix0 (fun d => d.elim0)]
    show max negInf (Finset.univ.fold max negInf (X ∘ hr.lift (ix3 a b g))) = _
    rw [max_eq_right ((Finset.le_fold_max _).2 (Or.inl le_rfl))]
    exact congrArg (fun f : Fin n3 → EReal => (Finset.univ : Finset (Fin n3)).fold max negInf f)
      (funext fun k => congrArg X (lift4 hr a b g k))
  -- the exponentials at (a, b, g, k)
  have hE : ∀ k : Fin n3,
      Host.exp (subf X (broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))))) (ix4 a b g k)
      = Ideal.exp (X (ix4 a b g k) - (Finset.univ : Finset (Fin n3)).fold max negInf (fun k : Fin n3 => X (ix4 a b g k))) := by
    intro k
    show Ideal.exp (X (ix4 a b g k) - broadcastInDim ⟨4, ![n0, n1, n2, n3]⟩ ![0, 1, 2, 3] h2 (broadcastInDim ⟨4, ![n0, n1, n2, 1]⟩ ![0, 1, 2] h1
          (maximumf (broadcastInDim ⟨3, ![n0, n1, n2]⟩ ![] h0 (constant (F := Ideal) ⟨0, ![]⟩ .f32 0xFF800000#32))
            (Host.reduce FloatOps.maximumf X (constant (F := Ideal) ⟨0, ![]⟩ .f32 0xFF800000#32) hred hu))) (ix4 a b g k)) = _
    rw [keepdims4_apply, hM]
  unfold hostSoftmax4 softmaxAt
  show Ideal.div _ _ = _
  rw [hE l, keepdims4_apply]
  refine congrArg (Ideal.div _) ?_
  show Ideal.hostReduceAdd hred _ (Ideal.ofBits .f32 0x00000000#32) (ix3 a b g) = _
  rw [Ideal.hostReduceAdd_single hred hr, Ideal.ofBits_zero_f32, zero_add]
  exact Finset.sum_congr rfl fun k _ => by rw [lift4 hr a b g k, hE k]

end Idealize.ShloMosaic.LastAxisSoftmax

end
-- ==== Proof.Spec.lean ====
/-
  The function both programs compute, index by index, on the extended reals.

  A fused projection `P = X · Wᵀ + b` of the 4096 token rows (batch·2048 + position) onto 6144 features holds, for
  head `h`, the query features at columns `h·128 + d`, the key features at `2048 + h·128 + d` and the value features at
  `4096 + h·128 + d`.  The "rotation" scales the first 64 features of a query or key row at position `s` by the table entry
  `fr (s, d)` and repeats the 64 scaled features once, so feature `d` of the rotated row is feature `d mod 64` times
  `fr (s, d mod 64)`.  The score of query position `s` against key position `t` is the inner product of the two rotated
  rows over the 128 features times a fixed scale; the attention output is the softmax of a query's 2048 scores applied to the
  value rows.  The three results are the attention output laid out as [token row, h·128 + d], the rotated keys and the values
  laid out as [batch, head, position, feature].
-/
import Idealize.ShloMosaic.PureOps.Ideal
import Idealize.ShloMosaic.Lib.ValueIdx
import proofs.«177219_j15144054686376_2_alg».proof.Proof.LibLastAxisSoftmax

noncomputable section

namespace Cert.Spec

open Idealize.ShloMosaic Idealize.ShloMosaic.ValueIdx Idealize.ShloMosaic.LastAxisSoftmax

/-- The token row of batch `n`, position `s`. -/
def row (n : Fin 2) (s : Fin 2048) : Fin 4096 := ⟨n.val * 2048 + s.val, by omega⟩
/-- The column of head `h`'s query feature `d` (one of the first 64). -/
def qf (h : Fin 16) (d : Fin 64) : Fin 6144 := ⟨h.val * 128 + d.val, by omega⟩
/-- The column of head `h`'s key feature `d` (one of the first 64). -/
def kf (h : Fin 16) (d : Fin 64) : Fin 6144 := ⟨2048 + h.val * 128 + d.val, by omega⟩
/-- The column of head `h`'s value feature `d`. -/
def vf (h : Fin 16) (d : Fin 128) : Fin 6144 := ⟨4096 + h.val * 128 + d.val, by omega⟩
/-- A feature of the repeated row read back in the half it repeats. -/
def half (d : Fin 128) : Fin 64 := ⟨d.val % 64, Nat.mod_lt _ (by norm_num)⟩

/-- The same read as a column of a 128-feature row. -/
def lo (d : Fin 128) : Fin 128 := ⟨d.val % 64, by omega⟩

/-- The scale of the scores: the same binary32 word in both programs, never evaluated. -/
abbrev scale : EReal := Ideal.ofBits .f32 0x3DB504F3#32

/-- The projection `A · Wtᵀ + B` of the flattened rows, the bias a single row. -/
def projArr (A : (⟨2, ![4096, 2048]⟩ : Shape).Idx → EReal) (Wt : (⟨2, ![6144, 2048]⟩ : Shape).Idx → EReal)
    (B : (⟨2, ![1, 6144]⟩ : Shape).Idx → EReal) : (⟨2, ![4096, 6144]⟩ : Shape).Idx → EReal :=
  fun i => (∑ e : Fin 2048, A (ix2 (i 0) e) * Wt (ix2 (i 1) e)) + B (ix2 (0 : Fin 1) (i 1))

/-- The same projection of the unflattened activations [batch, position, feature], the bias a vector. -/
def projRef (x : (⟨3, ![2, 2048, 2048]⟩ : Shape).Idx → EReal) (W : (⟨2, ![6144, 2048]⟩ : Shape).Idx → EReal)
    (b : (⟨1, ![6144]⟩ : Shape).Idx → EReal) : (⟨2, ![4096, 6144]⟩ : Shape).Idx → EReal :=
  fun i => (∑ e : Fin 2048, x (ix3 (⟨(i 0).val / 2048, by have := idx2_lt0 i; omega⟩ : Fin 2)
      (⟨(i 0).val % 2048, Nat.mod_lt _ (by norm_num)⟩ : Fin 2048) e) * W (ix2 (i 1) e)) + b (ix1 (i 1))

section
variable (Q : (⟨2, ![4096, 6144]⟩ : Shape).Idx → EReal) (fr : (⟨2, ![2048, 64]⟩ : Shape).Idx → EReal)

/-- Feature `d` of the rotated query row of batch `n`, head `h`, position `s`. -/
def qr (n : Fin 2) (h : Fin 16) (s : Fin 2048) (d : Fin 128) : EReal :=
  Q (ix2 (row n s) (qf h (half d))) * fr (ix2 s (half d))
/-- Feature `d` of the rotated key row of batch `n`, head `h`, position `s`. -/
def kr (n : Fin 2) (h : Fin 16) (s : Fin 2048) (d : Fin 128) : EReal :=
  Q (ix2 (row n s) (kf h (half d))) * fr (ix2 s (half d))
/-- Feature `d` of the value row of batch `n`, head `h`, position `s`. -/
def vv (n : Fin 2) (h : Fin 16) (s : Fin 2048) (d : Fin 128) : EReal :=
  Q (ix2 (row n s) (vf h d))
/-- The scaled score of query position `s` against key position `t`. -/
def score (n : Fin 2) (h : Fin 16) (s t : Fin 2048) : EReal :=
  (∑ d : Fin 128, qr Q fr n h s d * kr Q fr n h t d) * scale
/-- The attention output: the softmax of the scores of query `s` applied to the value rows. -/
def att (n : Fin 2) (h : Fin 16) (s : Fin 2048) (d : Fin 128) : EReal :=
  ∑ t : Fin 2048, softmaxAt (fun t' : Fin 2048 => score Q fr n h s t') t * vv Q n h t d

/-- The attention output at token row `r` and column `f = h·128 + d`. -/
def yAt (r : Fin 4096) (f : Fin 2048) : EReal :=
  att Q fr (⟨r.val / 2048, by omega⟩ : Fin 2) (⟨f.val / 128, by omega⟩ : Fin 16)
    (⟨r.val % 2048, Nat.mod_lt _ (by norm_num)⟩ : Fin 2048) (⟨f.val % 128, Nat.mod_lt _ (by norm_num)⟩ : Fin 128)

/-- The first result: the attention output, [token row, head·128 + feature]. -/
def Gy : (⟨2, ![4096, 2048]⟩ : Shape).Idx → EReal := fun i => yAt Q fr (i 0) (i 1)
/-- The second result: the rotated keys, [batch, head, position, feature]. -/
def Gk : (⟨4, ![2, 16, 2048, 128]⟩ : Shape).Idx → EReal := fun i => kr Q fr (i 0) (i 1) (i 2) (i 3)
/-- The third result: the values, [batch, head, position, feature]. -/
def Gv : (⟨4, ![2, 16, 2048, 128]⟩ : Shape).Idx → EReal := fun i => vv Q (i 0) (i 1) (i 2) (i 3)

end

end Cert.Spec

end
-- ==== Proof.LibRowsDot.lean ====
/-
  A matrix product that contracts the second axis of BOTH operands, read at an index, on the extended reals.

  For an M × K matrix A and an N × K matrix B the product A · Bᵀ has at (p, j) the entry Σ k, A (p, k) · B (j, k): the
  left operand is read at (row of the result, contracted coordinate) and the right at (column of the result, contracted
  coordinate). `RowsDot` says this of a dot's dimension numbers (one contracted axis of extent K and the four
  coordinate facts); the library's `DotDims.transposedRhs` satisfies it (`rowsDot_transposedRhs`), and a printed dot
  with those dimension numbers differs from it only in the proof of its well-formedness. `RowsDot.matmul_apply` reads the
  vector unit's product into the zero accumulator, `RowsDot.dotGeneral_apply` the host's product, as that sum.
-/
import Idealize.ShloMosaic.Lib.ValueIdx
import Idealize.ShloMosaic.PureOps.Ideal.Laws

noncomputable section

open scoped BigOperators

namespace Cert.LibRowsDot

open Idealize.ShloMosaic Idealize.ShloMosaic.ValueIdx

/-- What makes a dot the product of an M × K matrix with the transpose of an N × K matrix: one contracted axis of
    extent K; the left operand is read at (row of the result, contracted coordinate), the right at (column of the
    result, contracted coordinate). -/
structure RowsDot {M K N : ℕ} (d : DotDims ⟨2, ![M, K]⟩ ⟨2, ![N, K]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (i 1).val
  hr1 : ∀ (i : (⟨2, ![M, N]⟩ : Shape).Idx) (q : d.contr.Idx), (d.rhsIdx i q 1).val = (q ⟨0, by omega⟩).val

/-- The dimension numbers "left contracted on axis 1, right contracted on axis 1, no batch axis" are rows with rows. -/
theorem rowsDot_transposedRhs (M K N : ℕ) : RowsDot (DotDims.transposedRhs M K N) where
  hr := rfl
  hs := rfl
  hl0 := fun _ _ => rfl
  hl1 := fun _ _ => rfl
  hr0 := fun _ _ => rfl
  hr1 := fun _ _ => rfl

/-- The sum over a rows-with-rows dot's contraction index is the sum over `Fin K` of the products along row p of the left
    operand and row j of the right. -/
theorem RowsDot.sum_eq {M K N : ℕ} {d : DotDims ⟨2, ![M, K]⟩ ⟨2, ![N, K]⟩ ⟨2, ![M, N]⟩} (hd : RowsDot d)
    (lhs : (⟨2, ![M, K]⟩ : Shape).Idx → EReal) (rhs : (⟨2, ![N, K]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 j k) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 j k := funext fun a => Fin.ext (by
    match a with
    | ⟨0, _⟩ => exact hd.hr0 _ _
    | ⟨1, _⟩ => exact (hd.hr1 _ _).trans hk)
  rw [el, er]

/-- The matrix product into the zero accumulator of a rows-with-rows dot, at (p, j), is Σ k, lhs (p, k) · rhs (j, k). -/
theorem RowsDot.matmul_apply {M K N : ℕ} {φ₁ φ₂ : FTy} {d : DotDims ⟨2, ![M, K]⟩ ⟨2, ![N, K]⟩ ⟨2, ![M, N]⟩}
    (hd : RowsDot d) (lhs : FVec Ideal ⟨2, ![M, K]⟩ φ₁) (rhs : FVec Ideal ⟨2, ![N, K]⟩ φ₂) (p : Fin M) (j : Fin N) :
    matmul d none lhs rhs (constant ⟨2, ![M, N]⟩ .f32 0x00000000#32) (ix2 p j)
      = ∑ k : Fin K, lhs (ix2 p k) * rhs (ix2 j k) := by
  show FloatOps.matmul d none lhs rhs (constant ⟨2, ![M, N]⟩ .f32 0x00000000#32) (ix2 p j) = _
  rw [Ideal.matmul_constant_zero_apply]
  exact hd.sum_eq lhs rhs p j

/-- The host's product of a rows-with-rows dot, at (p, j), is Σ k, lhs (p, k) · rhs (j, k). -/
theorem RowsDot.dotGeneral_apply {M K N : ℕ} {φ₁ φ₂ : FTy} {d : DotDims ⟨2, ![M, K]⟩ ⟨2, ![N, K]⟩ ⟨2, ![M, N]⟩}
    (hd : RowsDot d) (lhs : FVec Ideal ⟨2, ![M, K]⟩ φ₁) (rhs : FVec Ideal ⟨2, ![N, K]⟩ φ₂) (p : Fin M) (j : Fin N) :
    FloatOps.dotGeneral d none .single lhs rhs (ix2 p j) = ∑ k : Fin K, lhs (ix2 p k) * rhs (ix2 j k) := by
  rw [Ideal.dotGeneral_apply]
  exact hd.sum_eq lhs rhs p j

end Cert.LibRowsDot

end
-- ==== Proof.Value0.lean ====
/-
  What the projection's pipeline leaves in its output array, on the extended reals.

  The body stores, over the whole 2048 × 512 output block, the product of the activation block with the transpose of the
  weight block plus the bias block repeated down the rows: at (p, j) the sum over the 2048 contracted features of
  activation (p, e) · weight (j, e), plus bias (0, j).  Grid point (i, j) reads activation rows 2048·i …, weight rows
  512·j … and bias columns 512·j …, and writes block (i, j) of the output, so the block it writes is block (i, j) of the
  projection of the whole arrays; the 2 × 12 blocks cover the 4096 × 6144 output, so the output array ends as that
  projection.
-/
import proofs.«177219_j15144054686376_2_alg».proof.Proof.KernelIdealFrame.Defs0
import proofs.«177219_j15144054686376_2_alg».proof.Proof.Spec
import proofs.«177219_j15144054686376_2_alg».proof.Proof.LibRowsDot
import Idealize.ShloMosaic.Lib.Pipeline.Value
import Idealize.ShloMosaic.Lib.ValueLayout
import Idealize.ShloMosaic.Lib.ValueIdx
import Idealize.ShloMosaic.Lib.Tactic

set_option maxRecDepth 16384

noncomputable section

open scoped BigOperators

namespace Cert.KernelIdeal.Value0

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.Hand Cert.LibRowsDot

variable (V : (c : Dev nD) → (b : Ref sig .tc) → Buf (Elt Ideal) ((c : Thread nD τ).loc b))

/-- The zero offsets of a whole-buffer rectangle. -/
theorem zeroOff : (![0, 0] : Fin 2 → Nat) = fun _ => 0 := funext fun a => by fin_cases a <;> rfl

/-- The body's product contracts the second axis of both operands: rows of the activations with rows of the weights. -/
theorem rowsDot_body : RowsDot dot_S2048x2048_S512x2048_S2048x512_1_1_0_0_n_n where
  hr := rfl
  hs := rfl
  hl0 := fun _ _ => rfl
  hl1 := fun _ _ => rfl
  hr0 := fun _ _ => rfl
  hr1 := fun _ _ => rfl

/-- The stored block at (p, j): row p of the activation block against row j of the weight block, plus the bias at j. -/
theorem out0_3_apply (x0 : Vec Ideal S2048x2048 .bf16) (x1 : Vec Ideal S512x2048 .bf16) (x2 : Vec Ideal S1x512 .f32)
    (p : Fin 2048) (j : Fin 512) :
    out0_3 (F := Ideal) x0 x1 x2 (ix2 p j) = (∑ e : Fin 2048, x0 (ix2 p e) * x1 (ix2 j e)) + x2 (ix2 (0 : Fin 1) j) := by
  unfold out0_3
  rw [View.canon_unit_zero zeroOff]
  simp only [View.ld_unit_zero (S := S2048x2048) zeroOff, View.ld_unit_zero (S := S512x2048) zeroOff,
    View.ld_unit_zero (S := S1x512) zeroOff]
  unfold k0_pay1
  simp only [shapeCast_self]
  refine (addf_apply _ _ (ix2 p j)).trans ?_
  exact congrArg₂ (· + ·) (rowsDot_body.matmul_apply x0 x1 p j) (broadcastTo_1b_ab_apply x2 broadcasts_S1x512_S2048x512 p j)

/-- The written block in terms of whole arrays: if row p of the activation block is row r of the activations, row j of
    the weight block is row f of the weights and the bias block at j is the bias at f, the stored value at (p, j) is the
    projection at (r, f). -/
theorem block_apply (A : S4096x2048.Idx → EReal) (Wt : S6144x2048.Idx → EReal) (B : S1x6144.Idx → EReal)
    (x0 : Vec Ideal S2048x2048 .bf16) (x1 : Vec Ideal S512x2048 .bf16) (x2 : Vec Ideal S1x512 .f32)
    (p : Fin 2048) (j : Fin 512) (r : Fin 4096) (f : Fin 6144)
    (h0 : ∀ e : Fin 2048, x0 (ix2 p e) = A (ix2 r e))
    (h1 : ∀ e : Fin 2048, x1 (ix2 j e) = Wt (ix2 f e))
    (h2 : x2 (ix2 (0 : Fin 1) j) = B (ix2 (0 : Fin 1) f)) :
    out0_3 (F := Ideal) x0 x1 x2 (ix2 p j) = Cert.Spec.projArr A Wt B (ix2 r f) := by
  refine (out0_3_apply x0 x1 x2 p j).trans ?_
  show _ = (∑ e : Fin 2048, A (ix2 r e) * Wt (ix2 f e)) + B (ix2 (0 : Fin 1) f)
  rw [h2]
  exact congrArg (· + B (ix2 (0 : Fin 1) f)) (Finset.sum_congr rfl fun e _ => by rw [h0 e, h1 e])

/-- The index maps over the 24 grid points: the activation block follows the output's row block, the weight and bias
    blocks follow the output's column block, and the output's block indices stay inside the 2 × 12 grid of blocks. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 1 ∧ win0_3.index t (1 : Fin 2) ≤ 11 :=
  (by decide +kernel : ∀ t : Fin grid0.N, _)

/-- Every block (q0, q1) of the 2 × 12 blocks of the output is some grid point's. -/
theorem idx_onto : ∀ (q0 : Fin 2) (q1 : Fin 12), ∃ t : Fin cfg0.N, win0_3.index t = ![q0.val, q1.val] :=
  (by decide +kernel : ∀ (q0 : Fin 2) (q1 : Fin 12), ∃ t : Fin grid0.N, win0_3.index t = ![q0.val, q1.val])

/-- What grid point t writes back is its block of the projection of the whole arrays. -/
theorem flushed_eq (c : Dev nD) (t : Fin cfg0.N) :
    (dat0 (F := Ideal) V c).flushed 3 t
      = ((cfg0.win 3).blk t).view.read (Elt Ideal)
          (Cert.Spec.projArr (V c main_v1 : S4096x2048.Idx → EReal) (V c main_v2 : S6144x2048.Idx → EReal) (V c main_v3 : S1x6144.Idx → EReal)) := by
  show (cfg0.win 3).cut (grid0.coords t) ((dat0 V c).after 3 t) = _
  rw [after0_3]
  obtain ⟨e0, e1, e2, e3, e4, e5, b0, b1⟩ := idx_facts t
  funext y
  obtain ⟨p, j, rfl⟩ : ∃ (p : Fin 2048) (j : Fin 512), y = ix2 p j := ⟨y 0, y 1, eq_ix2 y⟩
  have hp : p.val < 2048 := p.isLt
  have hj : j.val < 512 := j.isLt
  have hemb : ((cfg0.win 3).blk t).view.emb (ix2 p j)
      = ix2 (⟨win0_3.index t (0 : Fin 2) * 2048 + p.val, by omega⟩ : Fin 4096) (⟨win0_3.index t (1 : Fin 2) * 512 + j.val, by omega⟩ : Fin 6144) := by
    funext a; apply Fin.ext
    match a with
    | ⟨0, _⟩ => show win0_3.index t (0 : Fin 2) * 2048 + 1 * p.val = win0_3.index t (0 : Fin 2) * 2048 + p.val; omega
    | ⟨1, _⟩ => show win0_3.index t (1 : Fin 2) * 512 + 1 * j.val = win0_3.index t (1 : Fin 2) * 512 + j.val; omega
  show out0_3 (iblk0 V c 0 t) (iblk0 V c 1 t) (iblk0 V c 2 t) (ix2 p j)
    = Cert.Spec.projArr (V c main_v1 : S4096x2048.Idx → EReal) (V c main_v2 : S6144x2048.Idx → EReal) (V c main_v3 : S1x6144.Idx → EReal)
        (((cfg0.win 3).blk t).view.emb (ix2 p j))
  rw [hemb]
  refine block_apply _ _ _ (iblk0 V c 0 t) (iblk0 V c 1 t) (iblk0 V c 2 t) p j _ _ (fun e => ?_) (fun e => ?_) ?_
  · show (V c main_v1 : S4096x2048.Idx → EReal) (((cfg0.win 0).blk t).view.emb (ix2 p e)) = _
    refine congrArg (V c main_v1 : S4096x2048.Idx → EReal) (funext fun a => Fin.ext ?_)
    have he : e.val < 2048 := e.isLt
    match a with
    | ⟨0, _⟩ => show win0_0.index t (0 : Fin 2) * 2048 + 1 * p.val = win0_3.index t (0 : Fin 2) * 2048 + p.val; omega
    | ⟨1, _⟩ => show win0_0.index t (1 : Fin 2) * 2048 + 1 * e.val = e.val; omega
  · show (V c main_v2 : S6144x2048.Idx → EReal) (((cfg0.win 1).blk t).view.emb (ix2 j e)) = _
    refine congrArg (V c main_v2 : S6144x2048.Idx → EReal) (funext fun a => Fin.ext ?_)
    match a with
    | ⟨0, _⟩ => show win0_1.index t (0 : Fin 2) * 512 + 1 * j.val = win0_3.index t (1 : Fin 2) * 512 + j.val; omega
    | ⟨1, _⟩ => show win0_1.index t (1 : Fin 2) * 2048 + 1 * e.val = e.val; omega
  · show (V c main_v3 : S1x6144.Idx → EReal) (((cfg0.win 2).blk t).view.emb (ix2 (0 : Fin 1) j)) = _
    refine congrArg (V c main_v3 : S1x6144.Idx → EReal) (funext fun a => Fin.ext ?_)
    match a with
    | ⟨0, _⟩ => show win0_2.index t (0 : Fin 2) * 1 + 1 * 0 = 0; omega
    | ⟨1, _⟩ => show win0_2.index t (1 : Fin 2) * 512 + 1 * j.val = win0_3.index t (1 : Fin 2) * 512 + j.val; omega

/-- An index of the output lies in grid point t's block exactly when each coordinate lies in the block's range. -/
theorem mem_blk (t : Fin cfg0.N) (i : S4096x6144.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v4).slice (win0_3.rect t)).set ↔ _
  rw [View.set_slice_whole, Rect.mem_set_unit]
  exact Iff.rfl

/-- Every index of the output is written: row r, column f lies in the block of the point with block indices
    (r / 2048, f / 512). -/
theorem covered (i : S4096x6144.Idx) : ∃ t : Fin cfg0.N, (cfg0.win 3).flush t = true ∧ i ∈ ((cfg0.win 3).blk t).view.set := by
  have hi0 : (i 0).val < 4096 := (i 0).isLt
  have hi1 : (i 1).val < 6144 := (i 1).isLt
  obtain ⟨t, ht⟩ := idx_onto ⟨(i 0).val / 2048, by omega⟩ ⟨(i 1).val / 512, by omega⟩
  have q0 : win0_3.index t (0 : Fin 2) = (i 0).val / 2048 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- The output array after the pipeline is the projection of the three arrays the pipeline found. -/
theorem final0 (c : Dev nD) : (dat0 (F := Ideal) V c).arrAt 3 cfg0.N = Cert.Spec.projArr (V c main_v1) (V c main_v2) (V c main_v3) :=
  (dat0 V c).arrAt_eq_of_cover 3
    (Cert.Spec.projArr (V c main_v1 : S4096x2048.Idx → EReal) (V c main_v2 : S6144x2048.Idx → EReal) (V c main_v3 : S1x6144.Idx → EReal))
    (fun t _ => flushed_eq V c t) covered

end Cert.KernelIdeal.Value0

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.LibRowSoftmax.lean ====
/-
  Softmax along the rows of a matrix and along the last axis of a rank-3 array, read at an index, on the
  extended reals: the low-rank companions of the rank-3 vector form and the rank-4 host form.

  * a vector program on [a, b]: the row maximum and the row sum are lane reductions to [a], each kept as a
    unit column [a, 1] and broadcast back along the rows (`vecSoftmax2`);
  * a host program on [a, b, c]: the maximum and the sum are reductions over axis 2 to [a, b], the maximum
    joined once more with minus infinity, each broadcast back through [a, b, 1] (`hostSoftmax3`).
  Read at an index both are `softmaxAt` of the row through that index. No law of arithmetic is used beyond
  max b (fold max b f) = fold max b f and 0 + s = s.
-/
import proofs.«177219_j15144054686376_2_alg».proof.Proof.LibLastAxisSoftmax
import proofs.«177219_j15144054686376_2_alg».proof.Proof.LibKeepdims

noncomputable section

open scoped BigOperators

namespace Idealize.ShloMosaic.LastAxisSoftmax

open Idealize.ShloMosaic Idealize.ShloMosaic.ValueIdx

/-! ## The vector program, rank 2 -/

section Vec2
variable {n0 n1 : Nat}

/-- The index of [a, b] over p of [a] with `k` on the reduced last axis is (p, k). -/
theorem lift2 (hr : (⟨2, ![n0, n1]⟩ : Shape).Reduces [1] ⟨1, ![n0]⟩) (p : Fin n0) (k : Fin n1) :
    hr.lift (ix1 p) k = ix2 p k := by
  funext a
  apply Fin.ext
  match a with
  | ⟨0, _⟩ => rfl
  | ⟨1, _⟩ => rfl

variable {F : FTy → Type} [FloatOps F]

/-- The vector program: subtract the row maximum, exponentiate, divide by the row sum. -/
def vecSoftmax2 (X : FVec F ⟨2, ![n0, n1]⟩ .f32)
    (hr : (⟨2, ![n0, n1]⟩ : Shape).Reduces [1] ⟨1, ![n0]⟩)
    (hc : (⟨1, ![n0]⟩ : Shape).ShapeCasts ⟨2, ![n0, 1]⟩)
    (hb : (⟨2, ![n0, 1]⟩ : Shape).Broadcasts ⟨2, ![n0, n1]⟩)
    (hφ : FKind.Formats .f32) (hmax : (0xFF800000#32 : BitVec 32) = FKind.maximumf.neutral .f32 hφ)
    (hadd : (0x00000000#32 : BitVec 32) = FKind.add.neutral .f32 hφ) : FVec F ⟨2, ![n0, n1]⟩ .f32 :=
  divf
    (exp (subf X (broadcastTo ⟨2, ![n0, n1]⟩ (shapeCast ⟨2, ![n0, 1]⟩
      (multiReduction .maximumf [1] ⟨1, ![n0]⟩ X 0xFF800000#32 hr hφ hmax) hc) hb)))
    (broadcastTo ⟨2, ![n0, n1]⟩ (shapeCast ⟨2, ![n0, 1]⟩
      (multiReduction .add [1] ⟨1, ![n0]⟩
        (exp (subf X (broadcastTo ⟨2, ![n0, n1]⟩ (shapeCast ⟨2, ![n0, 1]⟩
          (multiReduction .maximumf [1] ⟨1, ![n0]⟩ X 0xFF800000#32 hr hφ hmax) hc) hb)))
        0x00000000#32 hr hφ hadd) hc) hb)

end Vec2

/-- Read at (p, l), the vector program is the softmax of row p at `l`. -/
theorem vecSoftmax2_apply {n0 n1 : Nat} (X : FVec Ideal ⟨2, ![n0, n1]⟩ .f32)
    (hr : (⟨2, ![n0, n1]⟩ : Shape).Reduces [1] ⟨1, ![n0]⟩)
    (hc : (⟨1, ![n0]⟩ : Shape).ShapeCasts ⟨2, ![n0, 1]⟩)
    (hb : (⟨2, ![n0, 1]⟩ : Shape).Broadcasts ⟨2, ![n0, n1]⟩)
    (hφ : FKind.Formats .f32) (hmax : (0xFF800000#32 : BitVec 32) = FKind.maximumf.neutral .f32 hφ)
    (hadd : (0x00000000#32 : BitVec 32) = FKind.add.neutral .f32 hφ) (p : Fin n0) (l : Fin n1) :
    vecSoftmax2 (F := Ideal) X hr hc hb hφ hmax hadd (ix2 p l) = softmaxAt (fun k : Fin n1 => X (ix2 p k)) l := by
  -- the row maximum at p: the fold of `max` over the row
  have hM : multiReduction .maximumf [1] ⟨1, ![n0]⟩ X 0xFF800000#32 hr hφ hmax (ix1 p)
      = (Finset.univ : Finset (Fin n1)).fold max negInf (fun k : Fin n1 => X (ix2 p k)) := by
    rw [Ideal.multiReduction_maximumf_single]
    exact congrArg (fun f : Fin n1 → EReal => (Finset.univ : Finset (Fin n1)).fold max negInf f)
      (funext fun k => congrArg X (lift2 hr p k))
  -- the exponentials at (p, k)
  have hE : ∀ k : Fin n1,
      exp (subf X (broadcastTo ⟨2, ![n0, n1]⟩ (shapeCast ⟨2, ![n0, 1]⟩
        (multiReduction .maximumf [1] ⟨1, ![n0]⟩ X 0xFF800000#32 hr hφ hmax) hc) hb)) (ix2 p k)
      = Ideal.exp (X (ix2 p k) - (Finset.univ : Finset (Fin n1)).fold max negInf (fun k : Fin n1 => X (ix2 p k))) := by
    intro k
    show Ideal.exp (X (ix2 p k) - broadcastTo ⟨2, ![n0, n1]⟩ (shapeCast ⟨2, ![n0, 1]⟩
        (multiReduction .maximumf [1] ⟨1, ![n0]⟩ X 0xFF800000#32 hr hφ hmax) hc) hb (ix2 p k)) = _
    rw [Cert.LibKeepdims.keepdims_apply, hM]
  unfold vecSoftmax2 softmaxAt
  show Ideal.div _ _ = _
  rw [hE l, Cert.LibKeepdims.keepdims_apply, Ideal.multiReduction_add_single]
  refine congrArg (Ideal.div _) ?_
  exact Finset.sum_congr rfl fun k _ => by rw [lift2 hr p k, hE k]

end Idealize.ShloMosaic.LastAxisSoftmax

end
-- ==== Proof.LibRowSoftmaxJoined.lean ====
/-
  Softmax along the rows of a matrix [a, b] as a vector program writes it when the row maximum is joined once
  more with minus infinity before it is subtracted, read at an index, on the extended reals.

  The row maximum is a lane reduction to [a] from the word of minus infinity; the program then takes the
  maximum of that vector with the splat of minus infinity (which changes nothing, the fold having started
  there), keeps it as a unit column [a, 1], broadcasts it back along the rows, subtracts, exponentiates, sums
  each row from zero, spreads the sum back the same way and divides (`vecSoftmax2Joined`). Read at (p, l)
  it is `softmaxAt` of row p at `l` (`vecSoftmax2Joined_apply`). The only laws used are
  max b (fold max b f) = fold max b f and 0 + s = s.
-/
import proofs.«177219_j15144054686376_2_alg».proof.Proof.LibRowSoftmax

noncomputable section

open scoped BigOperators

namespace Idealize.ShloMosaic.LastAxisSoftmax

open Idealize.ShloMosaic Idealize.ShloMosaic.ValueIdx

section Vec2Joined
variable {n0 n1 : Nat}
variable {F : FTy → Type} [FloatOps F]

/-- The row maximum joined with the splat of minus infinity. -/
def rowMaxJoined (X : FVec F ⟨2, ![n0, n1]⟩ .f32)
    (hr : (⟨2, ![n0, n1]⟩ : Shape).Reduces [1] ⟨1, ![n0]⟩)
    (hφ : FKind.Formats .f32) (hmax : (0xFF800000#32 : BitVec 32) = FKind.maximumf.neutral .f32 hφ) : FVec F ⟨1, ![n0]⟩ .f32 :=
  maximumf (broadcast ⟨1, ![n0]⟩ (Scalar.ofBits .f32 0xFF800000#32))
    (multiReduction .maximumf [1] ⟨1, ![n0]⟩ X 0xFF800000#32 hr hφ hmax)

/-- The vector program: subtract the joined row maximum, exponentiate, divide by the row sum. -/
def vecSoftmax2Joined (X : FVec F ⟨2, ![n0, n1]⟩ .f32)
    (hr : (⟨2, ![n0, n1]⟩ : Shape).Reduces [1] ⟨1, ![n0]⟩)
    (hc : (⟨1, ![n0]⟩ : Shape).ShapeCasts ⟨2, ![n0, 1]⟩)
    (hb : (⟨2, ![n0, 1]⟩ : Shape).Broadcasts ⟨2, ![n0, n1]⟩)
    (hφ : FKind.Formats .f32) (hmax : (0xFF800000#32 : BitVec 32) = FKind.maximumf.neutral .f32 hφ)
    (hadd : (0x00000000#32 : BitVec 32) = FKind.add.neutral .f32 hφ) : FVec F ⟨2, ![n0, n1]⟩ .f32 :=
  divf
    (exp (subf X (broadcastTo ⟨2, ![n0, n1]⟩ (shapeCast ⟨2, ![n0, 1]⟩ (rowMaxJoined X hr hφ hmax) hc) hb)))
    (broadcastTo ⟨2, ![n0, n1]⟩ (shapeCast ⟨2, ![n0, 1]⟩
      (multiReduction .add [1] ⟨1, ![n0]⟩
        (exp (subf X (broadcastTo ⟨2, ![n0, n1]⟩ (shapeCast ⟨2, ![n0, 1]⟩ (rowMaxJoined X hr hφ hmax) hc) hb)))
        0x00000000#32 hr hφ hadd) hc) hb)

end Vec2Joined

/-- Read at (p, l), the vector program is the softmax of row p at `l`. -/
theorem vecSoftmax2Joined_apply {n0 n1 : Nat} (X : FVec Ideal ⟨2, ![n0, n1]⟩ .f32)
    (hr : (⟨2, ![n0, n1]⟩ : Shape).Reduces [1] ⟨1, ![n0]⟩)
    (hc : (⟨1, ![n0]⟩ : Shape).ShapeCasts ⟨2, ![n0, 1]⟩)
    (hb : (⟨2, ![n0, 1]⟩ : Shape).Broadcasts ⟨2, ![n0, n1]⟩)
    (hφ : FKind.Formats .f32) (hmax : (0xFF800000#32 : BitVec 32) = FKind.maximumf.neutral .f32 hφ)
    (hadd : (0x00000000#32 : BitVec 32) = FKind.add.neutral .f32 hφ) (p : Fin n0) (l : Fin n1) :
    vecSoftmax2Joined (F := Ideal) X hr hc hb hφ hmax hadd (ix2 p l) = softmaxAt (fun k : Fin n1 => X (ix2 p k)) l := by
  -- the joined row maximum at p: joining the fold from minus infinity with minus infinity changes nothing
  have hM : rowMaxJoined (F := Ideal) X hr hφ hmax (ix1 p)
      = (Finset.univ : Finset (Fin n1)).fold max negInf (fun k : Fin n1 => X (ix2 p k)) := by
    show max negInf (multiReduction .maximumf [1] ⟨1, ![n0]⟩ X 0xFF800000#32 hr hφ hmax (ix1 p)) = _
    rw [Ideal.multiReduction_maximumf_single]
    show max negInf (Finset.univ.fold max negInf (X ∘ hr.lift (ix1 p))) = _
    rw [max_eq_right ((Finset.le_fold_max _).2 (Or.inl le_rfl))]
    exact congrArg (fun f : Fin n1 → EReal => (Finset.univ : Finset (Fin n1)).fold max negInf f)
      (funext fun k => congrArg X (lift2 hr p k))
  -- the exponentials at (p, k)
  have hE : ∀ k : Fin n1,
      exp (subf X (broadcastTo ⟨2, ![n0, n1]⟩ (shapeCast ⟨2, ![n0, 1]⟩ (rowMaxJoined (F := Ideal) X hr hφ hmax) hc) hb)) (ix2 p k)
      = Ideal.exp (X (ix2 p k) - (Finset.univ : Finset (Fin n1)).fold max negInf (fun k : Fin n1 => X (ix2 p k))) := by
    intro k
    show Ideal.exp (X (ix2 p k) - broadcastTo ⟨2, ![n0, n1]⟩ (shapeCast ⟨2, ![n0, 1]⟩
        (rowMaxJoined (F := Ideal) X hr hφ hmax) hc) hb (ix2 p k)) = _
    rw [Cert.LibKeepdims.keepdims_apply, hM]
  unfold vecSoftmax2Joined softmaxAt
  show Ideal.div _ _ = _
  rw [hE l, Cert.LibKeepdims.keepdims_apply, Ideal.multiReduction_add_single]
  refine congrArg (Ideal.div _) ?_
  exact Finset.sum_congr rfl fun k _ => by rw [lift2 hr p k, hE k]

end Idealize.ShloMosaic.LastAxisSoftmax

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«177219_j15144054686376_2_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.Pay1.lean ====
/-
  The three values the attention body stores, read at an index, on the extended reals.

  The stored attention tile at (p, d) is the softmax of the scaled scores of query row p against all key rows, applied to
  the value rows; the scores are inner products over the 128 features of the rotated rows, feature e of a rotated row
  being feature e mod 64 of the row times the table entry at e mod 64.  The stored keys are the rotated key rows, the
  stored values the value rows unchanged.
-/
import proofs.«177219_j15144054686376_2_alg».proof.Proof.Gen.KernelIdeal.Skeleton
import proofs.«177219_j15144054686376_2_alg».proof.Proof.Spec
import proofs.«177219_j15144054686376_2_alg».proof.Proof.LibRowSoftmaxJoined
import proofs.«177219_j15144054686376_2_alg».proof.Proof.LibRowsDot
import proofs.«177219_j15144054686376_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay1

open Idealize.ShloMosaic Idealize.ShloMosaic.ValueIdx Idealize.ShloMosaic.LastAxisSoftmax Cert.KernelIdeal Cert.KernelIdeal.Gen Cert.Spec

/-- A matrix reshaped to [1, 1, rows, columns] reads, at (0, 0, s, d), the matrix at (s, d). -/
theorem cast_ab_11ab_apply {α : Type} {a b : ℕ} (X : (⟨2, ![a, b]⟩ : Shape).Idx → α)
    (h : (⟨2, ![a, b]⟩ : Shape).ShapeCasts ⟨4, ![1, 1, a, b]⟩) (s : Fin a) (d : Fin b) :
    shapeCast ⟨4, ![1, 1, a, b]⟩ X h (ix4 (0 : Fin 1) (0 : Fin 1) s d) = X (ix2 s d) := by
  refine shapeCast_apply X h _ (ix2 s d) ?_
  rw [Shape.rowMajor_val_two, Shape.rowMajor_val_four]
  show s.val * b + d.val = ((0 * 1 + 0) * a + s.val) * b + d.val
  simp

/-- A matrix of 64 columns laid twice side by side reads, at column d, the matrix at column d mod 64. -/
theorem repeat2_apply {α : Type} {n : ℕ} (v : (⟨2, ![n, 64]⟩ : Shape).Idx → α)
    (h : Shape.Concatenates [(⟨2, ![n, 64]⟩ : Shape), (⟨2, ![n, 64]⟩ : Shape)] ⟨2, ![n, 128]⟩ 1) (p : Fin n) (d : Fin 128) :
    concatenate ⟨2, ![n, 128]⟩ 1 [⟨⟨2, ![n, 64]⟩, v⟩, ⟨⟨2, ![n, 64]⟩, v⟩] h (ix2 p d) = v (ix2 p (half d)) := by
  have hd128 := d.isLt
  by_cases hd : d.val < 64
  · refine concatenate_pair_apply_left 1 v v h (ix2 p d) rfl (ix2 p (half d)) (fun b => ?_)
    match b with
    | ⟨0, _⟩ => rfl
    | ⟨1, _⟩ => exact Nat.mod_eq_of_lt hd
  · refine concatenate_pair_apply_right 1 v v h (ix2 p d) rfl rfl (ix2 p (half d)) (fun b hb => ?_) ?_
    · match b, hb with
      | ⟨0, _⟩, _ => rfl
      | ⟨1, _⟩, hb => exact absurd rfl hb
    · show d.val % 64 + 64 = d.val
      omega

/-- The rotation of a matrix of 128 features by a table of 64 columns: the first 64 features times the table, laid twice
    side by side, reads at (p, e) feature e mod 64 times the table's entry at e mod 64. -/
theorem rot_apply {n : ℕ} (X : FVec Ideal ⟨2, ![n, 128]⟩ .f32) (T : FVec Ideal ⟨2, ![n, 64]⟩ .f32)
    (hc : (⟨2, ![n, 128]⟩ : Shape).ShapeCasts ⟨2, ![n, 128]⟩)
    (hs : (⟨2, ![n, 128]⟩ : Shape).Slices ![0, 0] ⟨2, ![n, 64]⟩)
    (hcat : Shape.Concatenates [(⟨2, ![n, 64]⟩ : Shape), (⟨2, ![n, 64]⟩ : Shape)] ⟨2, ![n, 128]⟩ 1) (p : Fin n) (e : Fin 128) :
    concatenate ⟨2, ![n, 128]⟩ 1
        [⟨⟨2, ![n, 64]⟩, mulf (extractStridedSlice ⟨2, ![n, 64]⟩ ![0, 0] (shapeCast ⟨2, ![n, 128]⟩ X hc) hs) T⟩,
         ⟨⟨2, ![n, 64]⟩, mulf (extractStridedSlice ⟨2, ![n, 64]⟩ ![0, 0] (shapeCast ⟨2, ![n, 128]⟩ X hc) hs) T⟩] hcat (ix2 p e)
      = X (ix2 p (lo e)) * T (ix2 p (half e)) := by
  refine (repeat2_apply _ hcat p e).trans ?_
  show extractStridedSlice ⟨2, ![n, 64]⟩ ![0, 0] (shapeCast ⟨2, ![n, 128]⟩ X hc) hs (ix2 p (half e)) * T (ix2 p (half e)) = _
  rw [slice2_axis1_apply 0 _ hs p (half e) (lo e) (Nat.zero_add _).symm, shapeCast_self]

/-- The rotated keys at (t, e). -/
theorem pay3_apply (x1 : Vec Ideal S2048x128 .f32) (x4 : Vec Ideal S2048x64 .f32) (t : Fin 2048) (e : Fin 128) :
    k1_pay3 (F := Ideal) x1 x4 (ix2 t e) = x1 (ix2 t (lo e)) * x4 (ix2 t (half e)) := by
  unfold k1_pay3
  exact rot_apply x1 x4 _ _ _ t e

theorem pay1_apply (x2 : Vec Ideal S2048x128 .f32) (s : Fin 2048) (d : Fin 128) :
    k1_pay1 (F := Ideal) (k1_pay2 x2) (ix4 (0 : Fin 1) (0 : Fin 1) s d) = x2 (ix2 s d) := by
  unfold k1_pay1 k1_pay2
  refine (cast_ab_11ab_apply _ _ s d).trans ?_
  rw [shapeCast_self]

theorem pay5_apply (x1 : Vec Ideal S2048x128 .f32) (x4 : Vec Ideal S2048x64 .f32) (s : Fin 2048) (d : Fin 128) :
    k1_pay5 (F := Ideal) x1 x4 (ix4 (0 : Fin 1) (0 : Fin 1) s d) = x1 (ix2 s (lo d)) * x4 (ix2 s (half d)) := by
  unfold k1_pay5
  exact (cast_ab_11ab_apply _ _ s d).trans (pay3_apply x1 x4 s d)

/-- The body's scores product contracts the feature axis of both operands. -/
theorem rowsDot_scores : Cert.LibRowsDot.RowsDot dot_S512x128_S2048x128_S512x2048_1_1_0_0_n_n where
  hr := rfl
  hs := rfl
  hl0 := fun _ _ => rfl
  hl1 := fun _ _ => rfl
  hr0 := fun _ _ => rfl
  hr1 := fun _ _ => rfl

/-- The body's output product is a plain product of the weights with the value rows. -/
theorem plainDot_out : Cert.LibHostRead.PlainDot dot_S512x2048_S2048x128_S512x128_1_0_0_1_n_n where
  hr := rfl
  hs := rfl
  hl0 := fun _ _ => rfl
  hl1 := fun _ _ => rfl
  hr0 := fun _ _ => rfl
  hr1 := fun _ _ => rfl

/-- The scaled scores of the query tile against all keys, as the body computes them. -/
def scores (x0 : FVec Ideal S512x128 .f32) (x1 : FVec Ideal S2048x128 .f32) (x3 : FVec Ideal S512x64 .f32)
    (x4 : FVec Ideal S2048x64 .f32) : FVec Ideal S512x2048 .f32 :=
  mulf
    (matmul dot_S512x128_S2048x128_S512x2048_1_1_0_0_n_n (some .fp32)
      (concatenate S512x128 1
        [⟨S512x64, mulf (extractStridedSlice S512x64 ![0, 0] (shapeCast S512x128 x0 shapeCasts_S512x128_S512x128) slices_S512x128_o0_0_S512x64) x3⟩,
         ⟨S512x64, mulf (extractStridedSlice S512x64 ![0, 0] (shapeCast S512x128 x0 shapeCasts_S512x128_S512x128) slices_S512x128_o0_0_S512x64) x3⟩]
        concatenates_S512x64_S512x64_S512x128_d1)
      (k1_pay3 x1 x4) (constant S512x2048 .f32 0x00000000#32))
    (broadcast S512x2048 (Scalar.ofBits .f32 0x3DB504F3#32))

/-- The scaled score of query row p against key row t: the inner product of the two rotated rows times the scale. -/
theorem scores_apply (x0 : Vec Ideal S512x128 .f32) (x1 : Vec Ideal S2048x128 .f32) (x3 : Vec Ideal S512x64 .f32)
    (x4 : Vec Ideal S2048x64 .f32) (p : Fin 512) (t : Fin 2048) :
    scores x0 x1 x3 x4 (ix2 p t)
      = (∑ e : Fin 128, (x0 (ix2 p (lo e)) * x3 (ix2 p (half e))) * (x1 (ix2 t (lo e)) * x4 (ix2 t (half e)))) * scale := by
  unfold scores
  refine congrArg (· * scale) ?_
  refine (Ideal.matmul_constant_zero_apply _ (some .fp32) _ _ (ix2 p t)).trans ?_
  refine (rowsDot_scores.sum_eq _ _ p t).trans ?_
  refine Finset.sum_congr rfl fun e _ => ?_
  rw [rot_apply, pay3_apply]

/-- The body's stored attention tile is the output product of the row softmax of the scores with the value rows. -/
theorem pay4_eq (x0 : Vec Ideal S512x128 .f32) (x1 x2 : Vec Ideal S2048x128 .f32) (x3 : Vec Ideal S512x64 .f32)
    (x4 : Vec Ideal S2048x64 .f32) :
    k1_pay4 (F := Ideal) x0 x1 x2 x3 x4
      = matmul dot_S512x2048_S2048x128_S512x128_1_0_0_1_n_n none
          (truncf .bf16 (vecSoftmax2Joined (scores x0 x1 x3 x4) reduces_S512x2048_S512 shapeCasts_S512_S512x1
            broadcasts_S512x1_S512x2048 (.inl rfl) rfl rfl) bitsLt_bf16_f32)
          (truncf .bf16 (k1_pay2 x2) bitsLt_bf16_f32) (constant S512x128 .f32 0x00000000#32) := rfl

theorem pay4_apply (x0 : Vec Ideal S512x128 .f32) (x1 x2 : Vec Ideal S2048x128 .f32) (x3 : Vec Ideal S512x64 .f32)
    (x4 : Vec Ideal S2048x64 .f32) (p : Fin 512) (d : Fin 128) :
    k1_pay4 (F := Ideal) x0 x1 x2 x3 x4 (ix2 p d)
      = ∑ t : Fin 2048, softmaxAt (fun t' : Fin 2048 => (∑ e : Fin 128, (x0 (ix2 p (lo e)) * x3 (ix2 p (half e))) * (x1 (ix2 t' (lo e)) * x4 (ix2 t' (half e)))) * scale) t * x2 (ix2 t d) := by
  rw [pay4_eq]
  refine (Cert.LibPlainDot.vmatmul_apply _ plainDot_out _ _ p d).trans ?_
  refine Finset.sum_congr rfl fun t _ => ?_
  have h1 := vecSoftmax2Joined_apply (scores x0 x1 x3 x4) reduces_S512x2048_S512 shapeCasts_S512_S512x1
    broadcasts_S512x1_S512x2048 (.inl rfl) rfl rfl p t
  have h2 : shapeCast S2048x128 x2 shapeCasts_S2048x128_S2048x128 (ix2 t d) = x2 (ix2 t d) :=
    congrFun (shapeCast_self x2 _) _
  have h3 : (fun k : Fin 2048 => scores x0 x1 x3 x4 (ix2 p k))
      = fun t' : Fin 2048 => (∑ e : Fin 128, (x0 (ix2 p (lo e)) * x3 (ix2 p (half e))) * (x1 (ix2 t' (lo e)) * x4 (ix2 t' (half e)))) * scale :=
    funext fun t' => scores_apply x0 x1 x3 x4 p t'
  exact congrArg₂ (· * ·) (h1.trans (congrArg (fun f : Fin 2048 → EReal => softmaxAt f t) h3)) h2

end Cert.KernelIdeal.Pay1

end
-- ==== Proof.Value1.lean ====
/-
  What the attention pipeline leaves in its three output arrays.

  A grid point (g, i) of the 32 × 4 grid, g = batch·16 + head, reads out of the projection array the 512 query rows
  of tile i and the 2048 key rows and value rows of its batch at its head's columns, and out of the table the rows of
  tile i and all rows.  It writes tile i of the head's attention output at every point, and the head's rotated keys and
  values when i = 3.  Every entry of each output array lies in the block that one such point writes, so each array
  ends as one function of the projection array and the table, index by index.
-/
import proofs.«177219_j15144054686376_2_alg».proof.Proof.KernelIdealFrame.Defs1
import proofs.«177219_j15144054686376_2_alg».proof.Proof.Spec
import proofs.«177219_j15144054686376_2_alg».proof.Proof.Pay1
import Idealize.ShloMosaic.Lib.Pipeline.Value
import Idealize.ShloMosaic.Lib.ValueIdx

set_option maxRecDepth 16384

noncomputable section

open scoped BigOperators

namespace Cert.KernelIdeal.Value1

open Idealize.ShloMosaic Idealize.ShloMosaic.TcCoe Idealize.ShloMosaic.ValueIdx Idealize.ShloMosaic.LastAxisSoftmax
open Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-! ## Zero offsets, and the index maps in closed form -/

theorem hz2 : (![0, 0] : Fin 2 → Nat) = fun _ => 0 := funext fun a => by fin_cases a <;> rfl

theorem hz4 : (![0, 0, 0, 0] : Fin 4 → Nat) = fun _ => 0 := funext fun a => by fin_cases a <;> rfl

/-- The block indices of the five input windows at point `t = g·4 + i` (`g = batch·16 + head`): the query tile is block
    (batch·4 + i, head) of the projection array cut into 512 × 128 blocks, the keys block (batch, 16 + head) and the values
    block (batch, 32 + head) of its 2048 × 128 blocks; the table's tile is block (i, 0), the whole table block (0, 0). -/
theorem idx_in : ∀ t : Fin cfg1.N,
    win1_0.index t (0 : Fin 2) = t.val / 64 * 4 + t.val % 4 ∧ win1_0.index t (1 : Fin 2) = t.val / 4 % 16
    ∧ win1_1.index t (0 : Fin 2) = t.val / 64 ∧ win1_1.index t (1 : Fin 2) = 16 + t.val / 4 % 16
    ∧ win1_2.index t (0 : Fin 2) = t.val / 64 ∧ win1_2.index t (1 : Fin 2) = 32 + t.val / 4 % 16
    ∧ win1_3.index t (0 : Fin 2) = t.val % 4 ∧ win1_3.index t (1 : Fin 2) = 0
    ∧ win1_4.index t (0 : Fin 2) = 0 ∧ win1_4.index t (1 : Fin 2) = 0 :=
  (by decide +kernel : ∀ t : Fin grid1.N, _)

/-- The block indices of the three output windows: the attention tile is block (batch·4 + i, head) of the 512 × 128
    blocks of its array, the rotated keys and the values block (batch, head, 0, 0) of the 1 × 1 × 2048 × 128 blocks. -/
theorem idx_out : ∀ t : Fin cfg1.N,
    win1_5.index t (0 : Fin 2) = t.val / 64 * 4 + t.val % 4 ∧ win1_5.index t (1 : Fin 2) = t.val / 4 % 16
    ∧ win1_6.index t (0 : Fin 4) = t.val / 64 ∧ win1_6.index t (1 : Fin 4) = t.val / 4 % 16
    ∧ win1_6.index t (2 : Fin 4) = 0 ∧ win1_6.index t (3 : Fin 4) = 0
    ∧ win1_7.index t (0 : Fin 4) = t.val / 64 ∧ win1_7.index t (1 : Fin 4) = t.val / 4 % 16
    ∧ win1_7.index t (2 : Fin 4) = 0 ∧ win1_7.index t (3 : Fin 4) = 0 :=
  (by decide +kernel : ∀ t : Fin grid1.N, _)

/-! ## Each input block read at an index of the block, as an entry of its array

A block's coordinate on an axis is always the block index times the block's size plus the coordinate inside the block. -/

/-- The query tile: rows (batch·4 + i)·512 + p, columns head·128 + f of the projection array. -/
theorem iblk_q (c : Dev nD) (t : Fin cfg1.N) (p : Fin 512) (f : Fin 128) (k : S4096x6144.Idx)
    (hk0 : (k 0).val = (t.val / 64 * 4 + t.val % 4) * 512 + p.val) (hk1 : (k 1).val = t.val / 4 % 16 * 128 + f.val) :
    (iblk1 (F := Ideal) V c 0 t : Vec Ideal S512x128 .f32) (ix2 p f) = (V c main_v4 : S4096x6144.Idx → EReal) k := by
  obtain ⟨e0, e1, -⟩ := idx_in t
  unfold iblk1
  rw [View.read_apply]
  show V c main_v4 _ = V c main_v4 k
  refine congrArg _ ?_
  funext a
  apply Fin.ext
  match a with
  | ⟨0, _⟩ => show win1_0.index t (0 : Fin 2) * 512 + 1 * p.val = (k 0).val; rw [e0, hk0]; omega
  | ⟨1, _⟩ => show win1_0.index t (1 : Fin 2) * 128 + 1 * f.val = (k 1).val; rw [e1, hk1]; omega

/-- The key block: rows batch·2048 + s, columns (16 + head)·128 + f of the projection array. -/
theorem iblk_k (c : Dev nD) (t : Fin cfg1.N) (s : Fin 2048) (f : Fin 128) (k : S4096x6144.Idx)
    (hk0 : (k 0).val = t.val / 64 * 2048 + s.val) (hk1 : (k 1).val = (16 + t.val / 4 % 16) * 128 + f.val) :
    (iblk1 (F := Ideal) V c 1 t : Vec Ideal S2048x128 .f32) (ix2 s f) = (V c main_v4 : S4096x6144.Idx → EReal) k := by
  obtain ⟨-, -, e0, e1, -⟩ := idx_in t
  unfold iblk1
  rw [View.read_apply]
  show V c main_v4 _ = V c main_v4 k
  refine congrArg _ ?_
  funext a
  apply Fin.ext
  match a with
  | ⟨0, _⟩ => show win1_1.index t (0 : Fin 2) * 2048 + 1 * s.val = (k 0).val; rw [e0, hk0]; omega
  | ⟨1, _⟩ => show win1_1.index t (1 : Fin 2) * 128 + 1 * f.val = (k 1).val; rw [e1, hk1]; omega

/-- The value block: rows batch·2048 + s, columns (32 + head)·128 + f of the projection array. -/
theorem iblk_v (c : Dev nD) (t : Fin cfg1.N) (s : Fin 2048) (f : Fin 128) (k : S4096x6144.Idx)
    (hk0 : (k 0).val = t.val / 64 * 2048 + s.val) (hk1 : (k 1).val = (32 + t.val / 4 % 16) * 128 + f.val) :
    (iblk1 (F := Ideal) V c 2 t : Vec Ideal S2048x128 .f32) (ix2 s f) = (V c main_v4 : S4096x6144.Idx → EReal) k := by
  obtain ⟨-, -, -, -, e0, e1, -⟩ := idx_in t
  unfold iblk1
  rw [View.read_apply]
  show V c main_v4 _ = V c main_v4 k
  refine congrArg _ ?_
  funext a
  apply Fin.ext
  match a with
  | ⟨0, _⟩ => show win1_2.index t (0 : Fin 2) * 2048 + 1 * s.val = (k 0).val; rw [e0, hk0]; omega
  | ⟨1, _⟩ => show win1_2.index t (1 : Fin 2) * 128 + 1 * f.val = (k 1).val; rw [e1, hk1]; omega

/-- The table's tile: rows i·512 + p of the table. -/
theorem iblk_fq (c : Dev nD) (t : Fin cfg1.N) (p : Fin 512) (f : Fin 64) (k : S2048x64.Idx)
    (hk0 : (k 0).val = t.val % 4 * 512 + p.val) (hk1 : (k 1).val = f.val) :
    (iblk1 (F := Ideal) V c 3 t : Vec Ideal S512x64 .f32) (ix2 p f) = (V c main_arg3 : S2048x64.Idx → EReal) k := by
  obtain ⟨-, -, -, -, -, -, e0, e1, -⟩ := idx_in t
  unfold iblk1
  rw [View.read_apply]
  show V c main_arg3 _ = V c main_arg3 k
  refine congrArg _ ?_
  funext a
  apply Fin.ext
  match a with
  | ⟨0, _⟩ => show win1_3.index t (0 : Fin 2) * 512 + 1 * p.val = (k 0).val; rw [e0, hk0]; omega
  | ⟨1, _⟩ => show win1_3.index t (1 : Fin 2) * 64 + 1 * f.val = (k 1).val; rw [e1, hk1]; omega

/-- The whole table. -/
theorem iblk_fk (c : Dev nD) (t : Fin cfg1.N) (s : Fin 2048) (f : Fin 64) :
    (iblk1 (F := Ideal) V c 4 t : Vec Ideal S2048x64 .f32) (ix2 s f) = (V c main_arg3 : S2048x64.Idx → EReal) (ix2 s f) := by
  obtain ⟨-, -, -, -, -, -, -, -, e0, e1⟩ := idx_in t
  unfold iblk1
  rw [View.read_apply]
  show V c main_arg3 _ = V c main_arg3 (ix2 s f)
  refine congrArg _ ?_
  funext a
  apply Fin.ext
  match a with
  | ⟨0, _⟩ => show win1_4.index t (0 : Fin 2) * 2048 + 1 * s.val = s.val; rw [e0]; omega
  | ⟨1, _⟩ => show win1_4.index t (1 : Fin 2) * 64 + 1 * f.val = f.val; rw [e1]; omega

/-! ## Coordinates -/

/-- A grid point's number is below 128. -/
theorem t_lt (t : Fin cfg1.N) : t.val < 128 :=
  Nat.lt_of_lt_of_eq t.isLt (show cfg1.N = 128 from N_1)

/-- An index of a 1 × 1 × 2048 × 128 block is a position and a feature. -/
theorem exists_ix4 (j : S1x1x2048x128.Idx) : ∃ (s : Fin 2048) (d : Fin 128), j = ix4 (0 : Fin 1) (0 : Fin 1) s d :=
  ⟨⟨(j 2).val, (j 2).isLt⟩, ⟨(j 3).val, (j 3).isLt⟩, funext fun a => by
    match a with
    | ⟨0, _⟩ => exact Fin.ext (by have h : (j 0).val < 1 := (j 0).isLt; show (j 0).val = 0; omega)
    | ⟨1, _⟩ => exact Fin.ext (by have h : (j 1).val < 1 := (j 1).isLt; show (j 1).val = 0; omega)
    | ⟨2, _⟩ => rfl
    | ⟨3, _⟩ => rfl⟩

/-- An index of a 512 × 128 block is a row and a feature. -/
theorem exists_ix2 (j : S512x128.Idx) : ∃ (p : Fin 512) (d : Fin 128), j = ix2 p d := ⟨j 0, j 1, eq_ix2 j⟩

/-! ## The three staged outputs at an index: one store of the whole block each -/

theorem out7_apply (x2 : Vec Ideal S2048x128 .f32) (s : Fin 2048) (d : Fin 128) :
    out1_7 (F := Ideal) x2 (ix4 (0 : Fin 1) (0 : Fin 1) s d) = x2 (ix2 s d) := by
  unfold out1_7
  rw [View.canon_unit_zero hz4]
  simp only [View.ld_unit_zero (S := S2048x128) hz2]
  exact Pay1.pay1_apply x2 s d

theorem out6_apply (x1 : Vec Ideal S2048x128 .f32) (x4 : Vec Ideal S2048x64 .f32) (s : Fin 2048) (d : Fin 128) :
    out1_6 (F := Ideal) x1 x4 (ix4 (0 : Fin 1) (0 : Fin 1) s d)
      = x1 (ix2 s (Cert.Spec.lo d)) * x4 (ix2 s (Cert.Spec.half d)) := by
  unfold out1_6
  rw [View.canon_unit_zero hz4]
  simp only [View.ld_unit_zero (S := S2048x128) hz2, View.ld_unit_zero (S := S2048x64) hz2]
  exact Pay1.pay5_apply x1 x4 s d

theorem out5_apply (x0 : Vec Ideal S512x128 .f32) (x1 x2 : Vec Ideal S2048x128 .f32) (x3 : Vec Ideal S512x64 .f32)
    (x4 : Vec Ideal S2048x64 .f32) (p : Fin 512) (d : Fin 128) :
    out1_5 (F := Ideal) x0 x1 x2 x3 x4 (ix2 p d)
      = ∑ u : Fin 2048, softmaxAt (fun u' : Fin 2048 =>
            (∑ e : Fin 128, (x0 (ix2 p (Cert.Spec.lo e)) * x3 (ix2 p (Cert.Spec.half e)))
              * (x1 (ix2 u' (Cert.Spec.lo e)) * x4 (ix2 u' (Cert.Spec.half e)))) * Cert.Spec.scale) u * x2 (ix2 u d) := by
  unfold out1_5
  rw [View.canon_unit_zero hz2]
  simp only [View.ld_unit_zero (S := S512x128) hz2, View.ld_unit_zero (S := S2048x128) hz2,
    View.ld_unit_zero (S := S512x64) hz2, View.ld_unit_zero (S := S2048x64) hz2]
  exact Pay1.pay4_apply x0 x1 x2 x3 x4 p d

/-! ## The attention output: window 5 -/

/-- The specification's attention output depends on its four coordinates only through their values. -/
theorem att_congr (Q : S4096x6144.Idx → EReal) (fr : S2048x64.Idx → EReal) {n n' : Fin 2} {h h' : Fin 16}
    {s s' : Fin 2048} {d d' : Fin 128} (e1 : n = n') (e2 : h = h') (e3 : s = s') (e4 : d = d') :
    Cert.Spec.att Q fr n h s d = Cert.Spec.att Q fr n' h' s' d' := by
  subst e1 e2 e3 e4; rfl

/-- The first result at token row n·2048 + s and column h·128 + d is the attention output of (n, h, s, d). -/
theorem Gy_eq_att (Q : S4096x6144.Idx → EReal) (fr : S2048x64.Idx → EReal) (i : S4096x2048.Idx) (n : Fin 2)
    (h : Fin 16) (s : Fin 2048) (d : Fin 128) (hr : (i 0).val = n.val * 2048 + s.val)
    (hf : (i 1).val = h.val * 128 + d.val) : Cert.Spec.Gy Q fr i = Cert.Spec.att Q fr n h s d :=
  att_congr Q fr (Fin.ext (by show (i 0).val / 2048 = n.val; omega)) (Fin.ext (by show (i 1).val / 128 = h.val; omega))
    (Fin.ext (by show (i 0).val % 2048 = s.val; omega)) (Fin.ext (by show (i 1).val % 128 = d.val; omega))

/-- The staged attention tile at (p, d) is the attention output of (n, h, s, d) when the five blocks hold the query row of
    (n, h, s) at row p, the key and value rows of (n, h), the table's row s at row p and the whole table. -/
theorem att_of_blocks (Q : S4096x6144.Idx → EReal) (fr : S2048x64.Idx → EReal) (x0 : Vec Ideal S512x128 .f32)
    (x1 x2 : Vec Ideal S2048x128 .f32) (x3 : Vec Ideal S512x64 .f32) (x4 : Vec Ideal S2048x64 .f32) (n : Fin 2)
    (h : Fin 16) (s : Fin 2048) (p : Fin 512) (d : Fin 128)
    (h0 : ∀ e : Fin 128, x0 (ix2 p (Cert.Spec.lo e)) = Q (ix2 (Cert.Spec.row n s) (Cert.Spec.qf h (Cert.Spec.half e))))
    (h3 : ∀ e : Fin 128, x3 (ix2 p (Cert.Spec.half e)) = fr (ix2 s (Cert.Spec.half e)))
    (h1 : ∀ (u : Fin 2048) (e : Fin 128),
      x1 (ix2 u (Cert.Spec.lo e)) = Q (ix2 (Cert.Spec.row n u) (Cert.Spec.kf h (Cert.Spec.half e))))
    (h4 : ∀ (u : Fin 2048) (e : Fin 128), x4 (ix2 u (Cert.Spec.half e)) = fr (ix2 u (Cert.Spec.half e)))
    (h2 : ∀ u : Fin 2048, x2 (ix2 u d) = Q (ix2 (Cert.Spec.row n u) (Cert.Spec.vf h d))) :
    out1_5 (F := Ideal) x0 x1 x2 x3 x4 (ix2 p d) = Cert.Spec.att Q fr n h s d := by
  rw [out5_apply]
  unfold Cert.Spec.att Cert.Spec.score Cert.Spec.qr Cert.Spec.kr Cert.Spec.vv
  simp only [h0, h3, h1, h4, h2]

/-- The array index of entry (p, d) of point `t`'s block of the attention output's array. -/
abbrev at5 (t : Fin cfg1.N) (p : Fin 512) (d : Fin 128) : S4096x2048.Idx :=
  ((cfg1.win 5).blk t).view.emb (ix2 p d)

/-- It is (row (batch·4 + i)·512 + p, column head·128 + d). -/
theorem at5_val (t : Fin cfg1.N) (p : Fin 512) (d : Fin 128) :
    (at5 t p d 0).val = (t.val / 64 * 4 + t.val % 4) * 512 + p.val ∧ (at5 t p d 1).val = t.val / 4 % 16 * 128 + d.val := by
  obtain ⟨e0, e1, -⟩ := idx_out t
  refine ⟨?_, ?_⟩
  · show win1_5.index t (0 : Fin 2) * 512 + 1 * p.val = (t.val / 64 * 4 + t.val % 4) * 512 + p.val; rw [e0]; omega
  · show win1_5.index t (1 : Fin 2) * 128 + 1 * d.val = t.val / 4 % 16 * 128 + d.val; rw [e1]; omega

/-- What point `t` writes back to the attention output's array is its block of the specification's attention output. -/
theorem flushed5_eq (c : Dev nD) (t : Fin cfg1.N) :
    (dat1 (F := Ideal) V c).flushed 5 t
      = ((cfg1.win 5).blk t).view.read (Elt Ideal) (Cert.Spec.Gy (V c main_v4) (V c main_arg3)) := by
  show (cfg1.win 5).cut (grid1.coords t) ((dat1 (F := Ideal) V c).after 5 t) = _
  rw [after1_5]
  funext j
  obtain ⟨p, d, rfl⟩ := exists_ix2 j
  obtain ⟨a0, a1⟩ := at5_val t p d
  have ht := t_lt t
  have hn : t.val / 64 < 2 := by omega
  have hh : t.val / 4 % 16 < 16 := by omega
  have hs : t.val % 4 * 512 + p.val < 2048 := by omega
  show out1_5 (F := Ideal) (iblk1 V c 0 t) (iblk1 V c 1 t) (iblk1 V c 2 t) (iblk1 V c 3 t) (iblk1 V c 4 t) (ix2 p d)
    = Cert.Spec.Gy (V c main_v4) (V c main_arg3) (at5 t p d)
  refine Eq.trans ?_ (Gy_eq_att (V c main_v4) (V c main_arg3) (at5 t p d) ⟨t.val / 64, hn⟩ ⟨t.val / 4 % 16, hh⟩
    ⟨t.val % 4 * 512 + p.val, hs⟩ d ?_ ?_).symm
  · refine att_of_blocks (V c main_v4) (V c main_arg3) (iblk1 V c 0 t) (iblk1 V c 1 t) (iblk1 V c 2 t) (iblk1 V c 3 t)
      (iblk1 V c 4 t) ⟨t.val / 64, hn⟩ ⟨t.val / 4 % 16, hh⟩ ⟨t.val % 4 * 512 + p.val, hs⟩ p d (fun e => ?_) (fun e => ?_)
      (fun u e => ?_) (fun u e => ?_) (fun u => ?_)
    · refine iblk_q V c t p (Cert.Spec.lo e) _ ?_ ?_
      · show t.val / 64 * 2048 + (t.val % 4 * 512 + p.val) = (t.val / 64 * 4 + t.val % 4) * 512 + p.val; omega
      · show t.val / 4 % 16 * 128 + e.val % 64 = t.val / 4 % 16 * 128 + e.val % 64; rfl
    · refine iblk_fq V c t p (Cert.Spec.half e) _ ?_ ?_
      · show t.val % 4 * 512 + p.val = t.val % 4 * 512 + p.val; rfl
      · show e.val % 64 = e.val % 64; rfl
    · refine iblk_k V c t u (Cert.Spec.lo e) _ ?_ ?_
      · show t.val / 64 * 2048 + u.val = t.val / 64 * 2048 + u.val; rfl
      · show 2048 + t.val / 4 % 16 * 128 + e.val % 64 = (16 + t.val / 4 % 16) * 128 + e.val % 64; omega
    · exact iblk_fk V c t u (Cert.Spec.half e)
    · refine iblk_v V c t u d _ ?_ ?_
      · show t.val / 64 * 2048 + u.val = t.val / 64 * 2048 + u.val; rfl
      · show 4096 + t.val / 4 % 16 * 128 + d.val = (32 + t.val / 4 % 16) * 128 + d.val; omega
  · show (at5 t p d 0).val = t.val / 64 * 2048 + (t.val % 4 * 512 + p.val); rw [a0]; omega
  · show (at5 t p d 1).val = t.val / 4 % 16 * 128 + d.val; rw [a1]

/-- An index of the attention output's array is in point `t`'s block iff each coordinate is in the block's range. -/
theorem mem_blk5 (t : Fin cfg1.N) (i : S4096x2048.Idx) :
    i ∈ ((cfg1.win 5).blk t).view.set ↔ ∀ a : Fin 2, win1_5.index t a * S512x128.size a ≤ (i a).val
      ∧ (i a).val < win1_5.index t a * S512x128.size a + S512x128.size a := by
  show i ∈ ((View.whole main_v5_0).slice (win1_5.rect t)).set ↔ _
  rw [View.set_slice_whole, Rect.mem_set_unit]
  exact Iff.rfl

/-- Entry (r, f) is in the block of the point (⌊r / 2048⌋·16 + ⌊f / 128⌋, ⌊(r mod 2048) / 512⌋). -/
theorem cover5 (i : S4096x2048.Idx) :
    ∃ t : Fin cfg1.N, (cfg1.win 5).flush t = true ∧ i ∈ ((cfg1.win 5).blk t).view.set := by
  have h0 : (i 0).val < 4096 := (i 0).isLt
  have h1 : (i 1).val < 2048 := (i 1).isLt
  obtain ⟨t, htv⟩ : ∃ t : Fin cfg1.N,
      t.val = ((i 0).val / 2048 * 16 + (i 1).val / 128) * 4 + (i 0).val % 2048 / 512 :=
    ⟨⟨((i 0).val / 2048 * 16 + (i 1).val / 128) * 4 + (i 0).val % 2048 / 512,
      by rw [show cfg1.N = 128 from N_1]; omega⟩, rfl⟩
  obtain ⟨e0, e1, -⟩ := idx_out t
  refine ⟨t, flush1_5 t, ?_⟩
  rw [mem_blk5]
  intro a
  match a with
  | ⟨0, _⟩ =>
    show win1_5.index t (0 : Fin 2) * 512 ≤ (i 0).val ∧ (i 0).val < win1_5.index t (0 : Fin 2) * 512 + 512
    rw [e0]; omega
  | ⟨1, _⟩ =>
    show win1_5.index t (1 : Fin 2) * 128 ≤ (i 1).val ∧ (i 1).val < win1_5.index t (1 : Fin 2) * 128 + 128
    rw [e1]; omega

/-! ## The rotated keys: window 6 -/

/-- The array index of entry (0, 0, s, d) of point `t`'s block of the rotated keys' array. -/
abbrev at6 (t : Fin cfg1.N) (s : Fin 2048) (d : Fin 128) : S2x16x2048x128.Idx :=
  ((cfg1.win 6).blk t).view.emb (ix4 (0 : Fin 1) (0 : Fin 1) s d)

/-- It is (batch, head, s, d). -/
theorem at6_val (t : Fin cfg1.N) (s : Fin 2048) (d : Fin 128) :
    (at6 t s d 0).val = t.val / 64 ∧ (at6 t s d 1).val = t.val / 4 % 16 ∧ (at6 t s d 2).val = s.val
      ∧ (at6 t s d 3).val = d.val := by
  obtain ⟨-, -, e0, e1, e2, e3, -⟩ := idx_out t
  refine ⟨?_, ?_, ?_, ?_⟩
  · show win1_6.index t (0 : Fin 4) * 1 + 1 * 0 = t.val / 64; rw [e0]; omega
  · show win1_6.index t (1 : Fin 4) * 1 + 1 * 0 = t.val / 4 % 16; rw [e1]; omega
  · show win1_6.index t (2 : Fin 4) * 2048 + 1 * s.val = s.val; rw [e2]; omega
  · show win1_6.index t (3 : Fin 4) * 128 + 1 * d.val = d.val; rw [e3]; omega

/-- What point `t` writes back to the rotated keys' array is its block of the specification's rotated keys. -/
theorem flushed6_eq (c : Dev nD) (t : Fin cfg1.N) :
    (dat1 (F := Ideal) V c).flushed 6 t
      = ((cfg1.win 6).blk t).view.read (Elt Ideal) (Cert.Spec.Gk (V c main_v4) (V c main_arg3)) := by
  show (cfg1.win 6).cut (grid1.coords t) ((dat1 (F := Ideal) V c).after 6 t) = _
  rw [after1_6]
  funext j
  obtain ⟨s, d, rfl⟩ := exists_ix4 j
  obtain ⟨a0, a1, a2, a3⟩ := at6_val t s d
  have ht := t_lt t
  show out1_6 (F := Ideal) (iblk1 V c 1 t) (iblk1 V c 4 t) (ix4 (0 : Fin 1) (0 : Fin 1) s d)
    = Cert.Spec.kr (V c main_v4) (V c main_arg3) (at6 t s d 0) (at6 t s d 1) (at6 t s d 2) (at6 t s d 3)
  refine (out6_apply (iblk1 V c 1 t) (iblk1 V c 4 t) s d).trans ?_
  unfold Cert.Spec.kr
  refine congrArg₂ (· * ·) (iblk_k V c t s (Cert.Spec.lo d) _ ?_ ?_)
    ((iblk_fk V c t s (Cert.Spec.half d)).trans (congrArg (V c main_arg3 : S2048x64.Idx → EReal) ?_))
  · show (at6 t s d 0).val * 2048 + (at6 t s d 2).val = t.val / 64 * 2048 + s.val
    rw [a0, a2]
  · show 2048 + (at6 t s d 1).val * 128 + (at6 t s d 3).val % 64 = (16 + t.val / 4 % 16) * 128 + d.val % 64
    rw [a1, a3]; omega
  · funext a
    apply Fin.ext
    match a with
    | ⟨0, _⟩ => show s.val = (at6 t s d 2).val; rw [a2]
    | ⟨1, _⟩ => show d.val % 64 = (at6 t s d 3).val % 64; rw [a3]

/-- An index of the rotated keys' array is in point `t`'s block iff each coordinate is in the block's range on its axis. -/
theorem mem_blk6 (t : Fin cfg1.N) (i : S2x16x2048x128.Idx) :
    i ∈ ((cfg1.win 6).blk t).view.set ↔ ∀ a : Fin 4, win1_6.index t a * S1x1x2048x128.size a ≤ (i a).val
      ∧ (i a).val < win1_6.index t a * S1x1x2048x128.size a + S1x1x2048x128.size a := by
  show i ∈ ((View.whole main_v5_1).slice (win1_6.rect t)).set ↔ _
  rw [View.set_slice_whole, Rect.mem_set_unit]
  exact Iff.rfl

/-- Entry (batch n, head h, ·, ·) is in the block written back at the point (n·16 + h, 3). -/
theorem cover6 (i : S2x16x2048x128.Idx) :
    ∃ t : Fin cfg1.N, (cfg1.win 6).flush t = true ∧ i ∈ ((cfg1.win 6).blk t).view.set := by
  have h0 : (i 0).val < 2 := (i 0).isLt
  have h1 : (i 1).val < 16 := (i 1).isLt
  have h2 : (i 2).val < 2048 := (i 2).isLt
  have h3 : (i 3).val < 128 := (i 3).isLt
  obtain ⟨t, htv⟩ : ∃ t : Fin cfg1.N, t.val = ((i 0).val * 16 + (i 1).val) * 4 + 3 :=
    ⟨⟨((i 0).val * 16 + (i 1).val) * 4 + 3, by rw [show cfg1.N = 128 from N_1]; omega⟩, rfl⟩
  obtain ⟨-, -, e0, e1, e2, e3, -⟩ := idx_out t
  refine ⟨t, (flush1_6 t).mpr (by omega), ?_⟩
  rw [mem_blk6]
  intro a
  match a with
  | ⟨0, _⟩ =>
    show win1_6.index t (0 : Fin 4) * 1 ≤ (i 0).val ∧ (i 0).val < win1_6.index t (0 : Fin 4) * 1 + 1
    rw [e0]; omega
  | ⟨1, _⟩ =>
    show win1_6.index t (1 : Fin 4) * 1 ≤ (i 1).val ∧ (i 1).val < win1_6.index t (1 : Fin 4) * 1 + 1
    rw [e1]; omega
  | ⟨2, _⟩ =>
    show win1_6.index t (2 : Fin 4) * 2048 ≤ (i 2).val ∧ (i 2).val < win1_6.index t (2 : Fin 4) * 2048 + 2048
    rw [e2]; omega
  | ⟨3, _⟩ =>
    show win1_6.index t (3 : Fin 4) * 128 ≤ (i 3).val ∧ (i 3).val < win1_6.index t (3 : Fin 4) * 128 + 128
    rw [e3]; omega

/-! ## The values: window 7 -/

/-- What point `t` writes back to the values' array is its block of the specification's values. -/
theorem flushed7_eq (c : Dev nD) (t : Fin cfg1.N) :
    (dat1 (F := Ideal) V c).flushed 7 t = ((cfg1.win 7).blk t).view.read (Elt Ideal) (Cert.Spec.Gv (V c main_v4)) := by
  show (cfg1.win 7).cut (grid1.coords t) ((dat1 (F := Ideal) V c).after 7 t) = _
  rw [after1_7]
  funext j
  obtain ⟨s, d, rfl⟩ := exists_ix4 j
  obtain ⟨-, -, -, -, -, -, e0, e1, e2, e3⟩ := idx_out t
  have ht := t_lt t
  show out1_7 (F := Ideal) (iblk1 V c 2 t) (ix4 (0 : Fin 1) (0 : Fin 1) s d)
    = (V c main_v4 : S4096x6144.Idx → EReal)
        (ix2 (Cert.Spec.row ((((cfg1.win 7).blk t).view.emb (ix4 (0 : Fin 1) (0 : Fin 1) s d)) 0)
                ((((cfg1.win 7).blk t).view.emb (ix4 (0 : Fin 1) (0 : Fin 1) s d)) 2))
             (Cert.Spec.vf ((((cfg1.win 7).blk t).view.emb (ix4 (0 : Fin 1) (0 : Fin 1) s d)) 1)
                ((((cfg1.win 7).blk t).view.emb (ix4 (0 : Fin 1) (0 : Fin 1) s d)) 3)))
  refine (out7_apply (iblk1 V c 2 t) s d).trans ?_
  refine iblk_v V c t s d _ ?_ ?_
  · show (win1_7.index t (0 : Fin 4) * 1 + 1 * 0) * 2048 + (win1_7.index t (2 : Fin 4) * 2048 + 1 * s.val)
      = t.val / 64 * 2048 + s.val
    rw [e0, e2]; omega
  · show 4096 + (win1_7.index t (1 : Fin 4) * 1 + 1 * 0) * 128 + (win1_7.index t (3 : Fin 4) * 128 + 1 * d.val)
      = (32 + t.val / 4 % 16) * 128 + d.val
    rw [e1, e3]; omega

/-- An index of the values' array is in point `t`'s block iff each coordinate is in the block's range on its axis. -/
theorem mem_blk7 (t : Fin cfg1.N) (i : S2x16x2048x128.Idx) :
    i ∈ ((cfg1.win 7).blk t).view.set ↔ ∀ a : Fin 4, win1_7.index t a * S1x1x2048x128.size a ≤ (i a).val
      ∧ (i a).val < win1_7.index t a * S1x1x2048x128.size a + S1x1x2048x128.size a := by
  show i ∈ ((View.whole main_v5_2).slice (win1_7.rect t)).set ↔ _
  rw [View.set_slice_whole, Rect.mem_set_unit]
  exact Iff.rfl

/-- Entry (batch n, head h, ·, ·) is in the block written back at the point (n·16 + h, 3). -/
theorem cover7 (i : S2x16x2048x128.Idx) :
    ∃ t : Fin cfg1.N, (cfg1.win 7).flush t = true ∧ i ∈ ((cfg1.win 7).blk t).view.set := by
  have h0 : (i 0).val < 2 := (i 0).isLt
  have h1 : (i 1).val < 16 := (i 1).isLt
  have h2 : (i 2).val < 2048 := (i 2).isLt
  have h3 : (i 3).val < 128 := (i 3).isLt
  obtain ⟨t, htv⟩ : ∃ t : Fin cfg1.N, t.val = ((i 0).val * 16 + (i 1).val) * 4 + 3 :=
    ⟨⟨((i 0).val * 16 + (i 1).val) * 4 + 3, by rw [show cfg1.N = 128 from N_1]; omega⟩, rfl⟩
  obtain ⟨-, -, -, -, -, -, e0, e1, e2, e3⟩ := idx_out t
  refine ⟨t, (flush1_7 t).mpr (by omega), ?_⟩
  rw [mem_blk7]
  intro a
  match a with
  | ⟨0, _⟩ =>
    show win1_7.index t (0 : Fin 4) * 1 ≤ (i 0).val ∧ (i 0).val < win1_7.index t (0 : Fin 4) * 1 + 1
    rw [e0]; omega
  | ⟨1, _⟩ =>
    show win1_7.index t (1 : Fin 4) * 1 ≤ (i 1).val ∧ (i 1).val < win1_7.index t (1 : Fin 4) * 1 + 1
    rw [e1]; omega
  | ⟨2, _⟩ =>
    show win1_7.index t (2 : Fin 4) * 2048 ≤ (i 2).val ∧ (i 2).val < win1_7.index t (2 : Fin 4) * 2048 + 2048
    rw [e2]; omega
  | ⟨3, _⟩ =>
    show win1_7.index t (3 : Fin 4) * 128 ≤ (i 3).val ∧ (i 3).val < win1_7.index t (3 : Fin 4) * 128 + 128
    rw [e3]; omega

/-! ## The three arrays after the pipeline -/

/-- The attention output's array after the pipeline. -/
theorem final1_y (c : Dev nD) :
    (dat1 (F := Ideal) V c).arrAt 5 cfg1.N = Cert.Spec.Gy (V c main_v4) (V c main_arg3) :=
  (dat1 (F := Ideal) V c).arrAt_eq_of_cover 5 (Cert.Spec.Gy (V c main_v4) (V c main_arg3))
    (fun t _ => flushed5_eq V c t) cover5

/-- The rotated keys' array after the pipeline. -/
theorem final1_k (c : Dev nD) :
    (dat1 (F := Ideal) V c).arrAt 6 cfg1.N = Cert.Spec.Gk (V c main_v4) (V c main_arg3) :=
  (dat1 (F := Ideal) V c).arrAt_eq_of_cover 6 (Cert.Spec.Gk (V c main_v4) (V c main_arg3))
    (fun t _ => flushed6_eq V c t) cover6

/-- The values' array after the pipeline. -/
theorem final1_v (c : Dev nD) : (dat1 (F := Ideal) V c).arrAt 7 cfg1.N = Cert.Spec.Gv (V c main_v4) :=
  (dat1 (F := Ideal) V c).arrAt_eq_of_cover 7 (Cert.Spec.Gv (V c main_v4)) (fun t _ => flushed7_eq V c t) cover7

end Cert.KernelIdeal.Value1

end
-- ==== Proof.HostLink.lean ====
/-
  The host operations before the first kernel region, read on the extended reals: the activations [2, 2048, 2048] are
  flattened to 4096 token rows (row `r` is batch `r / 2048`, position `r mod 2048`), the two changes of float format
  are the identity, and the bias vector gains a leading unit axis.  So the projection of the flattened rows by the
  prepared operands is the projection of the unflattened activations by the arguments.
-/
import proofs.«177219_j15144054686376_2_alg».proof.Proof.Gen.KernelIdeal.Launch
import proofs.«177219_j15144054686376_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostLink

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-- The activations flattened to token rows: row `r` of the flat array is batch `r / 2048`, position `r mod 2048`. -/
theorem flat_apply {α : Type} (x : (⟨3, ![2, 2048, 2048]⟩ : Shape).Idx → α)
    (h : (⟨3, ![2, 2048, 2048]⟩ : Shape).ShapeCasts ⟨2, ![4096, 2048]⟩) (r : Fin 4096) (e : Fin 2048) :
    shapeCast ⟨2, ![4096, 2048]⟩ x h (ix2 r e)
      = x (ix3 (⟨r.val / 2048, by omega⟩ : Fin 2) (⟨r.val % 2048, Nat.mod_lt _ (by norm_num)⟩ : Fin 2048) e) :=
  shapeCast_apply x h _ _ (by
    rw [Shape.rowMajor_val_three, Shape.rowMajor_val_two]
    show (r.val / 2048 * 2048 + r.val % 2048) * 2048 + e.val = r.val * 2048 + e.val
    rw [Nat.div_add_mod' r.val 2048])

theorem host_link : Cert.Spec.projArr
      (StableHlo.after (hostOps0 (F := Ideal)) (fun b => m ((c : Dev nD), b)) (Proc.devRef .tc main_v1))
      (StableHlo.after (hostOps0 (F := Ideal)) (fun b => m ((c : Dev nD), b)) (Proc.devRef .tc main_v2))
      (StableHlo.after (hostOps0 (F := Ideal)) (fun b => m ((c : Dev nD), b)) (Proc.devRef .tc main_v3))
    = Cert.Spec.projRef (m ((c : Thread nD τ).loc main_arg0)) (m ((c : Thread nD τ).loc main_arg1)) (m ((c : Thread nD τ).loc main_arg2)) := by
  funext i
  unfold Cert.Spec.projArr Cert.Spec.projRef
  dsimp only [hostOps0]
  after_results
  congr 1
  · refine Finset.sum_congr rfl fun e _ => ?_
    congr 1
    exact flat_apply _ _ (i 0) e
  · exact shapeCast_a_1a_apply _ _ 0 (i 1)

end Cert.KernelIdeal.HostLink

end
-- ==== Proof.KernelValue.lean ====
/-
  The idealized kernel's three results as the specification of the arguments, on the extended reals.

  The attention pipeline leaves in its three output arrays the attention output, the rotated keys and the values of the
  projection array and the table it found on entry.  The projection array it found is what the projection pipeline left:
  the projection of the flattened activations by the prepared weights and bias row, which is the projection of the
  unflattened activations by the argument weights and bias.  The table it found is the argument table, which nothing
  before it writes.
-/
import proofs.«177219_j15144054686376_2_alg».proof.Proof.KernelIdealFrame.Fold
import proofs.«177219_j15144054686376_2_alg».proof.Proof.Value0
import proofs.«177219_j15144054686376_2_alg».proof.Proof.Value1
import proofs.«177219_j15144054686376_2_alg».proof.Proof.HostLink
import proofs.«177219_j15144054686376_2_alg».proof.Proof.Spec

set_option maxRecDepth 16384

noncomputable section

namespace Cert.KernelIdeal.KernelValue

open Idealize.ShloMosaic Idealize.ShloMosaic.TcCoe
open Idealize.SL.Sem
open Cert.KernelIdeal Cert.KernelIdeal.Gen Cert.KernelIdeal.Hand

variable (m : (ℓ : Loc nD τ sig) → Buf (Elt Ideal) ℓ) (c : Dev nD)

/-- The projection array the attention pipeline finds: the projection pipeline's output, which is the projection of the
    unflattened activations by the argument weights and bias. -/
theorem proj_entry : U2 (F := Ideal) m c main_v4
    = Cert.Spec.projRef (m ((c : Thread nD τ).loc main_arg0)) (m ((c : Thread nD τ).loc main_arg1)) (m ((c : Thread nD τ).loc main_arg2)) :=
  (W2_arr (F := Ideal) m c 3).trans ((Value0.final0 (U1 (F := Ideal) m) c).trans (HostLink.host_link m c))

/-- The table the attention pipeline finds is the argument table: neither the host stretch nor the projection pipeline
    writes it. -/
theorem table_entry : U2 (F := Ideal) m c main_arg3 = m ((c : Thread nD τ).loc main_arg3) :=
  (W2_of_ne (F := Ideal) m c main_arg3 (by decide)).trans ((W1_of (F := Ideal) m c main_arg3 (by decide)).trans rfl)

/-- The first result: the attention output of the projection of the arguments and the argument table. -/
theorem out_y : W3 (F := Ideal) m c main_v5_0 = Cert.Spec.Gy (Cert.Spec.projRef (m ((c : Thread nD τ).loc main_arg0)) (m ((c : Thread nD τ).loc main_arg1)) (m ((c : Thread nD τ).loc main_arg2))) (m ((c : Thread nD τ).loc main_arg3)) := by
  rw [W3_y, Value1.final1_y (U2 (F := Ideal) m) c, proj_entry, table_entry]

/-- The second result: the rotated keys of the projection of the arguments and the argument table. -/
theorem out_k : W3 (F := Ideal) m c main_v5_1 = Cert.Spec.Gk (Cert.Spec.projRef (m ((c : Thread nD τ).loc main_arg0)) (m ((c : Thread nD τ).loc main_arg1)) (m ((c : Thread nD τ).loc main_arg2))) (m ((c : Thread nD τ).loc main_arg3)) := by
  rw [W3_k, Value1.final1_k (U2 (F := Ideal) m) c, proj_entry, table_entry]

/-- The third result: the values of the projection of the arguments. -/
theorem out_v : W3 (F := Ideal) m c main_v5_2 = Cert.Spec.Gv (Cert.Spec.projRef (m ((c : Thread nD τ).loc main_arg0)) (m ((c : Thread nD τ).loc main_arg1)) (m ((c : Thread nD τ).loc main_arg2))) := by
  rw [W3_v, Value1.final1_v (U2 (F := Ideal) m) c, proj_entry]

end Cert.KernelIdeal.KernelValue

end
-- ==== Proof.RefValue.lean ====
/-
  The reference program's three results are the specification's three arrays: the attention output, the rotated keys and
  the values, each read index by index.

  The projection: entry (n, s, f) of the batched product plus the broadcast bias is the specification's projection at row
  n·2048 + s, column f.  The three column slices at offsets 0, 2048 and 4096, reshaped to [batch, position, head, feature],
  read column h·128 + d of their slice.  The rotation multiplies the first 64 features by the table entry of the position and
  joins two copies along the feature axis, so feature d reads feature d mod 64.  The scores are the inner products of the
  rotated rows over the 128 features times the scale; their softmax along the keys is the library's row softmax; the output is
  the softmax applied to the value rows, and the final transpose and reshape put (n, h, s, d) at row n·2048 + s, column
  h·128 + d.
-/
import proofs.«177219_j15144054686376_2_alg».proof.Proof.Gen.ReferenceIdeal.Read
import proofs.«177219_j15144054686376_2_alg».proof.Proof.Spec
import proofs.«177219_j15144054686376_2_alg».proof.Proof.LibLastAxisSoftmax
import proofs.«177219_j15144054686376_2_alg».proof.Proof.LibHostRead

noncomputable section

namespace Cert.ReferenceIdeal.RefValue

open Cert.ReferenceIdeal Cert.ReferenceIdeal.Gen Cert.ReferenceIdeal.Read Idealize.ShloMosaic Idealize.ShloMosaic.ValueIdx Idealize.ShloMosaic.LastAxisSoftmax Cert.Spec

/-- Two copies of one array [2, 2048, 16, 64] joined along the last axis: feature `d` of the result reads feature
    `d mod 64` of the array. -/
theorem concat_halves {α : Type} (y : S2x2048x16x64.Idx → α)
    (hc : Shape.Concatenates [S2x2048x16x64, S2x2048x16x64] S2x2048x16x128 3)
    (n : Fin 2) (s : Fin 2048) (h : Fin 16) (d : Fin 128) :
    concatenate S2x2048x16x128 3 [⟨S2x2048x16x64, y⟩, ⟨S2x2048x16x64, y⟩] hc (ix4 n s h d) = y (ix4 n s h (half d)) := by
  have hd := d.isLt
  by_cases hlt : d.val < 64
  · refine concatenate_pair_apply_left 3 y y hc (ix4 n s h d) rfl (ix4 n s h (half d)) ?_
    intro b
    match b with
    | ⟨0, _⟩ => rfl
    | ⟨1, _⟩ => rfl
    | ⟨2, _⟩ => rfl
    | ⟨3, _⟩ => show d.val % 64 = d.val; omega
  · refine concatenate_pair_apply_right 3 y y hc (ix4 n s h d) rfl rfl (ix4 n s h (half d)) ?_ ?_
    · intro b hb
      match b, hb with
      | ⟨0, _⟩, _ => rfl
      | ⟨1, _⟩, _ => rfl
      | ⟨2, _⟩, _ => rfl
      | ⟨3, _⟩, hb => exact (hb (Fin.ext rfl)).elim
    · show d.val % 64 + 64 = d.val; omega

section
variable (x0 : (⟨S2x2048x2048, .f32⟩ : BufTy).Contents (Elt Ideal)) (x1 : (⟨S6144x2048, .f32⟩ : BufTy).Contents (Elt Ideal))
  (x2 : (⟨S6144, .f32⟩ : BufTy).Contents (Elt Ideal)) (x3 : (⟨S2048x64, .f32⟩ : BufTy).Contents (Elt Ideal))

/-- The projection with its bias at (n, s, f) is the specification's projection at row n·2048 + s, column f. -/
theorem v3_at (n : Fin 2) (s : Fin 2048) (f : Fin 6144) :
    val_main_v3 x0 x1 x2 (ix3 n s f) = projRef x0 x1 x2 (ix2 (row n s) f) := by
  rw [val_main_v3_apply, val_main_v0_apply, val_main_v2_apply, val_main_v1_apply, Ideal.addf_def]
  unfold projRef
  have hn := n.isLt
  have hs := s.isLt
  refine congrArg₂ (· + ·) (Finset.sum_congr rfl fun k _ => congrArg₂ (· * ·) (congrArg x0 ?_) (congrArg x1 ?_)) (congrArg x2 ?_)
  · funext a; apply Fin.ext
    match a with
    | ⟨0, _⟩ => show n.val = (n.val * 2048 + s.val) / 2048; omega
    | ⟨1, _⟩ => show s.val = (n.val * 2048 + s.val) % 2048; omega
    | ⟨2, _⟩ => rfl
  · funext a; apply Fin.ext
    match a with
    | ⟨0, _⟩ => rfl
    | ⟨1, _⟩ => rfl
  · funext a; apply Fin.ext
    match a with
    | ⟨0, _⟩ => rfl

/-- The value rows: the third column slice, reshaped and transposed. -/
theorem v21_at (n : Fin 2) (h : Fin 16) (s : Fin 2048) (d : Fin 128) :
    val_main_v21 x0 x1 x2 (ix4 n h s d) = vv (projRef x0 x1 x2) n h s d := by
  rw [val_main_v21_apply, val_main_v9_apply, val_main_v6_apply]
  have e : idx_main_v6 (idx_main_v9 (idx_main_v21 (ix4 n h s d))) = ix3 n s (vf h d) := by
    funext a; apply Fin.ext
    have hn := n.isLt
    have hs := s.isLt
    have hh := h.isLt
    have hd := d.isLt
    match a with
    | ⟨0, _⟩ => show (((n.val * 2048 + s.val) * 16 + h.val) * 128 + d.val) / 4194304 = n.val; omega
    | ⟨1, _⟩ => show (((n.val * 2048 + s.val) * 16 + h.val) * 128 + d.val) / 2048 % 2048 = s.val; omega
    | ⟨2, _⟩ => show 4096 + (((n.val * 2048 + s.val) * 16 + h.val) * 128 + d.val) % 2048 = 4096 + h.val * 128 + d.val; omega
  rw [e, v3_at]
  rfl

/-- The query half before the repeat: the first 64 features of head `h`'s query columns times the table. -/
theorem v13_at (n : Fin 2) (s : Fin 2048) (h : Fin 16) (c : Fin 64) :
    val_main_v13 x0 x1 x2 x3 (ix4 n s h c) = projRef x0 x1 x2 (ix2 (row n s) (qf h c)) * x3 (ix2 s c) := by
  rw [val_main_v13_apply, val_main_v11_apply, val_main_v7_apply, val_main_v4_apply, val_main_v12_apply,
    val_main_v10_apply, Ideal.mulf_def]
  have e : idx_main_v4 (idx_main_v7 (idx_main_v11 (ix4 n s h c))) = ix3 n s (qf h c) := by
    funext a; apply Fin.ext
    have hn := n.isLt
    have hs := s.isLt
    have hh := h.isLt
    have hc := c.isLt
    match a with
    | ⟨0, _⟩ => show (((n.val * 2048 + s.val) * 16 + h.val) * 128 + c.val) / 4194304 = n.val; omega
    | ⟨1, _⟩ => show (((n.val * 2048 + s.val) * 16 + h.val) * 128 + c.val) / 2048 % 2048 = s.val; omega
    | ⟨2, _⟩ => show (((n.val * 2048 + s.val) * 16 + h.val) * 128 + c.val) % 2048 = h.val * 128 + c.val; omega
  have e' : idx_main_v10 (idx_main_v12 (ix4 n s h c)) = ix2 s c := by
    funext a; apply Fin.ext
    match a with
    | ⟨0, _⟩ => rfl
    | ⟨1, _⟩ => rfl
  rw [e, e', v3_at]

/-- The key half before the repeat: the first 64 features of head `h`'s key columns times the table. -/
theorem v16_at (n : Fin 2) (s : Fin 2048) (h : Fin 16) (c : Fin 64) :
    val_main_v16 x0 x1 x2 x3 (ix4 n s h c) = projRef x0 x1 x2 (ix2 (row n s) (kf h c)) * x3 (ix2 s c) := by
  rw [val_main_v16_apply, val_main_v14_apply, val_main_v8_apply, val_main_v5_apply, val_main_v15_apply,
    val_main_v10_apply, Ideal.mulf_def]
  have e : idx_main_v5 (idx_main_v8 (idx_main_v14 (ix4 n s h c))) = ix3 n s (kf h c) := by
    funext a; apply Fin.ext
    have hn := n.isLt
    have hs := s.isLt
    have hh := h.isLt
    have hc := c.isLt
    match a with
    | ⟨0, _⟩ => show (((n.val * 2048 + s.val) * 16 + h.val) * 128 + c.val) / 4194304 = n.val; omega
    | ⟨1, _⟩ => show (((n.val * 2048 + s.val) * 16 + h.val) * 128 + c.val) / 2048 % 2048 = s.val; omega
    | ⟨2, _⟩ => show 2048 + (((n.val * 2048 + s.val) * 16 + h.val) * 128 + c.val) % 2048 = 2048 + h.val * 128 + c.val; omega
  have e' : idx_main_v10 (idx_main_v15 (ix4 n s h c)) = ix2 s c := by
    funext a; apply Fin.ext
    match a with
    | ⟨0, _⟩ => rfl
    | ⟨1, _⟩ => rfl
  rw [e, e', v3_at]

/-- The repeated query half. -/
theorem v17_at (n : Fin 2) (s : Fin 2048) (h : Fin 16) (d : Fin 128) :
    val_main_v17 x0 x1 x2 x3 (ix4 n s h d) = val_main_v13 x0 x1 x2 x3 (ix4 n s h (half d)) := by
  unfold val_main_v17
  generalize val_main_v13 (F := Ideal) x0 x1 x2 x3 = y
  exact concat_halves y _ n s h d

/-- The repeated key half. -/
theorem v18_at (n : Fin 2) (s : Fin 2048) (h : Fin 16) (d : Fin 128) :
    val_main_v18 x0 x1 x2 x3 (ix4 n s h d) = val_main_v16 x0 x1 x2 x3 (ix4 n s h (half d)) := by
  unfold val_main_v18
  generalize val_main_v16 (F := Ideal) x0 x1 x2 x3 = y
  exact concat_halves y _ n s h d

/-- The rotated query rows. -/
theorem v19_at (n : Fin 2) (h : Fin 16) (s : Fin 2048) (d : Fin 128) :
    val_main_v19 x0 x1 x2 x3 (ix4 n h s d) = qr (projRef x0 x1 x2) x3 n h s d := by
  rw [val_main_v19_apply]
  have e : idx_main_v19 (ix4 n h s d) = ix4 n s h d := by
    funext a; apply Fin.ext
    match a with
    | ⟨0, _⟩ => rfl
    | ⟨1, _⟩ => rfl
    | ⟨2, _⟩ => rfl
    | ⟨3, _⟩ => rfl
  rw [e, v17_at, v13_at]
  rfl

/-- The rotated key rows. -/
theorem v20_at (n : Fin 2) (h : Fin 16) (s : Fin 2048) (d : Fin 128) :
    val_main_v20 x0 x1 x2 x3 (ix4 n h s d) = kr (projRef x0 x1 x2) x3 n h s d := by
  rw [val_main_v20_apply]
  have e : idx_main_v20 (ix4 n h s d) = ix4 n s h d := by
    funext a; apply Fin.ext
    match a with
    | ⟨0, _⟩ => rfl
    | ⟨1, _⟩ => rfl
    | ⟨2, _⟩ => rfl
    | ⟨3, _⟩ => rfl
  rw [e, v18_at, v16_at]
  rfl

/-- The scaled scores. -/
theorem v24_at (n : Fin 2) (h : Fin 16) (s t : Fin 2048) :
    val_main_v24 x0 x1 x2 x3 (ix4 n h s t) = score (projRef x0 x1 x2) x3 n h s t := by
  rw [val_main_v24_apply, val_main_v22_apply, val_main_v23_apply, val_main_cst_apply, Ideal.mulf_def, Ideal.ofBits_def]
  unfold score
  refine congrArg (· * scale) (Finset.sum_congr rfl fun k _ => ?_)
  have el : lidx_main_v22 (ix4 n h s t) k = ix4 n h s k := by
    funext a; apply Fin.ext
    match a with
    | ⟨0, _⟩ => rfl
    | ⟨1, _⟩ => rfl
    | ⟨2, _⟩ => rfl
    | ⟨3, _⟩ => rfl
  have er : ridx_main_v22 (ix4 n h s t) k = ix4 n h t k := by
    funext a; apply Fin.ext
    match a with
    | ⟨0, _⟩ => rfl
    | ⟨1, _⟩ => rfl
    | ⟨2, _⟩ => rfl
    | ⟨3, _⟩ => rfl
  rw [el, er, v19_at, v20_at]

/-- The softmax stages are the library's last-axis softmax of the scores. -/
theorem v35_eq : val_main_v35 x0 x1 x2 x3
    = hostSoftmax4 (F := Ideal) (val_main_v24 x0 x1 x2 x3) reducesTo_S2x16x2048x2048_S2x16x2048_d3 h_S_ bcast_S_S2x16x2048
        bcast_S2x16x2048_S2x16x2048x1_0_1_2 bcast_S2x16x2048x1_S2x16x2048x2048_0_1_2_3 := by
  unfold val_main_v35 val_main_v34 val_main_v33 val_main_v32 val_main_v31 val_main_v30 val_main_v29 val_main_v28 val_main_v27
    val_main_v26 val_main_v25 val_main_cst_0 val_main_cst_1 val_main_cst_2 hostSoftmax4
  generalize val_main_v24 (F := Ideal) x0 x1 x2 x3 = X
  rfl

/-- The attention weights: the softmax of a query's scores. -/
theorem v35_at (n : Fin 2) (h : Fin 16) (s t : Fin 2048) :
    val_main_v35 x0 x1 x2 x3 (ix4 n h s t)
      = softmaxAt (fun t' : Fin 2048 => score (projRef x0 x1 x2) x3 n h s t') t := by
  have hr : S2x16x2048x2048.Reduces [3] S2x16x2048 := by decide
  rw [v35_eq, hostSoftmax4_apply _ _ hr]
  exact congrArg (fun f : Fin 2048 → EReal => softmaxAt f t) (funext fun k => v24_at x0 x1 x2 x3 n h s k)

/-- The attention output. -/
theorem v36_at (n : Fin 2) (h : Fin 16) (s : Fin 2048) (d : Fin 128) :
    val_main_v36 x0 x1 x2 x3 (ix4 n h s d) = att (projRef x0 x1 x2) x3 n h s d := by
  rw [val_main_v36_apply]
  unfold att
  refine Finset.sum_congr rfl fun k _ => ?_
  have el : lidx_main_v36 (ix4 n h s d) k = ix4 n h s k := by
    funext a; apply Fin.ext
    match a with
    | ⟨0, _⟩ => rfl
    | ⟨1, _⟩ => rfl
    | ⟨2, _⟩ => rfl
    | ⟨3, _⟩ => rfl
  have er : ridx_main_v36 (ix4 n h s d) k = ix4 n h k d := by
    funext a; apply Fin.ext
    match a with
    | ⟨0, _⟩ => rfl
    | ⟨1, _⟩ => rfl
    | ⟨2, _⟩ => rfl
    | ⟨3, _⟩ => rfl
  rw [el, er, v35_at, v21_at]

/-- The first result at row `r`, column `f`: the attention output of batch ⌊r/2048⌋, head ⌊f/128⌋, position r mod 2048,
    feature f mod 128. -/
theorem v38_at (r : Fin 4096) (f : Fin 2048) :
    val_main_v38 x0 x1 x2 x3 (ix2 r f) = yAt (projRef x0 x1 x2) x3 r f := by
  rw [val_main_v38_apply, val_main_v37_apply]
  have hr := r.isLt
  have hf := f.isLt
  have e : idx_main_v37 (idx_main_v38 (ix2 r f))
      = ix4 (⟨r.val / 2048, by omega⟩ : Fin 2) (⟨f.val / 128, by omega⟩ : Fin 16)
          (⟨r.val % 2048, Nat.mod_lt _ (by norm_num)⟩ : Fin 2048) (⟨f.val % 128, Nat.mod_lt _ (by norm_num)⟩ : Fin 128) := by
    funext a; apply Fin.ext
    match a with
    | ⟨0, _⟩ => show (r.val * 2048 + f.val) / 4194304 = r.val / 2048; omega
    | ⟨1, _⟩ => show (r.val * 2048 + f.val) / 128 % 16 = f.val / 128; omega
    | ⟨2, _⟩ => show (r.val * 2048 + f.val) / 2048 % 2048 = r.val % 2048; omega
    | ⟨3, _⟩ => show (r.val * 2048 + f.val) % 128 = f.val % 128; omega
  rw [e, v36_at]
  rfl

/-- The reference's first result is the attention output of the projection. -/
theorem ref_y : val_main_v38 x0 x1 x2 x3 = Gy (projRef x0 x1 x2) x3 := by
  funext i
  obtain ⟨r, f, rfl⟩ : ∃ (r : Fin 4096) (f : Fin 2048), i = ix2 r f := ⟨_, _, eq_ix2 i⟩
  exact v38_at x0 x1 x2 x3 r f

/-- The reference's second result is the rotated keys of the projection. -/
theorem ref_k : val_main_v20 x0 x1 x2 x3 = Gk (projRef x0 x1 x2) x3 := by
  funext i
  obtain ⟨n, h, s, d, rfl⟩ : ∃ (n : Fin 2) (h : Fin 16) (s : Fin 2048) (d : Fin 128), i = ix4 n h s d :=
    ⟨_, _, _, _, eq_ix4 i⟩
  exact v20_at x0 x1 x2 x3 n h s d

/-- The reference's third result is the values of the projection. -/
theorem ref_v : val_main_v21 x0 x1 x2 = Gv (projRef x0 x1 x2) := by
  funext i
  obtain ⟨n, h, s, d, rfl⟩ : ∃ (n : Fin 2) (h : Fin 16) (s : Fin 2048) (d : Fin 128), i = ix4 n h s d :=
    ⟨_, _, _, _, eq_ix4 i⟩
  exact v21_at x0 x1 x2 n h s d

end

end Cert.ReferenceIdeal.RefValue

end
-- ==== Proof.lean ====
/-
  The certificate's five claims, from the runs of its three programs.

  A kernel program's run ends with every unscoped buffer of every core at the last contents of a fold from the launch
  memory, and no item of the fold writes an argument: the arguments end as launched, at the word level and at the ideal
  instance alike.  The reference's run leaves its arguments as launched too.  The idealized kernel is the kernel's own text read on the extended reals, no
  operation rewritten, so the preservation claim is the trivial one.  At the ideal instance the kernel's three results are the attention output, the rotated keys and the
  values of the projection of its arguments, and the reference's three results are the same three arrays of its own
  arguments; from memories that agree on the arguments the two programs therefore end with equal results.
-/
import proofs.«177219_j15144054686376_2_alg».proof.Defs
import proofs.«177219_j15144054686376_2_alg».proof.Proof.Gen.Kernel
import proofs.«177219_j15144054686376_2_alg».proof.Proof.Gen.KernelIdeal
import proofs.«177219_j15144054686376_2_alg».proof.Proof.Gen.ReferenceIdeal
import proofs.«177219_j15144054686376_2_alg».proof.Proof.Gen.Pre_finite_inputs
import proofs.«177219_j15144054686376_2_alg».proof.Proof.KernelFrame.Run
import proofs.«177219_j15144054686376_2_alg».proof.Proof.KernelIdealFrame.Run
import proofs.«177219_j15144054686376_2_alg».proof.Proof.KernelValue
import proofs.«177219_j15144054686376_2_alg».proof.Proof.RefValue
import Idealize.ShloMosaic.Adequacy
import Idealize.ShloMosaic.Init

noncomputable section

namespace Cert.Proof

open Idealize.ShloMosaic Idealize.ShloMosaic.TcCoe Idealize.SL.Sem

section Kernel
open Cert.Kernel Cert.Kernel.Hand

/-- The word-level kernel runs and its four arguments end as launched: each is an unscoped buffer, read off the last
    contents of the fold, which no item writes. -/
theorem frame_kernel : Cert.frame_Kernel := by
  intro m ρ _
  refine (θ_run (defs (F := Bits)) _ _).mono (fun r h c => ?_) (run_all (F := Bits) m ρ)
  exact ⟨(h c (Proc.devRef .tc main_arg0) (Finset.mem_filter.mpr ⟨StableHlo.devRef_mem_tcRefs main_arg0, by decide⟩)).trans (W3_main_arg0 m c),
    (h c (Proc.devRef .tc main_arg1) (Finset.mem_filter.mpr ⟨StableHlo.devRef_mem_tcRefs main_arg1, by decide⟩)).trans (W3_main_arg1 m c),
    (h c (Proc.devRef .tc main_arg2) (Finset.mem_filter.mpr ⟨StableHlo.devRef_mem_tcRefs main_arg2, by decide⟩)).trans (W3_main_arg2 m c),
    (h c (Proc.devRef .tc main_arg3) (Finset.mem_filter.mpr ⟨StableHlo.devRef_mem_tcRefs main_arg3, by decide⟩)).trans (W3_main_arg3 m c)⟩

end Kernel

section KernelIdeal
open Cert.KernelIdeal Cert.KernelIdeal.Hand Cert.KernelIdeal.KernelValue Cert.Spec

/-- The idealized kernel runs and its four arguments end as launched. -/
theorem frame_kernelIdeal : Cert.frame_KernelIdeal := by
  intro m ρ _
  refine (θ_run (defs (F := Ideal)) _ _).mono (fun r h c => ?_) (run_all (F := Ideal) m ρ)
  exact ⟨(h c (Proc.devRef .tc main_arg0) (Finset.mem_filter.mpr ⟨StableHlo.devRef_mem_tcRefs main_arg0, by decide⟩)).trans (W3_main_arg0 m c),
    (h c (Proc.devRef .tc main_arg1) (Finset.mem_filter.mpr ⟨StableHlo.devRef_mem_tcRefs main_arg1, by decide⟩)).trans (W3_main_arg1 m c),
    (h c (Proc.devRef .tc main_arg2) (Finset.mem_filter.mpr ⟨StableHlo.devRef_mem_tcRefs main_arg2, by decide⟩)).trans (W3_main_arg2 m c),
    (h c (Proc.devRef .tc main_arg3) (Finset.mem_filter.mpr ⟨StableHlo.devRef_mem_tcRefs main_arg3, by decide⟩)).trans (W3_main_arg3 m c)⟩

/-- The idealized kernel's run ends with its three results at the attention output, the rotated keys and the values of
    the projection of its arguments, and the arguments as launched. -/
theorem kernel_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5_0) = Gy (projRef (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_v5_1) = Gk (projRef (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_v5_2) = Gv (projRef (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r h c => ?_) (run_all (F := Ideal) m ρ)
  exact ⟨(h c (Proc.devRef .tc main_v5_0) (Finset.mem_filter.mpr ⟨StableHlo.devRef_mem_tcRefs main_v5_0, by decide⟩)).trans (out_y m c),
    (h c (Proc.devRef .tc main_v5_1) (Finset.mem_filter.mpr ⟨StableHlo.devRef_mem_tcRefs main_v5_1, by decide⟩)).trans (out_k m c),
    (h c (Proc.devRef .tc main_v5_2) (Finset.mem_filter.mpr ⟨StableHlo.devRef_mem_tcRefs main_v5_2, by decide⟩)).trans (out_v m c),
    (h c (Proc.devRef .tc main_arg0) (Finset.mem_filter.mpr ⟨StableHlo.devRef_mem_tcRefs main_arg0, by decide⟩)).trans (W3_main_arg0 m c),
    (h c (Proc.devRef .tc main_arg1) (Finset.mem_filter.mpr ⟨StableHlo.devRef_mem_tcRefs main_arg1, by decide⟩)).trans (W3_main_arg1 m c),
    (h c (Proc.devRef .tc main_arg2) (Finset.mem_filter.mpr ⟨StableHlo.devRef_mem_tcRefs main_arg2, by decide⟩)).trans (W3_main_arg2 m c),
    (h c (Proc.devRef .tc main_arg3) (Finset.mem_filter.mpr ⟨StableHlo.devRef_mem_tcRefs main_arg3, by decide⟩)).trans (W3_main_arg3 m c)⟩

end KernelIdeal

section Reference
open Cert.ReferenceIdeal Cert.ReferenceIdeal.Read Cert.ReferenceIdeal.RefValue Cert.Spec

/-- The reference runs and its four arguments end as launched. -/
theorem frame_reference : Cert.frame_ReferenceIdeal := by
  intro m ρ _
  exact (θ_run (defs (F := Ideal)) _ _).mono (fun _ h c => (h c).2.2.2) (Cert.ReferenceIdeal.Value.run (F := Ideal) m ρ)

/-- The reference's run ends with its three results at the attention output, the rotated keys and the values of the
    projection of its arguments, and the arguments as launched. -/
theorem reference_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38) = Gy (projRef (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_v20) = Gk (projRef (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_v21) = Gv (projRef (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r h c => ?_) (Cert.ReferenceIdeal.Value.run (F := Ideal) m ρ)
  obtain ⟨h38, h20, h21, hargs⟩ := h c
  exact ⟨h38.trans ((val_main_v38_eq m c).trans (ref_y _ _ _ _)),
    h20.trans ((val_main_v20_eq _ _ _ _).trans (ref_k _ _ _ _)),
    h21.trans ((val_main_v21_eq _ _ _).trans (ref_v _ _ _)), hargs⟩

end Reference

/-- From memories that agree on the arguments, the idealized kernel and the reference both run, end with equal results —
    the three arrays of the specification at the kernel's arguments — and leave their arguments as launched. -/
theorem algebraic : Cert.algebraic_KernelIdeal_ReferenceIdeal := by
  intro m ρ m' ρ' _ hagree
  refine ⟨_, _, _, kernel_results m ρ, ?_⟩
  refine (θ_run (Cert.ReferenceIdeal.defs (F := Ideal)) _ _).mono (fun r h c => ?_) (reference_results m' ρ')
  obtain ⟨e0, e1, e2, e3⟩ := hagree c
  rw [← e0, ← e1, ← e2, ← e3]
  exact h c

/-- The five claims behind the witnesses of the programs' stated facts. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
